-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v26_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x55 : Shape := ⟨2, ![65536, 55]⟩
abbrev S65536x30 : Shape := ⟨2, ![65536, 30]⟩
abbrev S80x256 : Shape := ⟨2, ![80, 256]⟩
abbrev S256 : Shape := ⟨1, ![256]⟩
abbrev S256x256 : Shape := ⟨2, ![256, 256]⟩
abbrev S256x4 : Shape := ⟨2, ![256, 4]⟩
abbrev S4 : Shape := ⟨1, ![4]⟩
abbrev S_ : Shape := ⟨0, ![]⟩

class Facts : Prop where
  bcast_S_S65536x55 : S_.BroadcastsInDim S65536x55 (![] : Fin 0 → Fin S65536x55.rank)
  reducesTo_S65536x55_S_d0_1 : S65536x55.ReducesTo [0, 1] S_
  h_S_ : 0 < S_.numel
  bcast_S_S65536x30 : S_.BroadcastsInDim S65536x30 (![] : Fin 0 → Fin S65536x30.rank)
  reducesTo_S65536x30_S_d0_1 : S65536x30.ReducesTo [0, 1] S_
  bcast_S_S80x256 : S_.BroadcastsInDim S80x256 (![] : Fin 0 → Fin S80x256.rank)
  reducesTo_S80x256_S_d0_1 : S80x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x4 : S_.BroadcastsInDim S256x4 (![] : Fin 0 → Fin S256x4.rank)
  reducesTo_S256x4_S_d0_1 : S256x4.ReducesTo [0, 1] S_
  bcast_S_S4 : S_.BroadcastsInDim S4 (![] : Fin 0 → Fin S4.rank)
  reducesTo_S4_S_d0 : S4.ReducesTo [0] S_

variable [Facts]

def fn_part3 {F : FTy → Type} [FloatOps F] (main_arg11 : FVec F S256x4 .f32) (main_arg12 : FVec F S4 .f32) (main_v48 : IVec S_ 1) (main_v49 : FVec F S4 .f32) (main_v50 : FVec F S4 .f32) : IVec S_ 1 :=
  let main_v51 : IVec S4 1 := cmpf .olt main_v49 main_v50
  let main_c_19 : IVec S_ 1 := constantI S_ 1 1#1
  let main_v52 : IVec S_ 1 := (fun x v => Host.reduce IntOp.andi x v reducesTo_S4_S_d0 h_S_) main_v51 main_c_19
  let main_v53 : IVec S_ 1 := andi main_v48 main_v52
  let main_v54 : FVec F S256x4 .f32 := Host.absf main_arg11
  let main_cst_20 : FVec F S_ .f32 := constant S_ .f32 0x7F800000#32
  let main_v55 : FVec F S256x4 .f32 := broadcastInDim S256x4 ![] bcast_S_S256x4 main_cst_20
  let main_v56 : IVec S256x4 1 := cmpf .olt main_v54 main_v55
  let main_c_21 : IVec S_ 1 := constantI S_ 1 1#1
  let main_v57 : IVec S_ 1 := (fun x v => Host.reduce IntOp.andi x v reducesTo_S256x4_S_d0_1 h_S_) main_v56 main_c_21
  let main_v58 : IVec S_ 1 := andi main_v53 main_v57
  let main_v59 : FVec F S4 .f32 := Host.absf main_arg12
  let main_cst_22 : FVec F S_ .f32 := constant S_ .f32 0x7F800000#32
  let main_v60 : FVec F S4 .f32 := broadcastInDim S4 ![] bcast_S_S4 main_cst_22
  let main_v61 : IVec S4 1 := cmpf .olt main_v59 main_v60
  let main_c_23 : IVec S_ 1 := constantI S_ 1 1#1
  let main_v62 : IVec S_ 1 := (fun x v => Host.reduce IntOp.andi x v reducesTo_S4_S_d0 h_S_) main_v61 main_c_23
  let main_v63 : IVec S_ 1 := andi main_v58 main_v62
  main_v63

def fn_part2 {F : FTy → Type} [FloatOps F] (main_arg7 : FVec F S256x256 .f32) (main_arg8 : FVec F S256 .f32) (main_arg9 : FVec F S256x4 .f32) (main_arg10 : FVec F S4 .f32) (main_arg11 : FVec F S256x4 .f32) (main_arg12 : FVec F S4 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x4 .f32 := Host.absf main_arg9
  let main_cst_16 : FVec F S_ .f32 := constant S_ .f32 0x7F800000#32
  let main_v45 : FVec F S256x4 .f32 := broadcastInDim S256x4 ![] bcast_S_S256x4 main_cst_16
  let main_v46 : IVec S256x4 1 := cmpf .olt main_v44 main_v45
  let main_c_17 : IVec S_ 1 := constantI S_ 1 1#1
  let main_v47 : IVec S_ 1 := (fun x v => Host.reduce IntOp.andi x v reducesTo_S256x4_S_d0_1 h_S_) main_v46 main_c_17
  let main_v48 : IVec S_ 1 := andi main_v43 main_v47
  let main_v49 : FVec F S4 .f32 := Host.absf main_arg10
  let main_cst_18 : FVec F S_ .f32 := constant S_ .f32 0x7F800000#32
  let main_v50 : FVec F S4 .f32 := broadcastInDim S4 ![] bcast_S_S4 main_cst_18
  fn_part3 (F := F) main_arg11 main_arg12 main_v48 main_v49 main_v50

def fn_part1 {F : FTy → Type} [FloatOps F] (main_arg4 : FVec F S256 .f32) (main_arg5 : FVec F S256x256 .f32) (main_arg6 : FVec F S256 .f32) (main_arg7 : FVec F S256x256 .f32) (main_arg8 : FVec F S256 .f32) (main_arg9 : FVec F S256x4 .f32) (main_arg10 : FVec F S4 .f32) (main_arg11 : FVec F S256x4 .f32) (main_arg12 : FVec F S4 .f32) (main_v13 : IVec S_ 1) (main_v16 : IVec S80x256 1) : IVec S_ 1 :=
  let main_c_5 : IVec S_ 1 := constantI S_ 1 1#1
  let main_v17 : IVec S_ 1 := (fun x v => Host.reduce IntOp.andi x v reducesTo_S80x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S65536x55 .f32) (main_arg1 : FVec F S65536x30 .f32) (main_arg2 : FVec F S65536x30 .f32) (main_arg3 : FVec F S80x256 .f32) (main_arg4 : FVec F S256 .f32) (main_arg5 : FVec F S256x256 .f32) (main_arg6 : FVec F S256 .f32) (main_arg7 : FVec F S256x256 .f32) (main_arg8 : FVec F S256 .f32) (main_arg9 : FVec F S256x4 .f32) (main_arg10 : FVec F S4 .f32) (main_arg11 : FVec F S256x4 .f32) (main_arg12 : FVec F S4 .f32) : IVec S_ 1 :=
  let main_v0 : FVec F S65536x55 .f32 := Host.absf main_arg0
  let main_cst : FVec F S_ .f32 := constant S_ .f32 0x7F800000#32
  let main_v1 : FVec F S65536x55 .f32 := broadcastInDim S65536x55 ![] bcast_S_S65536x55 main_cst
  let main_v2 : IVec S65536x55 1 := cmpf .olt main_v0 main_v1
  let main_c : IVec S_ 1 := constantI S_ 1 1#1
  let main_v3 : IVec S_ 1 := (fun x v => Host.reduce IntOp.andi x v reducesTo_S65536x55_S_d0_1 h_S_) main_v2 main_c
  let main_v4 : FVec F S65536x30 .f32 := Host.absf main_arg1
  let main_cst_0 : FVec F S_ .f32 := constant S_ .f32 0x7F800000#32
  let main_v5 : FVec F S65536x30 .f32 := broadcastInDim S65536x30 ![] bcast_S_S65536x30 main_cst_0
  let main_v6 : IVec S65536x30 1 := cmpf .olt main_v4 main_v5
  let main_c_1 : IVec S_ 1 := constantI S_ 1 1#1
  let main_v7 : IVec S_ 1 := (fun x v => Host.reduce IntOp.andi x v reducesTo_S65536x30_S_d0_1 h_S_) main_v6 main_c_1
  let main_v8 : IVec S_ 1 := andi main_v3 main_v7
  let main_v9 : FVec F S65536x30 .f32 := Host.absf main_arg2
  let main_cst_2 : FVec F S_ .f32 := constant S_ .f32 0x7F800000#32
  let main_v10 : FVec F S65536x30 .f32 := broadcastInDim S65536x30 ![] bcast_S_S65536x30 main_cst_2
  let main_v11 : IVec S65536x30 1 := cmpf .olt main_v9 main_v10
  let main_c_3 : IVec S_ 1 := constantI S_ 1 1#1
  let main_v12 : IVec S_ 1 := (fun x v => Host.reduce IntOp.andi x v reducesTo_S65536x30_S_d0_1 h_S_) main_v11 main_c_3
  let main_v13 : IVec S_ 1 := andi main_v8 main_v12
  let main_v14 : FVec F S80x256 .f32 := Host.absf main_arg3
  let main_cst_4 : FVec F S_ .f32 := constant S_ .f32 0x7F800000#32
  let main_v15 : FVec F S80x256 .f32 := broadcastInDim S80x256 ![] bcast_S_S80x256 main_cst_4
  let main_v16 : IVec S80x256 1 := cmpf .olt main_v14 main_v15
  fn_part1 (F := F) main_arg4 main_arg5 main_arg6 main_arg7 main_arg8 main_arg9 main_arg10 main_arg11 main_arg12 main_v13 main_v16
-- ==== Kernel.lean ====
abbrev S65536x55 : Shape := ⟨2, ![65536, 55]⟩
abbrev S65536x30 : Shape := ⟨2, ![65536, 30]⟩
abbrev S80x256 : Shape := ⟨2, ![80, 256]⟩
abbrev S256 : Shape := ⟨1, ![256]⟩
abbrev S256x256 : Shape := ⟨2, ![256, 256]⟩
abbrev S256x4 : Shape := ⟨2, ![256, 4]⟩
abbrev S4 : Shape := ⟨1, ![4]⟩
abbrev S20 : Shape := ⟨1, ![20]⟩
abbrev S_ : Shape := ⟨0, ![]⟩
abbrev S20x1 : Shape := ⟨2, ![20, 1]⟩
abbrev S65536x20 : Shape := ⟨2, ![65536, 20]⟩
abbrev S256x8 : Shape := ⟨2, ![256, 8]⟩
abbrev S8 : Shape := ⟨1, ![8]⟩
abbrev S65536x4 : Shape := ⟨2, ![65536, 4]⟩
abbrev S2048x55 : Shape := ⟨2, ![2048, 55]⟩
abbrev S2048x20 : Shape := ⟨2, ![2048, 20]⟩
abbrev S2048x4 : Shape := ⟨2, ![2048, 4]⟩
abbrev S2048x10 : Shape := ⟨2, ![2048, 10]⟩
abbrev S2048x15 : Shape := ⟨2, ![2048, 15]⟩
abbrev S2048x256 : Shape := ⟨2, ![2048, 256]⟩
abbrev S2048x80 : Shape := ⟨2, ![2048, 80]⟩
abbrev S1x256 : Shape := ⟨2, ![1, 256]⟩
abbrev S2048x8 : Shape := ⟨2, ![2048, 8]⟩
abbrev S1x8 : Shape := ⟨2, ![1, 8]⟩

abbrev nBuf : Space → Nat
  | .hbm => 51
  | .vmem => 22
  | .smem => 0
  | _ => 0

abbrev bufTy : (tb : Table) → Fin (tcTables nBuf tb) → BufTy
  | .hbm, ⟨0, _⟩ => ⟨S65536x55, .f32⟩
  | .hbm, ⟨1, _⟩ => ⟨S65536x30, .f32⟩
  | .hbm, ⟨2, _⟩ => ⟨S65536x30, .f32⟩
  | .hbm, ⟨3, _⟩ => ⟨S80x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x4, .f32⟩
  | .hbm, ⟨10, _⟩ => ⟨S4, .f32⟩
  | .hbm, ⟨11, _⟩ => ⟨S256x4, .f32⟩
  | .hbm, ⟨12, _⟩ => ⟨S4, .f32⟩
  | .hbm, ⟨13, _⟩ => ⟨S20, .i32⟩
  | .hbm, ⟨14, _⟩ => ⟨S20, .i1⟩
  | .hbm, ⟨15, _⟩ => ⟨S20, .i1⟩
  | .hbm, ⟨16, _⟩ => ⟨S20, .i32⟩
  | .hbm, ⟨17, _⟩ => ⟨S20, .i1⟩
  | .hbm, ⟨18, _⟩ => ⟨S20, .i1⟩
  | .hbm, ⟨19, _⟩ => ⟨S_, .i32⟩
  | .hbm, ⟨20, _⟩ => ⟨S20, .i32⟩
  | .hbm, ⟨21, _⟩ => ⟨S20, .i32⟩
  | .hbm, ⟨22, _⟩ => ⟨S20, .i32⟩
  | .hbm, ⟨23, _⟩ => ⟨S20x1, .i32⟩
  | .hbm, ⟨24, _⟩ => ⟨S65536x20, .f32⟩
  | .hbm, ⟨25, _⟩ => ⟨S65536x20, .bf16⟩
  | .hbm, ⟨26, _⟩ => ⟨S_, .i32⟩
  | .hbm, ⟨27, _⟩ => ⟨S20, .i32⟩
  | .hbm, ⟨28, _⟩ => ⟨S20, .i32⟩
  | .hbm, ⟨29, _⟩ => ⟨S20, .i32⟩
  | .hbm, ⟨30, _⟩ => ⟨S20x1, .i32⟩
  | .hbm, ⟨31, _⟩ => ⟨S65536x20, .f32⟩
  | .hbm, ⟨32, _⟩ => ⟨S65536x20, .bf16⟩
  | .hbm, ⟨33, _⟩ => ⟨S_, .i32⟩
  | .hbm, ⟨34, _⟩ => ⟨S20, .i32⟩
  | .hbm, ⟨35, _⟩ => ⟨S20, .i32⟩
  | .hbm, ⟨36, _⟩ => ⟨S20, .i32⟩
  | .hbm, ⟨37, _⟩ => ⟨S20x1, .i32⟩
  | .hbm, ⟨38, _⟩ => ⟨S65536x20, .f32⟩
  | .hbm, ⟨39, _⟩ => ⟨S65536x20, .bf16⟩
  | .hbm, ⟨40, _⟩ => ⟨S_, .i32⟩
  | .hbm, ⟨41, _⟩ => ⟨S20, .i32⟩
  | .hbm, ⟨42, _⟩ => ⟨S20, .i32⟩
  | .hbm, ⟨43, _⟩ => ⟨S20, .i32⟩
  | .hbm, ⟨44, _⟩ => ⟨S20x1, .i32⟩
  | .hbm, ⟨45, _⟩ => ⟨S65536x20, .f32⟩
  | .hbm, ⟨46, _⟩ => ⟨S65536x20, .bf16⟩
  | .hbm, ⟨47, _⟩ => ⟨S256x8, .f32⟩
  | .hbm, ⟨48, _⟩ => ⟨S8, .f32⟩
  | .hbm, ⟨49, _⟩ => ⟨S65536x4, .f32⟩
  | .hbm, ⟨50, _⟩ => ⟨S65536x4, .f32⟩
  | .local _ .vmem, ⟨0, _⟩ => ⟨S2048x55, .f32⟩
  | .local _ .vmem, ⟨1, _⟩ => ⟨S2048x55, .f32⟩
  | .local _ .vmem, ⟨2, _⟩ => ⟨S2048x20, .bf16⟩
  | .local _ .vmem, ⟨3, _⟩ => ⟨S2048x20, .bf16⟩
  | .local _ .vmem, ⟨4, _⟩ => ⟨S2048x20, .bf16⟩
  | .local _ .vmem, ⟨5, _⟩ => ⟨S2048x20, .bf16⟩
  | .local _ .vmem, ⟨6, _⟩ => ⟨S2048x20, .bf16⟩
  | .local _ .vmem, ⟨7, _⟩ => ⟨S2048x20, .bf16⟩
  | .local _ .vmem, ⟨8, _⟩ => ⟨S2048x20, .bf16⟩
  | .local _ .vmem, ⟨9, _⟩ => ⟨S2048x20, .bf16⟩
  | .local _ .vmem, ⟨10, _⟩ => ⟨S80x256, .f32⟩
  | .local _ .vmem, ⟨11, _⟩ => ⟨S256, .f32⟩
  | .local _ .vmem, ⟨12, _⟩ => ⟨S256x256, .f32⟩
  | .local _ .vmem, ⟨13, _⟩ => ⟨S256, .f32⟩
  | .local _ .vmem, ⟨14, _⟩ => ⟨S256x256, .f32⟩
  | .local _ .vmem, ⟨15, _⟩ => ⟨S256, .f32⟩
  | .local _ .vmem, ⟨16, _⟩ => ⟨S256x8, .f32⟩
  | .local _ .vmem, ⟨17, _⟩ => ⟨S8, .f32⟩
  | .local _ .vmem, ⟨18, _⟩ => ⟨S2048x4, .f32⟩
  | .local _ .vmem, ⟨19, _⟩ => ⟨S2048x4, .f32⟩
  | .local _ .vmem, ⟨20, _⟩ => ⟨S2048x4, .f32⟩
  | .local _ .vmem, ⟨21, _⟩ => ⟨S2048x4, .f32⟩
  | _, _ => ⟨S65536x55, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_c_0 : Ref sig .tc := ⟨.hbm, 14, rfl⟩
abbrev main_c_1 : Ref sig .tc := ⟨.hbm, 15, rfl⟩
abbrev main_c_2 : Ref sig .tc := ⟨.hbm, 16, rfl⟩
abbrev main_c_3 : Ref sig .tc := ⟨.hbm, 17, rfl⟩
abbrev main_c_4 : Ref sig .tc := ⟨.hbm, 18, rfl⟩
abbrev main_c_5 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_c_6 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_c_7 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c_8 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26_0 : Ref sig .tc := ⟨.hbm, 49, rfl⟩
abbrev main_v26_1 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x55 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x20 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x20 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x20 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x20 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S80x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2048x4 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2048x4 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  bcast_S_S20 : S_.BroadcastsInDim S20 (![] : Fin 0 → Fin S20.rank)
  bcast_S20_S20x1_0 : S20.BroadcastsInDim S20x1 (![0] : Fin 1 → Fin S20x1.rank)
  bitsLt_bf16_f32 : FTy.bits .bf16 < FTy.bits .f32
  concatenates_S256x4_S256x4_S256x8_d1 : Shape.Concatenates [S256x4, S256x4] S256x8 1
  concatenates_S4_S4_S8_d0 : Shape.Concatenates [S4, S4] S8 0
  inb_S2048x55_S2048x55_0_0 : ∀ a, (![0, 0] : Fin 2 → Nat) a + S2048x55.size a ≤ S2048x55.size a
  h_S2048x55 : 0 < S2048x55.numel
  slices_S2048x55_o0_0_S2048x10 : S2048x55.Slices ![0, 0] S2048x10
  slices_S2048x55_o0_10_S2048x15 : S2048x55.Slices ![0, 10] S2048x15
  slices_S2048x55_o0_25_S2048x15 : S2048x55.Slices ![0, 25] S2048x15
  slices_S2048x55_o0_40_S2048x15 : S2048x55.Slices ![0, 40] S2048x15
  inb_S2048x20_S2048x20_0_0 : ∀ a, (![0, 0] : Fin 2 → Nat) a + S2048x20.size a ≤ S2048x20.size a
  h_S2048x20 : 0 < S2048x20.numel
  shapeCasts_S2048x20_S2048x20 : S2048x20.ShapeCasts S2048x20
  inb_S80x256_S80x256_0_0 : ∀ a, (![0, 0] : Fin 2 → Nat) a + S80x256.size a ≤ S80x256.size a
  h_S80x256 : 0 < S80x256.numel
  inb_S256_S256_0 : ∀ a, (![0] : Fin 1 → Nat) a + S256.size a ≤ S256.size a
  h_S256 : 0 < S256.numel
  inb_S256x256_S256x256_0_0 : ∀ a, (![0, 0] : Fin 2 → Nat) a + S256x256.size a ≤ S256x256.size a
  h_S256x256 : 0 < S256x256.numel
  concatenates_S2048x20_S2048x10_S2048x20_S2048x15_S2048x15_S2048x80_d1 : Shape.Concatenates [S2048x20, S2048x10, S2048x20, S2048x15, S2048x15] S2048x80 1
  shapeCasts_S256_S1x256 : S256.ShapeCasts S1x256
  broadcasts_S1x256_S2048x256 : S1x256.Broadcasts S2048x256
  inb_S256x8_S256x8_0_0 : ∀ a, (![0, 0] : Fin 2 → Nat) a + S256x8.size a ≤ S256x8.size a
  h_S256x8 : 0 < S256x8.numel
  shapeCasts_S256x8_S256x8 : S256x8.ShapeCasts S256x8
  inb_S8_S8_0 : ∀ a, (![0] : Fin 1 → Nat) a + S8.size a ≤ S8.size a
  h_S8 : 0 < S8.numel
  shapeCasts_S8_S8 : S8.ShapeCasts S8
  shapeCasts_S8_S1x8 : S8.ShapeCasts S1x8
  broadcasts_S1x8_S2048x8 : S1x8.Broadcasts S2048x8
  slices_S2048x8_o0_0_S2048x4 : S2048x8.Slices ![0, 0] S2048x4
  inb_S2048x4_S2048x4_0_0 : ∀ a, (![0, 0] : Fin 2 → Nat) a + S2048x4.size a ≤ S2048x4.size a
  h_S2048x4 : 0 < S2048x4.numel
  slices_S2048x8_o0_4_S2048x4 : S2048x8.Slices ![0, 4] S2048x4
  gather_S65536x30_S20x1_S65536x20_0_1_n_n_1_1_655361_wf : GatherDims.WF S65536x30 S20x1 S65536x20 [0] [1] [] [1] [] 1 ![65536, 1]
  dot_S2048x80_S80x256_S2048x256_1_0_0_1_n_n_wf : DotDims.WF S2048x80 S80x256 S2048x256 [1] [0] [0] [1] [] []
  dot_S2048x256_S256x256_S2048x256_1_0_0_1_n_n_wf : DotDims.WF S2048x256 S256x256 S2048x256 [1] [0] [0] [1] [] []
  dot_S2048x256_S256x8_S2048x8_1_0_0_1_n_n_wf : DotDims.WF S2048x256 S256x8 S2048x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x55.size a ≤ S65536x55.size a
  hwx0_0 : ∀ i : grid0.Coords, EltTy.bits .f32 = 32 ∨ (Rect.block (s := S65536x55) S2048x55.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x20.size a ≤ S65536x20.size a
  hwx0_1 : ∀ i : grid0.Coords, EltTy.bits .bf16 = 32 ∨ (Rect.block (s := S65536x20) S2048x20.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x20.size a ≤ S65536x20.size a
  hwx0_2 : ∀ i : grid0.Coords, EltTy.bits .bf16 = 32 ∨ (Rect.block (s := S65536x20) S2048x20.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x20.size a ≤ S65536x20.size a
  hwx0_3 : ∀ i : grid0.Coords, EltTy.bits .bf16 = 32 ∨ (Rect.block (s := S65536x20) S2048x20.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x20.size a ≤ S65536x20.size a
  hwx0_4 : ∀ i : grid0.Coords, EltTy.bits .bf16 = 32 ∨ (Rect.block (s := S65536x20) S2048x20.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S80x256.size a ≤ S80x256.size a
  hwx0_5 : ∀ i : grid0.Coords, EltTy.bits .f32 = 32 ∨ (Rect.block (s := S80x256) S80x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .f32 = 32 ∨ (Rect.block (s := S256x256) S256x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256.size a ≤ S256.size a
  hwx0_10 : ∀ i : grid0.Coords, EltTy.bits .f32 = 32 ∨ (Rect.block (s := S256) S256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x8.size a ≤ S256x8.size a
  hwx0_11 : ∀ i : grid0.Coords, EltTy.bits .f32 = 32 ∨ (Rect.block (s := S256x8) S256x8.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S8.size a ≤ S8.size a
  hwx0_12 : ∀ i : grid0.Coords, EltTy.bits .f32 = 32 ∨ (Rect.block (s := S8) S8.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2048x4.size a ≤ S65536x4.size a
  hwx0_13 : ∀ i : grid0.Coords, EltTy.bits .f32 = 32 ∨ (Rect.block (s := S65536x4) S2048x4.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2048x4.size a ≤ S65536x4.size a
  hwx0_14 : ∀ i : grid0.Coords, EltTy.bits .f32 = 32 ∨ (Rect.block (s := S65536x4) S2048x4.size (cc0_transform_14 i) (hinb0_14 i)).WholeWords (EltTy.packing .f32)

variable [Facts₀]

def gather_S65536x30_S20x1_S65536x20_0_1_n_n_1_1_655361 : GatherDims S65536x30 S20x1 S65536x20 where
  offsetDims := [0]
  collapsedSliceDims := [1]
  operandBatchingDims := []
  startIndicesBatchingDims := []
  startIndexMap := [1]
  indexVectorDim := 1
  sliceSizes := ![65536, 1]
  wf := gather_S65536x30_S20x1_S65536x20_0_1_n_n_1_1_655361_wf
def dot_S2048x80_S80x256_S2048x256_1_0_0_1_n_n : DotDims S2048x80 S80x256 S2048x256 where
  lhsContracting := [1]
  rhsContracting := [0]
  lhsNonContracting := [0]
  rhsNonContracting := [1]
  lhsBatch := []
  rhsBatch := []
  wf := dot_S2048x80_S80x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x8_S2048x8_1_0_0_1_n_n : DotDims S2048x256 S256x8 S2048x8 where
  lhsContracting := [1]
  rhsContracting := [0]
  lhsNonContracting := [0]
  rhsNonContracting := [1]
  lhsBatch := []
  rhsBatch := []
  wf := dot_S2048x256_S256x8_S2048x8_1_0_0_1_n_n_wf

abbrev win0_0 : Pipeline.Window sig grid0 :=
  Pipeline.Window.ofSpec (Memref.whole main_arg0) S2048x55.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2048x20.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2048x20.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S2048x20.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v23) S2048x20.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S80x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v24) S256x8.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v25) S8.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v26_0) S2048x4.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v26_1) S2048x4.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S65536x55 : Shape := ⟨2, ![65536, 55]⟩
abbrev S65536x30 : Shape := ⟨2, ![65536, 30]⟩
abbrev S80x256 : Shape := ⟨2, ![80, 256]⟩
abbrev S256 : Shape := ⟨1, ![256]⟩
abbrev S256x256 : Shape := ⟨2, ![256, 256]⟩
abbrev S256x4 : Shape := ⟨2, ![256, 4]⟩
abbrev S4 : Shape := ⟨1, ![4]⟩
abbrev S20 : Shape := ⟨1, ![20]⟩
abbrev S65536x10 : Shape := ⟨2, ![65536, 10]⟩
abbrev S65536x15 : Shape := ⟨2, ![65536, 15]⟩
abbrev S_ : Shape := ⟨0, ![]⟩
abbrev S20x1 : Shape := ⟨2, ![20, 1]⟩
abbrev S65536x20 : Shape := ⟨2, ![65536, 20]⟩
abbrev S65536x80 : Shape := ⟨2, ![65536, 80]⟩
abbrev S1x65536x80 : Shape := ⟨3, ![1, 65536, 80]⟩
abbrev S6x65536x80 : Shape := ⟨3, ![6, 65536, 80]⟩
abbrev S6x65536x256 : Shape := ⟨3, ![6, 65536, 256]⟩
abbrev S1x1x256 : Shape := ⟨3, ![1, 1, 256]⟩
abbrev S65536x256 : Shape := ⟨2, ![65536, 256]⟩
abbrev S1x256 : Shape := ⟨2, ![1, 256]⟩
abbrev S65536x4 : Shape := ⟨2, ![65536, 4]⟩
abbrev S1x4 : Shape := ⟨2, ![1, 4]⟩

abbrev nBuf : Space → Nat
  | .hbm => 99
  | .vmem => 0
  | .smem => 0
  | _ => 0

abbrev bufTy : (tb : Table) → Fin (tcTables nBuf tb) → BufTy
  | .hbm, ⟨0, _⟩ => ⟨S65536x55, .f32⟩
  | .hbm, ⟨1, _⟩ => ⟨S65536x30, .f32⟩
  | .hbm, ⟨2, _⟩ => ⟨S65536x30, .f32⟩
  | .hbm, ⟨3, _⟩ => ⟨S80x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x4, .f32⟩
  | .hbm, ⟨10, _⟩ => ⟨S4, .f32⟩
  | .hbm, ⟨11, _⟩ => ⟨S256x4, .f32⟩
  | .hbm, ⟨12, _⟩ => ⟨S4, .f32⟩
  | .hbm, ⟨13, _⟩ => ⟨S20, .i32⟩
  | .hbm, ⟨14, _⟩ => ⟨S20, .i1⟩
  | .hbm, ⟨15, _⟩ => ⟨S20, .i1⟩
  | .hbm, ⟨16, _⟩ => ⟨S20, .i32⟩
  | .hbm, ⟨17, _⟩ => ⟨S20, .i1⟩
  | .hbm, ⟨18, _⟩ => ⟨S20, .i1⟩
  | .hbm, ⟨19, _⟩ => ⟨S65536x10, .f32⟩
  | .hbm, ⟨20, _⟩ => ⟨S65536x15, .f32⟩
  | .hbm, ⟨21, _⟩ => ⟨S65536x15, .f32⟩
  | .hbm, ⟨22, _⟩ => ⟨S65536x15, .f32⟩
  | .hbm, ⟨23, _⟩ => ⟨S_, .i32⟩
  | .hbm, ⟨24, _⟩ => ⟨S20, .i32⟩
  | .hbm, ⟨25, _⟩ => ⟨S20, .i32⟩
  | .hbm, ⟨26, _⟩ => ⟨S20, .i32⟩
  | .hbm, ⟨27, _⟩ => ⟨S20x1, .i32⟩
  | .hbm, ⟨28, _⟩ => ⟨S65536x20, .f32⟩
  | .hbm, ⟨29, _⟩ => ⟨S_, .i32⟩
  | .hbm, ⟨30, _⟩ => ⟨S20, .i32⟩
  | .hbm, ⟨31, _⟩ => ⟨S20, .i32⟩
  | .hbm, ⟨32, _⟩ => ⟨S20, .i32⟩
  | .hbm, ⟨33, _⟩ => ⟨S20x1, .i32⟩
  | .hbm, ⟨34, _⟩ => ⟨S65536x20, .f32⟩
  | .hbm, ⟨35, _⟩ => ⟨S_, .i32⟩
  | .hbm, ⟨36, _⟩ => ⟨S20, .i32⟩
  | .hbm, ⟨37, _⟩ => ⟨S20, .i32⟩
  | .hbm, ⟨38, _⟩ => ⟨S20, .i32⟩
  | .hbm, ⟨39, _⟩ => ⟨S20x1, .i32⟩
  | .hbm, ⟨40, _⟩ => ⟨S65536x20, .f32⟩
  | .hbm, ⟨41, _⟩ => ⟨S_, .i32⟩
  | .hbm, ⟨42, _⟩ => ⟨S20, .i32⟩
  | .hbm, ⟨43, _⟩ => ⟨S20, .i32⟩
  | .hbm, ⟨44, _⟩ => ⟨S20, .i32⟩
  | .hbm, ⟨45, _⟩ => ⟨S20x1, .i32⟩
  | .hbm, ⟨46, _⟩ => ⟨S65536x20, .f32⟩
  | .hbm, ⟨47, _⟩ => ⟨S65536x80, .f32⟩
  | .hbm, ⟨48, _⟩ => ⟨S65536x80, .f32⟩
  | .hbm, ⟨49, _⟩ => ⟨S65536x80, .f32⟩
  | .hbm, ⟨50, _⟩ => ⟨S65536x80, .f32⟩
  | .hbm, ⟨51, _⟩ => ⟨S65536x80, .f32⟩
  | .hbm, ⟨52, _⟩ => ⟨S65536x80, .f32⟩
  | .hbm, ⟨53, _⟩ => ⟨S1x65536x80, .f32⟩
  | .hbm, ⟨54, _⟩ => ⟨S1x65536x80, .f32⟩
  | .hbm, ⟨55, _⟩ => ⟨S1x65536x80, .f32⟩
  | .hbm, ⟨56, _⟩ => ⟨S1x65536x80, .f32⟩
  | .hbm, ⟨57, _⟩ => ⟨S1x65536x80, .f32⟩
  | .hbm, ⟨58, _⟩ => ⟨S1x65536x80, .f32⟩
  | .hbm, ⟨59, _⟩ => ⟨S6x65536x80, .f32⟩
  | .hbm, ⟨60, _⟩ => ⟨S6x65536x256, .f32⟩
  | .hbm, ⟨61, _⟩ => ⟨S1x1x256, .f32⟩
  | .hbm, ⟨62, _⟩ => ⟨S6x65536x256, .f32⟩
  | .hbm, ⟨63, _⟩ => ⟨S6x65536x256, .f32⟩
  | .hbm, ⟨64, _⟩ => ⟨S_, .f32⟩
  | .hbm, ⟨65, _⟩ => ⟨S6x65536x256, .f32⟩
  | .hbm, ⟨66, _⟩ => ⟨S6x65536x256, .f32⟩
  | .hbm, ⟨67, _⟩ => ⟨S6x65536x256, .f32⟩
  | .hbm, ⟨68, _⟩ => ⟨S1x1x256, .f32⟩
  | .hbm, ⟨69, _⟩ => ⟨S6x65536x256, .f32⟩
  | .hbm, ⟨70, _⟩ => ⟨S6x65536x256, .f32⟩
  | .hbm, ⟨71, _⟩ => ⟨S_, .f32⟩
  | .hbm, ⟨72, _⟩ => ⟨S6x65536x256, .f32⟩
  | .hbm, ⟨73, _⟩ => ⟨S6x65536x256, .f32⟩
  | .hbm, ⟨74, _⟩ => ⟨S_, .f32⟩
  | .hbm, ⟨75, _⟩ => ⟨S65536x256, .f32⟩
  | .hbm, ⟨76, _⟩ => ⟨S65536x256, .f32⟩
  | .hbm, ⟨77, _⟩ => ⟨S1x256, .f32⟩
  | .hbm, ⟨78, _⟩ => ⟨S65536x256, .f32⟩
  | .hbm, ⟨79, _⟩ => ⟨S65536x256, .f32⟩
  | .hbm, ⟨80, _⟩ => ⟨S_, .f32⟩
  | .hbm, ⟨81, _⟩ => ⟨S65536x256, .f32⟩
  | .hbm, ⟨82, _⟩ => ⟨S65536x256, .f32⟩
  | .hbm, ⟨83, _⟩ => ⟨S65536x4, .f32⟩
  | .hbm, ⟨84, _⟩ => ⟨S1x4, .f32⟩
  | .hbm, ⟨85, _⟩ => ⟨S65536x4, .f32⟩
  | .hbm, ⟨86, _⟩ => ⟨S65536x4, .f32⟩
  | .hbm, ⟨87, _⟩ => ⟨S65536x4, .f32⟩
  | .hbm, ⟨88, _⟩ => ⟨S1x4, .f32⟩
  | .hbm, ⟨89, _⟩ => ⟨S65536x4, .f32⟩
  | .hbm, ⟨90, _⟩ => ⟨S65536x4, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S65536x4, .f32⟩
  | .hbm, ⟨95, _⟩ => ⟨S65536x4, .f32⟩
  | .hbm, ⟨96, _⟩ => ⟨S_, .f32⟩
  | .hbm, ⟨97, _⟩ => ⟨S65536x4, .f32⟩
  | .hbm, ⟨98, _⟩ => ⟨S65536x4, .f32⟩
  | _, _ => ⟨S65536x55, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_c_0 : Ref sig .tc := ⟨.hbm, 14, rfl⟩
abbrev main_c_1 : Ref sig .tc := ⟨.hbm, 15, rfl⟩
abbrev main_c_2 : Ref sig .tc := ⟨.hbm, 16, rfl⟩
abbrev main_c_3 : Ref sig .tc := ⟨.hbm, 17, rfl⟩
abbrev main_c_4 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c_5 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_c_6 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c_7 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_8 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_call0_cst : Ref sig .tc := ⟨.hbm, 64, rfl⟩
abbrev main_call0_v0 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_call1_cst : Ref sig .tc := ⟨.hbm, 71, rfl⟩
abbrev main_call1_v0 : Ref sig .tc := ⟨.hbm, 72, rfl⟩
abbrev main_v46 : Ref sig .tc := ⟨.hbm, 73, rfl⟩
abbrev main_cst : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_call2_cst : Ref sig .tc := ⟨.hbm, 80, rfl⟩
abbrev main_call2_v0 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_9 : Ref sig .tc := ⟨.hbm, 91, rfl⟩
abbrev main_cst_10 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_call3_v3 : Ref sig .tc := ⟨.hbm, 96, rfl⟩
abbrev main_call3_v4 : Ref sig .tc := ⟨.hbm, 97, rfl⟩
abbrev main_v61 : Ref sig .tc := ⟨.hbm, 98, rfl⟩

abbrev nD : Nat := 1
abbrev τ : Topo := Topo.v7x

variable {F : FTy → Type} [FloatOps F]

class Facts₀ : Prop where
  slices_S65536x55_S65536x10_0_0 : S65536x55.Slices ![0, 0] S65536x10
  slices_S65536x55_S65536x15_0_10 : S65536x55.Slices ![0, 10] S65536x15
  slices_S65536x55_S65536x15_0_25 : S65536x55.Slices ![0, 25] S65536x15
  slices_S65536x55_S65536x15_0_40 : S65536x55.Slices ![0, 40] S65536x15
  bcast_S_S20 : S_.BroadcastsInDim S20 (![] : Fin 0 → Fin S20.rank)
  bcast_S20_S20x1_0 : S20.BroadcastsInDim S20x1 (![0] : Fin 1 → Fin S20x1.rank)
  concatenates_S65536x20_S65536x10_S65536x20_S65536x15_S65536x15_S65536x80_d1 : Shape.Concatenates [S65536x20, S65536x10, S65536x20, S65536x15, S65536x15] S65536x80 1
  bcast_S65536x80_S1x65536x80_1_2 : S65536x80.BroadcastsInDim S1x65536x80 (![1, 2] : Fin 2 → Fin S1x65536x80.rank)
  concatenates_S1x65536x80_S1x65536x80_S1x65536x80_S1x65536x80_S1x65536x80_S1x65536x80_S6x65536x80_d0 : Shape.Concatenates [S1x65536x80, S1x65536x80, S1x65536x80, S1x65536x80, S1x65536x80, S1x65536x80] S6x65536x80 0
  bcast_S256_S1x1x256_2 : S256.BroadcastsInDim S1x1x256 (![2] : Fin 1 → Fin S1x1x256.rank)
  bcast_S1x1x256_S6x65536x256_0_1_2 : S1x1x256.BroadcastsInDim S6x65536x256 (![0, 1, 2] : Fin 3 → Fin S6x65536x256.rank)
  bcast_S_S6x65536x256 : S_.BroadcastsInDim S6x65536x256 (![] : Fin 0 → Fin S6x65536x256.rank)
  reducesTo_S6x65536x256_S65536x256_d0 : S6x65536x256.ReducesTo [0] S65536x256
  h_S_ : 0 < S_.numel
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  bcast_S4_S1x4_1 : S4.BroadcastsInDim S1x4 (![1] : Fin 1 → Fin S1x4.rank)
  bcast_S1x4_S65536x4_0_1 : S1x4.BroadcastsInDim S65536x4 (![0, 1] : Fin 2 → Fin S65536x4.rank)
  bcast_S_S65536x4 : S_.BroadcastsInDim S65536x4 (![] : Fin 0 → Fin S65536x4.rank)
  gather_S65536x30_S20x1_S65536x20_0_1_n_n_1_1_655361_wf : GatherDims.WF S65536x30 S20x1 S65536x20 [0] [1] [] [1] [] 1 ![65536, 1]
  dot_S6x65536x80_S80x256_S6x65536x256_2_0_01_1_n_n_wf : DotDims.WF S6x65536x80 S80x256 S6x65536x256 [2] [0] [0, 1] [1] [] []
  dot_S6x65536x256_S256x256_S6x65536x256_2_0_01_1_n_n_wf : DotDims.WF S6x65536x256 S256x256 S6x65536x256 [2] [0] [0, 1] [1] [] []
  dot_S65536x256_S256x256_S65536x256_1_0_0_1_n_n_wf : DotDims.WF S65536x256 S256x256 S65536x256 [1] [0] [0] [1] [] []
  dot_S65536x256_S256x4_S65536x4_1_0_0_1_n_n_wf : DotDims.WF S65536x256 S256x4 S65536x4 [1] [0] [0] [1] [] []

variable [Facts₀]

def gather_S65536x30_S20x1_S65536x20_0_1_n_n_1_1_655361 : GatherDims S65536x30 S20x1 S65536x20 where
  offsetDims := [0]
  collapsedSliceDims := [1]
  operandBatchingDims := []
  startIndicesBatchingDims := []
  startIndexMap := [1]
  indexVectorDim := 1
  sliceSizes := ![65536, 1]
  wf := gather_S65536x30_S20x1_S65536x20_0_1_n_n_1_1_655361_wf
def dot_S6x65536x80_S80x256_S6x65536x256_2_0_01_1_n_n : DotDims S6x65536x80 S80x256 S6x65536x256 where
  lhsContracting := [2]
  rhsContracting := [0]
  lhsNonContracting := [0, 1]
  rhsNonContracting := [1]
  lhsBatch := []
  rhsBatch := []
  wf := dot_S6x65536x80_S80x256_S6x65536x256_2_0_01_1_n_n_wf
def dot_S6x65536x256_S256x256_S6x65536x256_2_0_01_1_n_n : DotDims S6x65536x256 S256x256 S6x65536x256 where
  lhsContracting := [2]
  rhsContracting := [0]
  lhsNonContracting := [0, 1]
  rhsNonContracting := [1]
  lhsBatch := []
  rhsBatch := []
  wf := dot_S6x65536x256_S256x256_S6x65536x256_2_0_01_1_n_n_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf
def dot_S65536x256_S256x4_S65536x4_1_0_0_1_n_n : DotDims S65536x256 S256x4 S65536x4 where
  lhsContracting := [1]
  rhsContracting := [0]
  lhsNonContracting := [0]
  rhsNonContracting := [1]
  lhsBatch := []
  rhsBatch := []
  wf := dot_S65536x256_S256x4_S65536x4_1_0_0_1_n_n_wf

class Facts : Prop extends Facts₀ where

variable [Facts]
-- ==== Proof.Spec.lean ====
/-
  The function both programs compute, row by row, on the extended reals.

  A batch row carries an observation of 55 numbers (a body part of 10 and three objects of 15 each) and four
  selections of 20 numbers taken from the two goal arrays. From them six pair vectors of 80 numbers are laid out
  (one per ordered pair of distinct objects: a selection of the first goal array, the body, the same selection of
  the second goal array, the first object, the second object). Each pair vector goes through two dense layers with a
  rectifier after each; the six results are summed; the sum goes through one more dense layer with a rectifier;
  and two linear heads read the result, the second clipped into [-20, 2]. Nothing here is rounded: sums, products,
  maxima and minima are those of the extended reals.
-/
import Idealize.ShloMosaic.PureOps.Ideal
import Idealize.ShloMosaic.Lib.ValueIdx

noncomputable section

open scoped BigOperators

namespace Cert.GnnSpec

open Idealize.ShloMosaic Idealize.ShloMosaic.ValueIdx

/-- Five runs of 20, 10, 20, 15 and 15 numbers laid side by side: entry `k` of the 80. -/
def cat5 (a : Fin 20 → EReal) (b : Fin 10 → EReal) (c : Fin 20 → EReal) (d e : Fin 15 → EReal) (k : Fin 80) : EReal :=
  if h1 : k.val < 20 then a ⟨k.val, h1⟩
  else if h2 : k.val < 30 then b ⟨k.val - 20, by omega⟩
  else if h3 : k.val < 50 then c ⟨k.val - 30, by omega⟩
  else if h4 : k.val < 65 then d ⟨k.val - 50, by omega⟩
  else e ⟨k.val - 65, by have := k.isLt; omega⟩

/-- The first ten entries of an observation: the body. -/
def body (obs : Fin 55 → EReal) (j : Fin 10) : EReal := obs ⟨0 + j.val, by have := j.isLt; omega⟩
/-- Fifteen consecutive entries of an observation from offset `o` (10, 25 or 40): one object. -/
def obj (o : ℕ) (ho : o + 15 ≤ 55) (obs : Fin 55 → EReal) (j : Fin 15) : EReal := obs ⟨o + j.val, by have := j.isLt; omega⟩

/-- The six pair vectors of one row, in the order the ordered pairs of distinct objects are met:
    (0,1), (0,2), (1,0), (1,2), (2,0), (2,1); a pair (i, j) with i < j takes the first selections, the others the second. -/
def pairRow (obs : Fin 55 → EReal) (agf gf ags gs : Fin 20 → EReal) : Fin 6 → Fin 80 → EReal
  | ⟨0, _⟩ => cat5 agf (body obs) gf (obj 10 (by omega) obs) (obj 25 (by omega) obs)
  | ⟨1, _⟩ => cat5 agf (body obs) gf (obj 10 (by omega) obs) (obj 40 (by omega) obs)
  | ⟨2, _⟩ => cat5 ags (body obs) gs (obj 25 (by omega) obs) (obj 10 (by omega) obs)
  | ⟨3, _⟩ => cat5 agf (body obs) gf (obj 25 (by omega) obs) (obj 40 (by omega) obs)
  | ⟨4, _⟩ => cat5 ags (body obs) gs (obj 40 (by omega) obs) (obj 10 (by omega) obs)
  | ⟨5, _⟩ => cat5 ags (body obs) gs (obj 40 (by omega) obs) (obj 25 (by omega) obs)

section Layers
variable (W1 : Fin 80 → Fin 256 → EReal) (B1 : Fin 256 → EReal) (W2 : Fin 256 → Fin 256 → EReal) (B2 : Fin 256 → EReal)
  (RW : Fin 256 → Fin 256 → EReal) (RB : Fin 256 → EReal)

/-- First dense layer and rectifier, unit `j`. -/
def hid (x : Fin 80 → EReal) (j : Fin 256) : EReal := max ((∑ k : Fin 80, x k * W1 k j) + B1 j) 0
/-- Second dense layer and rectifier, unit `o`. -/
def phi (x : Fin 80 → EReal) (o : Fin 256) : EReal := max ((∑ j : Fin 256, hid W1 B1 x j * W2 j o) + B2 o) 0
/-- The six pairs' results summed, unit `o`. -/
def agg (xs : Fin 6 → Fin 80 → EReal) (o : Fin 256) : EReal := ∑ p : Fin 6, phi W1 B1 W2 B2 (xs p) o
/-- The third dense layer and rectifier, unit `j`. -/
def rho (xs : Fin 6 → Fin 80 → EReal) (j : Fin 256) : EReal :=
  max ((∑ o : Fin 256, agg W1 B1 W2 B2 xs o * RW o j) + RB j) 0
/-- A linear head with weight column `w` and bias `b`. -/
def head (xs : Fin 6 → Fin 80 → EReal) (w : Fin 256 → EReal) (b : EReal) : EReal :=
  (∑ j : Fin 256, rho W1 B1 W2 B2 RW RB xs j * w j) + b
end Layers

/-- Clipping into [-20, 2]: the lower bound first, then the upper one. -/
def clip (x : EReal) : EReal := min (Ideal.ofBits .f32 0x40000000#32) (max (Ideal.ofBits .f32 0xC1A00000#32) x)

/-! ## The two result arrays as functions of the argument arrays -/

abbrev Arr2 (n c : ℕ) := (⟨2, ![n, c]⟩ : Shape).Idx → EReal
abbrev Arr1 (n : ℕ) := (⟨1, ![n]⟩ : Shape).Idx → EReal

/-- Row `b`'s six pair vectors from the observation array and the four selected arrays. -/
def rowsOf {n : ℕ} (obs : Arr2 n 55) (agf gf ags gs : Arr2 n 20) (b : Fin n) : Fin 6 → Fin 80 → EReal :=
  pairRow (fun k => obs (ix2 b k)) (fun k => agf (ix2 b k)) (fun k => gf (ix2 b k)) (fun k => ags (ix2 b k))
    (fun k => gs (ix2 b k))

/-- A head's value at row `b`, output column `q`, weights `hw` (256 by 4) and bias `hb`. -/
def headAt {n : ℕ} (obs : Arr2 n 55) (agf gf ags gs : Arr2 n 20) (w1 : Arr2 80 256) (b1 : Arr1 256) (w2 : Arr2 256 256)
    (b2 : Arr1 256) (rw : Arr2 256 256) (rb : Arr1 256) (hw : Arr2 256 4) (hb : Arr1 4) (b : Fin n) (q : Fin 4) : EReal :=
  head (fun k j => w1 (ix2 k j)) (fun j => b1 (ix1 j)) (fun j o => w2 (ix2 j o)) (fun o => b2 (ix1 o))
    (fun o j => rw (ix2 o j)) (fun j => rb (ix1 j)) (rowsOf obs agf gf ags gs b) (fun j => hw (ix2 j q)) (hb (ix1 q))

/-- The first result array (the mean head). -/
def meanArr {n : ℕ} (obs : Arr2 n 55) (agf gf ags gs : Arr2 n 20) (w1 : Arr2 80 256) (b1 : Arr1 256) (w2 : Arr2 256 256)
    (b2 : Arr1 256) (rw : Arr2 256 256) (rb : Arr1 256) (mw : Arr2 256 4) (mb : Arr1 4) : Arr2 n 4 :=
  fun i => headAt obs agf gf ags gs w1 b1 w2 b2 rw rb mw mb ⟨(i 0).val, idx2_lt0 i⟩ ⟨(i 1).val, idx2_lt1 i⟩

/-- The second result array (the clipped log-deviation head). -/
def logstdArr {n : ℕ} (obs : Arr2 n 55) (agf gf ags gs : Arr2 n 20) (w1 : Arr2 80 256) (b1 : Arr1 256) (w2 : Arr2 256 256)
    (b2 : Arr1 256) (rw : Arr2 256 256) (rb : Arr1 256) (lw : Arr2 256 4) (lb : Arr1 4) : Arr2 n 4 :=
  fun i => clip (headAt obs agf gf ags gs w1 b1 w2 b2 rw rb lw lb ⟨(i 0).val, idx2_lt0 i⟩ ⟨(i 1).val, idx2_lt1 i⟩)

/-- The left and right halves of a 256 by 8 weight array and of an 8-entry bias: the two heads' parameters laid side by side. -/
def colsL (x : Arr2 256 8) : Arr2 256 4 := fun i => x (ix2 ⟨(i 0).val, idx2_lt0 i⟩ ⟨(i 1).val, by have := idx2_lt1 i; omega⟩)
def colsR (x : Arr2 256 8) : Arr2 256 4 := fun i => x (ix2 ⟨(i 0).val, idx2_lt0 i⟩ ⟨(i 1).val + 4, by have := idx2_lt1 i; omega⟩)
def elsL (x : Arr1 8) : Arr1 4 := fun i => x (ix1 ⟨(i 0).val, by have : (i 0).val < 4 := (i 0).isLt; omega⟩)
def elsR (x : Arr1 8) : Arr1 4 := fun i => x (ix1 ⟨(i 0).val + 4, by have : (i 0).val < 4 := (i 0).isLt; omega⟩)

/-- A head's value at a row depends on the row's entries only: two families of arrays that agree along row `b'` of the
    one and row `b` of the other give the same value there. -/
theorem headAt_congr_row {n n' : ℕ} (obs : Arr2 n 55) (agf gf ags gs : Arr2 n 20) (obs' : Arr2 n' 55)
    (agf' gf' ags' gs' : Arr2 n' 20) (w1 : Arr2 80 256) (b1 : Arr1 256) (w2 : Arr2 256 256) (b2 : Arr1 256)
    (rw : Arr2 256 256) (rb : Arr1 256) (hw : Arr2 256 4) (hb : Arr1 4) (b : Fin n) (b' : Fin n') (q : Fin 4)
    (h0 : ∀ k, obs' (ix2 b' k) = obs (ix2 b k)) (h1 : ∀ k, agf' (ix2 b' k) = agf (ix2 b k))
    (h2 : ∀ k, gf' (ix2 b' k) = gf (ix2 b k)) (h3 : ∀ k, ags' (ix2 b' k) = ags (ix2 b k))
    (h4 : ∀ k, gs' (ix2 b' k) = gs (ix2 b k)) :
    headAt obs' agf' gf' ags' gs' w1 b1 w2 b2 rw rb hw hb b' q = headAt obs agf gf ags gs w1 b1 w2 b2 rw rb hw hb b q := by
  unfold headAt rowsOf
  rw [funext h0, funext h1, funext h2, funext h3, funext h4]

theorem meanArr_ix2 {n : ℕ} (obs : Arr2 n 55) (agf gf ags gs : Arr2 n 20) (w1 : Arr2 80 256) (b1 : Arr1 256)
    (w2 : Arr2 256 256) (b2 : Arr1 256) (rw : Arr2 256 256) (rb : Arr1 256) (mw : Arr2 256 4) (mb : Arr1 4) (b : Fin n)
    (q : Fin 4) :
    meanArr obs agf gf ags gs w1 b1 w2 b2 rw rb mw mb (ix2 b q) = headAt obs agf gf ags gs w1 b1 w2 b2 rw rb mw mb b q := rfl

theorem logstdArr_ix2 {n : ℕ} (obs : Arr2 n 55) (agf gf ags gs : Arr2 n 20) (w1 : Arr2 80 256) (b1 : Arr1 256)
    (w2 : Arr2 256 256) (b2 : Arr1 256) (rw : Arr2 256 256) (rb : Arr1 256) (lw : Arr2 256 4) (lb : Arr1 4) (b : Fin n)
    (q : Fin 4) :
    logstdArr obs agf gf ags gs w1 b1 w2 b2 rw rb lw lb (ix2 b q)
      = clip (headAt obs agf gf ags gs w1 b1 w2 b2 rw rb lw lb b q) := rfl

end Cert.GnnSpec

end
-- ==== Proof.LibCat5.lean ====
/-
  Five column groups of 20, 10, 20, 15 and 15 columns joined along the column axis of an array with any number of rows,
  read at an entry: column k of the 80 falls in exactly one group, and the entry is that group's entry in the same row,
  at k minus the columns before the group.
-/
import Idealize.ShloMosaic.Lib.Pipeline.Value
import Idealize.ShloMosaic.Lib.ValueIdx
import proofs.«109254_j11948599017715_2_alg».proof.Proof.Spec

noncomputable section

namespace Cert.LibCat5

open Idealize.ShloMosaic Idealize.ShloMosaic.ValueIdx Cert.GnnSpec

/-- Off the column axis an index of a group and the index of the joined array have the same coordinate. -/
theorem row_same {n w : ℕ} (r : Fin n) (x : Fin w) (k : Fin 80) (hr : (⟨2, ![n, w]⟩ : Shape).rank = (⟨2, ![n, 80]⟩ : Shape).rank) :
    ∀ b : Fin (⟨2, ![n, w]⟩ : Shape).rank, b.cast hr ≠ (1 : Fin 2) → ((ix2 r x) b).val = ((ix2 r k) (b.cast hr)).val := by
  intro b hb
  match b with
  | ⟨0, _⟩ => rfl
  | ⟨1, _⟩ => exact absurd rfl hb

theorem concat5_apply {n : ℕ} (a : Arr2 n 20) (b : Arr2 n 10) (c : Arr2 n 20) (d e : Arr2 n 15)
    (h : Shape.Concatenates [(⟨2, ![n, 20]⟩ : Shape), ⟨2, ![n, 10]⟩, ⟨2, ![n, 20]⟩, ⟨2, ![n, 15]⟩, ⟨2, ![n, 15]⟩]
      (⟨2, ![n, 80]⟩ : Shape) 1) (r : Fin n) (k : Fin 80) :
    concatenate (⟨2, ![n, 80]⟩ : Shape) 1
        [⟨⟨2, ![n, 20]⟩, a⟩, ⟨⟨2, ![n, 10]⟩, b⟩, ⟨⟨2, ![n, 20]⟩, c⟩, ⟨⟨2, ![n, 15]⟩, d⟩, ⟨⟨2, ![n, 15]⟩, e⟩] h (ix2 r k)
      = cat5 (fun j => a (ix2 r j)) (fun j => b (ix2 r j)) (fun j => c (ix2 r j)) (fun j => d (ix2 r j))
          (fun j => e (ix2 r j)) k := by
  unfold cat5
  have hk := k.isLt
  split_ifs with h1 h2 h3 h4
  · exact concatenate_apply_piece (t := (⟨2, ![n, 80]⟩ : Shape)) 1 [⟨⟨2, ![n, 20]⟩, a⟩, ⟨⟨2, ![n, 10]⟩, b⟩, ⟨⟨2, ![n, 20]⟩, c⟩, ⟨⟨2, ![n, 15]⟩, d⟩, ⟨⟨2, ![n, 15]⟩, e⟩] h (ix2 r k) 0 (by show 0 < 5; omega) _ a rfl rfl 0 rfl (ix2 r (⟨k.val, h1⟩ : Fin 20))
      (row_same r (⟨k.val, h1⟩ : Fin 20) k rfl) (by show 0 + k.val = k.val; omega)
  · exact concatenate_apply_piece (t := (⟨2, ![n, 80]⟩ : Shape)) 1 [⟨⟨2, ![n, 20]⟩, a⟩, ⟨⟨2, ![n, 10]⟩, b⟩, ⟨⟨2, ![n, 20]⟩, c⟩, ⟨⟨2, ![n, 15]⟩, d⟩, ⟨⟨2, ![n, 15]⟩, e⟩] h (ix2 r k) 1 (by show 1 < 5; omega) _ b rfl rfl 20 rfl (ix2 r (⟨k.val - 20, by omega⟩ : Fin 10))
      (row_same r (⟨k.val - 20, by omega⟩ : Fin 10) k rfl) (by show 20 + (k.val - 20) = k.val; omega)
  · exact concatenate_apply_piece (t := (⟨2, ![n, 80]⟩ : Shape)) 1 [⟨⟨2, ![n, 20]⟩, a⟩, ⟨⟨2, ![n, 10]⟩, b⟩, ⟨⟨2, ![n, 20]⟩, c⟩, ⟨⟨2, ![n, 15]⟩, d⟩, ⟨⟨2, ![n, 15]⟩, e⟩] h (ix2 r k) 2 (by show 2 < 5; omega) _ c rfl rfl 30 rfl (ix2 r (⟨k.val - 30, by omega⟩ : Fin 20))
      (row_same r (⟨k.val - 30, by omega⟩ : Fin 20) k rfl) (by show 30 + (k.val - 30) = k.val; omega)
  · exact concatenate_apply_piece (t := (⟨2, ![n, 80]⟩ : Shape)) 1 [⟨⟨2, ![n, 20]⟩, a⟩, ⟨⟨2, ![n, 10]⟩, b⟩, ⟨⟨2, ![n, 20]⟩, c⟩, ⟨⟨2, ![n, 15]⟩, d⟩, ⟨⟨2, ![n, 15]⟩, e⟩] h (ix2 r k) 3 (by show 3 < 5; omega) _ d rfl rfl 50 rfl (ix2 r (⟨k.val - 50, by omega⟩ : Fin 15))
      (row_same r (⟨k.val - 50, by omega⟩ : Fin 15) k rfl) (by show 50 + (k.val - 50) = k.val; omega)
  · exact concatenate_apply_piece (t := (⟨2, ![n, 80]⟩ : Shape)) 1 [⟨⟨2, ![n, 20]⟩, a⟩, ⟨⟨2, ![n, 10]⟩, b⟩, ⟨⟨2, ![n, 20]⟩, c⟩, ⟨⟨2, ![n, 15]⟩, d⟩, ⟨⟨2, ![n, 15]⟩, e⟩] h (ix2 r k) 4 (by show 4 < 5; omega) _ e rfl rfl 65 rfl (ix2 r (⟨k.val - 65, by omega⟩ : Fin 15))
      (row_same r (⟨k.val - 65, by omega⟩ : Fin 15) k rfl) (by show 65 + (k.val - 65) = k.val; omega)

end Cert.LibCat5

end
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.KerLay.lean ====
/-
  The kernel body's vector operations, read at an entry. A dense layer of the body is a matrix product into a zero
  accumulator plus a bias row spread over the rows; the rectifier is a maximum with a zero splat. At an entry (r, j) a
  dense layer is the sum over k of input(r, k) * weight(k, j) plus bias(j), and the pair of two dense layers with their
  rectifiers is the specification's `phi` of row r of the input.
-/
import proofs.«109254_j11948599017715_2_alg».proof.Proof.Gen.KernelIdeal.Skeleton
import proofs.«109254_j11948599017715_2_alg».proof.Proof.Spec
import proofs.«109254_j11948599017715_2_alg».proof.Proof.LibCat5
import proofs.«109254_j11948599017715_2_alg».proof.Proof.LibMatmulPlain
import Idealize.ShloMosaic.Lib.ValueLayout
import Idealize.ShloMosaic.PureOps.Ideal.Laws

noncomputable section

open scoped BigOperators

namespace Cert.GnnKer

open Cert.KernelIdeal Cert.KernelIdeal.Gen Idealize.ShloMosaic Idealize.ShloMosaic.ValueIdx Cert.GnnSpec

/-- A bias of 256 numbers as one row spread over 2048 rows, at an entry. -/
theorem biasRow_apply (b : Vec Ideal S256 .f32) (r : Fin 2048) (j : Fin 256) :
    broadcastTo S2048x256 (shapeCast S1x256 b shapeCasts_S256_S1x256) broadcasts_S1x256_S2048x256 (ix2 r j) = b (ix1 j) :=
  (broadcastTo_1b_ab_apply _ _ r j).trans (shapeCast_a_1a_apply b _ 0 j)

/-- The first dense layer of a pair: [2048,80] by [80,256] plus the bias row. -/
def lay80 (X : FVec Ideal S2048x80 .bf16) (W : FVec Ideal S80x256 .bf16) (b : Vec Ideal S256 .f32) : FVec Ideal S2048x256 .f32 :=
  addf (matmul dot_S2048x80_S80x256_S2048x256_1_0_0_1_n_n none X W (constant S2048x256 .f32 0x00000000#32))
    (broadcastTo S2048x256 (shapeCast S1x256 b shapeCasts_S256_S1x256) broadcasts_S1x256_S2048x256)

/-- A dense layer [2048,256] by [256,256] plus the bias row. -/
def lay256 (X : FVec Ideal S2048x256 .bf16) (W : FVec Ideal S256x256 .bf16) (b : Vec Ideal S256 .f32) : FVec Ideal S2048x256 .f32 :=
  addf (matmul dot_S2048x256_S256x256_S2048x256_1_0_0_1_n_n none X W (constant S2048x256 .f32 0x00000000#32))
    (broadcastTo S2048x256 (shapeCast S1x256 b shapeCasts_S256_S1x256) broadcasts_S1x256_S2048x256)

/-- The rectifier: the maximum with a splat of zero. -/
def reluV (v : FVec Ideal S2048x256 .f32) : FVec Ideal S2048x256 .f32 :=
  maximumf v (broadcast S2048x256 (Scalar.ofBits .f32 0x00000000#32))

/-- One pair's two dense layers with their rectifiers. -/
def phiV (X : FVec Ideal S2048x80 .bf16) (W1 : FVec Ideal S80x256 .bf16) (b1 : Vec Ideal S256 .f32)
    (W2 : FVec Ideal S256x256 .bf16) (b2 : Vec Ideal S256 .f32) : FVec Ideal S2048x256 .f32 :=
  reluV (lay256 (truncf .bf16 (reluV (lay80 X W1 b1)) bitsLt_bf16_f32) W2 b2)

theorem lay80_apply (X : FVec Ideal S2048x80 .bf16) (W : FVec Ideal S80x256 .bf16) (b : Vec Ideal S256 .f32) (r : Fin 2048)
    (j : Fin 256) : lay80 X W b (ix2 r j) = (∑ k : Fin 80, X (ix2 r k) * W (ix2 k j)) + b (ix1 j) := by
  unfold lay80
  rw [addf_apply, biasRow_apply]
  exact congrArg (· + b (ix1 j))
    (Cert.LibMatmulPlain.matmul_zero_apply dot_S2048x80_S80x256_S2048x256_1_0_0_1_n_n rfl rfl rfl rfl rfl rfl none X W r j)

theorem lay256_apply (X : FVec Ideal S2048x256 .bf16) (W : FVec Ideal S256x256 .bf16) (b : Vec Ideal S256 .f32)
    (r : Fin 2048) (j : Fin 256) : lay256 X W b (ix2 r j) = (∑ k : Fin 256, X (ix2 r k) * W (ix2 k j)) + b (ix1 j) := by
  unfold lay256
  rw [addf_apply, biasRow_apply]
  exact congrArg (· + b (ix1 j))
    (Cert.LibMatmulPlain.matmul_zero_apply dot_S2048x256_S256x256_S2048x256_1_0_0_1_n_n rfl rfl rfl rfl rfl rfl none X W r j)

theorem reluV_apply (v : FVec Ideal S2048x256 .f32) (i : S2048x256.Idx) : reluV v i = max (v i) 0 := by
  unfold reluV
  rw [maximumf_apply, broadcast_apply]
  exact congrArg (max (v i)) Ideal.ofBits_zero_f32

/-- A pair's two layers at (r, o): the specification's `phi` of row r. -/
theorem phiV_apply (X : FVec Ideal S2048x80 .bf16) (W1 : FVec Ideal S80x256 .bf16) (b1 : Vec Ideal S256 .f32)
    (W2 : FVec Ideal S256x256 .bf16) (b2 : Vec Ideal S256 .f32) (r : Fin 2048) (o : Fin 256) :
    phiV X W1 b1 W2 b2 (ix2 r o)
      = phi (fun k j => W1 (ix2 k j)) (fun j => b1 (ix1 j)) (fun j o => W2 (ix2 j o)) (fun o => b2 (ix1 o))
          (fun k => X (ix2 r k)) o := by
  unfold phiV phi hid
  rw [reluV_apply, lay256_apply]
  refine congrArg (fun s => max (s + b2 (ix1 o)) 0) (Finset.sum_congr rfl fun j _ => ?_)
  rw [truncf_apply, reluV_apply, lay80_apply]

end Cert.GnnKer

end
-- ==== Proof.KerPay.lean ====
/-
  What the kernel body leaves in its two output blocks, entry by entry: the row function of the specification applied
  to the rows of the input blocks. The body lays out six pair blocks of 80 columns from the observation block and the
  four selected blocks, puts each through two dense layers with rectifiers, adds the six results to a zero block one
  after the other, applies a third dense layer with a rectifier and one product with the joined head parameters
  (256 by 8, bias 8); the first output block is the left four columns, the second the right four, clipped.
-/
import proofs.«109254_j11948599017715_2_alg».proof.Proof.Gen.KernelIdeal.Value
import proofs.«109254_j11948599017715_2_alg».proof.Proof.KerLay

noncomputable section

open scoped BigOperators

namespace Cert.GnnKer

open Cert.KernelIdeal Cert.KernelIdeal.Gen Idealize.ShloMosaic Idealize.ShloMosaic.ValueIdx Cert.GnnSpec

theorem hz2 : (![0, 0] : Fin 2 → Nat) = fun _ => 0 := funext fun a => by fin_cases a <;> rfl
theorem hz1 : (![0] : Fin 1 → Nat) = fun _ => 0 := funext fun a => by fin_cases a <;> rfl

/-- One pair block: five column groups side by side. -/
def catV (a : FVec Ideal S2048x20 .bf16) (b : FVec Ideal S2048x10 .bf16) (c : FVec Ideal S2048x20 .bf16)
    (d e : FVec Ideal S2048x15 .bf16) : FVec Ideal S2048x80 .bf16 :=
  concatenate S2048x80 1 [⟨S2048x20, a⟩, ⟨S2048x10, b⟩, ⟨S2048x20, c⟩, ⟨S2048x15, d⟩, ⟨S2048x15, e⟩]
    concatenates_S2048x20_S2048x10_S2048x20_S2048x15_S2048x15_S2048x80_d1

theorem catV_apply (a : FVec Ideal S2048x20 .bf16) (b : FVec Ideal S2048x10 .bf16) (c : FVec Ideal S2048x20 .bf16)
    (d e : FVec Ideal S2048x15 .bf16) (r : Fin 2048) (k : Fin 80) :
    catV a b c d e (ix2 r k) = cat5 (fun j => a (ix2 r j)) (fun j => b (ix2 r j)) (fun j => c (ix2 r j))
      (fun j => d (ix2 r j)) (fun j => e (ix2 r j)) k :=
  Cert.LibCat5.concat5_apply (n := 2048) a b c d e concatenates_S2048x20_S2048x10_S2048x20_S2048x15_S2048x15_S2048x80_d1 r k

/-- A selected block passes through a cast to its own shape. -/
theorem sel9_row (x : Vec Ideal S2048x20 .bf16) (r : Fin 2048) :
    (fun j : Fin 20 => k0_pay9 x (ix2 r j)) = fun j => x (ix2 r j) :=
  funext fun j => congrFun (shapeCast_self x shapeCasts_S2048x20_S2048x20) (ix2 r j)
theorem sel10_row (x : Vec Ideal S2048x20 .bf16) (r : Fin 2048) :
    (fun j : Fin 20 => k0_pay10 x (ix2 r j)) = fun j => x (ix2 r j) :=
  funext fun j => congrFun (shapeCast_self x shapeCasts_S2048x20_S2048x20) (ix2 r j)
theorem sel11_row (x : Vec Ideal S2048x20 .bf16) (r : Fin 2048) :
    (fun j : Fin 20 => k0_pay11 x (ix2 r j)) = fun j => x (ix2 r j) :=
  funext fun j => congrFun (shapeCast_self x shapeCasts_S2048x20_S2048x20) (ix2 r j)
theorem sel12_row (x : Vec Ideal S2048x20 .bf16) (r : Fin 2048) :
    (fun j : Fin 20 => k0_pay12 x (ix2 r j)) = fun j => x (ix2 r j) :=
  funext fun j => congrFun (shapeCast_self x shapeCasts_S2048x20_S2048x20) (ix2 r j)

/-- The body columns of a row of the observation block. -/
theorem body_row (x0 : Vec Ideal S2048x55 .f32) (r : Fin 2048) :
    (fun j : Fin 10 => k0_pay5 x0 (ix2 r j)) = body (fun k => x0 (ix2 r k)) := by
  funext j
  exact slice2_axis1_eq 0 (k0_pay4 x0) slices_S2048x55_o0_0_S2048x10 r j

/-- The three objects' columns of a row of the observation block. -/
theorem obj0_row (x0 : Vec Ideal S2048x55 .f32) (r : Fin 2048) :
    (fun j : Fin 15 => k0_pay6 x0 (ix2 r j)) = obj 10 (by omega) (fun k => x0 (ix2 r k)) := by
  funext j
  exact slice2_axis1_eq 10 (k0_pay4 x0) slices_S2048x55_o0_10_S2048x15 r j
theorem obj1_row (x0 : Vec Ideal S2048x55 .f32) (r : Fin 2048) :
    (fun j : Fin 15 => k0_pay7 x0 (ix2 r j)) = obj 25 (by omega) (fun k => x0 (ix2 r k)) := by
  funext j
  exact slice2_axis1_eq 25 (k0_pay4 x0) slices_S2048x55_o0_25_S2048x15 r j
theorem obj2_row (x0 : Vec Ideal S2048x55 .f32) (r : Fin 2048) :
    (fun j : Fin 15 => k0_pay8 x0 (ix2 r j)) = obj 40 (by omega) (fun k => x0 (ix2 r k)) := by
  funext j
  exact slice2_axis1_eq 40 (k0_pay4 x0) slices_S2048x55_o0_40_S2048x15 r j

/-- The six pair blocks' rows are the specification's six pair vectors. -/
theorem row0 (x0 : Vec Ideal S2048x55 .f32) (x1 x2 x3 x4 : Vec Ideal S2048x20 .bf16) (r : Fin 2048) :
    (fun k => catV (k0_pay9 x1) (k0_pay5 x0) (k0_pay10 x2) (k0_pay6 x0) (k0_pay7 x0) (ix2 r k))
      = pairRow (fun k => x0 (ix2 r k)) (fun k => x1 (ix2 r k)) (fun k => x2 (ix2 r k)) (fun k => x3 (ix2 r k)) (fun k => x4 (ix2 r k)) (0 : Fin 6) := by
  funext k
  simp only [catV_apply, sel9_row, sel10_row, sel11_row, sel12_row, body_row, obj0_row, obj1_row, obj2_row]
  rfl

theorem row1 (x0 : Vec Ideal S2048x55 .f32) (x1 x2 x3 x4 : Vec Ideal S2048x20 .bf16) (r : Fin 2048) :
    (fun k => catV (k0_pay9 x1) (k0_pay5 x0) (k0_pay10 x2) (k0_pay6 x0) (k0_pay8 x0) (ix2 r k))
      = pairRow (fun k => x0 (ix2 r k)) (fun k => x1 (ix2 r k)) (fun k => x2 (ix2 r k)) (fun k => x3 (ix2 r k)) (fun k => x4 (ix2 r k)) (1 : Fin 6) := by
  funext k
  simp only [catV_apply, sel9_row, sel10_row, sel11_row, sel12_row, body_row, obj0_row, obj1_row, obj2_row]
  rfl

theorem row2 (x0 : Vec Ideal S2048x55 .f32) (x1 x2 x3 x4 : Vec Ideal S2048x20 .bf16) (r : Fin 2048) :
    (fun k => catV (k0_pay11 x3) (k0_pay5 x0) (k0_pay12 x4) (k0_pay7 x0) (k0_pay6 x0) (ix2 r k))
      = pairRow (fun k => x0 (ix2 r k)) (fun k => x1 (ix2 r k)) (fun k => x2 (ix2 r k)) (fun k => x3 (ix2 r k)) (fun k => x4 (ix2 r k)) (2 : Fin 6) := by
  funext k
  simp only [catV_apply, sel9_row, sel10_row, sel11_row, sel12_row, body_row, obj0_row, obj1_row, obj2_row]
  rfl

theorem row3 (x0 : Vec Ideal S2048x55 .f32) (x1 x2 x3 x4 : Vec Ideal S2048x20 .bf16) (r : Fin 2048) :
    (fun k => catV (k0_pay9 x1) (k0_pay5 x0) (k0_pay10 x2) (k0_pay7 x0) (k0_pay8 x0) (ix2 r k))
      = pairRow (fun k => x0 (ix2 r k)) (fun k => x1 (ix2 r k)) (fun k => x2 (ix2 r k)) (fun k => x3 (ix2 r k)) (fun k => x4 (ix2 r k)) (3 : Fin 6) := by
  funext k
  simp only [catV_apply, sel9_row, sel10_row, sel11_row, sel12_row, body_row, obj0_row, obj1_row, obj2_row]
  rfl

theorem row4 (x0 : Vec Ideal S2048x55 .f32) (x1 x2 x3 x4 : Vec Ideal S2048x20 .bf16) (r : Fin 2048) :
    (fun k => catV (k0_pay11 x3) (k0_pay5 x0) (k0_pay12 x4) (k0_pay8 x0) (k0_pay6 x0) (ix2 r k))
      = pairRow (fun k => x0 (ix2 r k)) (fun k => x1 (ix2 r k)) (fun k => x2 (ix2 r k)) (fun k => x3 (ix2 r k)) (fun k => x4 (ix2 r k)) (4 : Fin 6) := by
  funext k
  simp only [catV_apply, sel9_row, sel10_row, sel11_row, sel12_row, body_row, obj0_row, obj1_row, obj2_row]
  rfl

theorem row5 (x0 : Vec Ideal S2048x55 .f32) (x1 x2 x3 x4 : Vec Ideal S2048x20 .bf16) (r : Fin 2048) :
    (fun k => catV (k0_pay11 x3) (k0_pay5 x0) (k0_pay12 x4) (k0_pay8 x0) (k0_pay7 x0) (ix2 r k))
      = pairRow (fun k => x0 (ix2 r k)) (fun k => x1 (ix2 r k)) (fun k => x2 (ix2 r k)) (fun k => x3 (ix2 r k)) (fun k => x4 (ix2 r k)) (5 : Fin 6) := by
  funext k
  simp only [catV_apply, sel9_row, sel10_row, sel11_row, sel12_row, body_row, obj0_row, obj1_row, obj2_row]
  rfl

/-- The six pairs' results added, one after the other, to a zero block. -/
def aggV (x0 : Vec Ideal S2048x55 .f32) (x1 x2 x3 x4 : Vec Ideal S2048x20 .bf16) (x5 : Vec Ideal S80x256 .f32)
    (x6 : Vec Ideal S256 .f32) (x7 : Vec Ideal S256x256 .f32) (x8 : Vec Ideal S256 .f32) : FVec Ideal S2048x256 .f32 :=
  (addf (addf (addf (addf (addf (addf (broadcast S2048x256 (Scalar.ofBits .f32 0x00000000#32))
      (phiV (catV (k0_pay9 x1) (k0_pay5 x0) (k0_pay10 x2) (k0_pay6 x0) (k0_pay7 x0)) (k0_pay13 x5) x6 (k0_pay14 x7) x8))
      (phiV (catV (k0_pay9 x1) (k0_pay5 x0) (k0_pay10 x2) (k0_pay6 x0) (k0_pay8 x0)) (k0_pay13 x5) x6 (k0_pay14 x7) x8))
      (phiV (catV (k0_pay11 x3) (k0_pay5 x0) (k0_pay12 x4) (k0_pay7 x0) (k0_pay6 x0)) (k0_pay13 x5) x6 (k0_pay14 x7) x8))
      (phiV (catV (k0_pay9 x1) (k0_pay5 x0) (k0_pay10 x2) (k0_pay7 x0) (k0_pay8 x0)) (k0_pay13 x5) x6 (k0_pay14 x7) x8))
      (phiV (catV (k0_pay11 x3) (k0_pay5 x0) (k0_pay12 x4) (k0_pay8 x0) (k0_pay6 x0)) (k0_pay13 x5) x6 (k0_pay14 x7) x8))
      (phiV (catV (k0_pay11 x3) (k0_pay5 x0) (k0_pay12 x4) (k0_pay8 x0) (k0_pay7 x0)) (k0_pay13 x5) x6 (k0_pay14 x7) x8))

/-- At the extended reals a change of float format is the identity: the two weight blocks entry by entry. -/
theorem w1_eq (x5 : Vec Ideal S80x256 .f32) : (fun (k : Fin 80) (j : Fin 256) => k0_pay13 x5 (ix2 k j)) = fun k j => x5 (ix2 k j) := rfl
theorem w2_eq (x7 : Vec Ideal S256x256 .f32) : (fun (j o : Fin 256) => k0_pay14 x7 (ix2 j o)) = fun j o => x7 (ix2 j o) := rfl

/-- Each pair block through its two layers, at (r, o). -/
theorem pair0 (x0 : Vec Ideal S2048x55 .f32) (x1 x2 x3 x4 : Vec Ideal S2048x20 .bf16) (x5 : Vec Ideal S80x256 .f32) (x6 : Vec Ideal S256 .f32) (x7 : Vec Ideal S256x256 .f32) (x8 : Vec Ideal S256 .f32) (r : Fin 2048) (o : Fin 256) :
    phiV (catV (k0_pay9 x1) (k0_pay5 x0) (k0_pay10 x2) (k0_pay6 x0) (k0_pay7 x0)) (k0_pay13 x5) x6 (k0_pay14 x7) x8 (ix2 r o)
      = phi (fun k j => x5 (ix2 k j)) (fun j => x6 (ix1 j)) (fun j o => x7 (ix2 j o)) (fun o => x8 (ix1 o)) (pairRow (fun k => x0 (ix2 r k)) (fun k => x1 (ix2 r k)) (fun k => x2 (ix2 r k)) (fun k => x3 (ix2 r k)) (fun k => x4 (ix2 r k)) (0 : Fin 6)) o := by
  rw [phiV_apply, row0, w1_eq, w2_eq]

theorem pair1 (x0 : Vec Ideal S2048x55 .f32) (x1 x2 x3 x4 : Vec Ideal S2048x20 .bf16) (x5 : Vec Ideal S80x256 .f32) (x6 : Vec Ideal S256 .f32) (x7 : Vec Ideal S256x256 .f32) (x8 : Vec Ideal S256 .f32) (r : Fin 2048) (o : Fin 256) :
    phiV (catV (k0_pay9 x1) (k0_pay5 x0) (k0_pay10 x2) (k0_pay6 x0) (k0_pay8 x0)) (k0_pay13 x5) x6 (k0_pay14 x7) x8 (ix2 r o)
      = phi (fun k j => x5 (ix2 k j)) (fun j => x6 (ix1 j)) (fun j o => x7 (ix2 j o)) (fun o => x8 (ix1 o)) (pairRow (fun k => x0 (ix2 r k)) (fun k => x1 (ix2 r k)) (fun k => x2 (ix2 r k)) (fun k => x3 (ix2 r k)) (fun k => x4 (ix2 r k)) (1 : Fin 6)) o := by
  rw [phiV_apply, row1, w1_eq, w2_eq]

theorem pair2 (x0 : Vec Ideal S2048x55 .f32) (x1 x2 x3 x4 : Vec Ideal S2048x20 .bf16) (x5 : Vec Ideal S80x256 .f32) (x6 : Vec Ideal S256 .f32) (x7 : Vec Ideal S256x256 .f32) (x8 : Vec Ideal S256 .f32) (r : Fin 2048) (o : Fin 256) :
    phiV (catV (k0_pay11 x3) (k0_pay5 x0) (k0_pay12 x4) (k0_pay7 x0) (k0_pay6 x0)) (k0_pay13 x5) x6 (k0_pay14 x7) x8 (ix2 r o)
      = phi (fun k j => x5 (ix2 k j)) (fun j => x6 (ix1 j)) (fun j o => x7 (ix2 j o)) (fun o => x8 (ix1 o)) (pairRow (fun k => x0 (ix2 r k)) (fun k => x1 (ix2 r k)) (fun k => x2 (ix2 r k)) (fun k => x3 (ix2 r k)) (fun k => x4 (ix2 r k)) (2 : Fin 6)) o := by
  rw [phiV_apply, row2, w1_eq, w2_eq]

theorem pair3 (x0 : Vec Ideal S2048x55 .f32) (x1 x2 x3 x4 : Vec Ideal S2048x20 .bf16) (x5 : Vec Ideal S80x256 .f32) (x6 : Vec Ideal S256 .f32) (x7 : Vec Ideal S256x256 .f32) (x8 : Vec Ideal S256 .f32) (r : Fin 2048) (o : Fin 256) :
    phiV (catV (k0_pay9 x1) (k0_pay5 x0) (k0_pay10 x2) (k0_pay7 x0) (k0_pay8 x0)) (k0_pay13 x5) x6 (k0_pay14 x7) x8 (ix2 r o)
      = phi (fun k j => x5 (ix2 k j)) (fun j => x6 (ix1 j)) (fun j o => x7 (ix2 j o)) (fun o => x8 (ix1 o)) (pairRow (fun k => x0 (ix2 r k)) (fun k => x1 (ix2 r k)) (fun k => x2 (ix2 r k)) (fun k => x3 (ix2 r k)) (fun k => x4 (ix2 r k)) (3 : Fin 6)) o := by
  rw [phiV_apply, row3, w1_eq, w2_eq]

theorem pair4 (x0 : Vec Ideal S2048x55 .f32) (x1 x2 x3 x4 : Vec Ideal S2048x20 .bf16) (x5 : Vec Ideal S80x256 .f32) (x6 : Vec Ideal S256 .f32) (x7 : Vec Ideal S256x256 .f32) (x8 : Vec Ideal S256 .f32) (r : Fin 2048) (o : Fin 256) :
    phiV (catV (k0_pay11 x3) (k0_pay5 x0) (k0_pay12 x4) (k0_pay8 x0) (k0_pay6 x0)) (k0_pay13 x5) x6 (k0_pay14 x7) x8 (ix2 r o)
      = phi (fun k j => x5 (ix2 k j)) (fun j => x6 (ix1 j)) (fun j o => x7 (ix2 j o)) (fun o => x8 (ix1 o)) (pairRow (fun k => x0 (ix2 r k)) (fun k => x1 (ix2 r k)) (fun k => x2 (ix2 r k)) (fun k => x3 (ix2 r k)) (fun k => x4 (ix2 r k)) (4 : Fin 6)) o := by
  rw [phiV_apply, row4, w1_eq, w2_eq]

theorem pair5 (x0 : Vec Ideal S2048x55 .f32) (x1 x2 x3 x4 : Vec Ideal S2048x20 .bf16) (x5 : Vec Ideal S80x256 .f32) (x6 : Vec Ideal S256 .f32) (x7 : Vec Ideal S256x256 .f32) (x8 : Vec Ideal S256 .f32) (r : Fin 2048) (o : Fin 256) :
    phiV (catV (k0_pay11 x3) (k0_pay5 x0) (k0_pay12 x4) (k0_pay8 x0) (k0_pay7 x0)) (k0_pay13 x5) x6 (k0_pay14 x7) x8 (ix2 r o)
      = phi (fun k j => x5 (ix2 k j)) (fun j => x6 (ix1 j)) (fun j o => x7 (ix2 j o)) (fun o => x8 (ix1 o)) (pairRow (fun k => x0 (ix2 r k)) (fun k => x1 (ix2 r k)) (fun k => x2 (ix2 r k)) (fun k => x3 (ix2 r k)) (fun k => x4 (ix2 r k)) (5 : Fin 6)) o := by
  rw [phiV_apply, row5, w1_eq, w2_eq]

theorem aggV_apply (x0 : Vec Ideal S2048x55 .f32) (x1 x2 x3 x4 : Vec Ideal S2048x20 .bf16) (x5 : Vec Ideal S80x256 .f32)
    (x6 : Vec Ideal S256 .f32) (x7 : Vec Ideal S256x256 .f32) (x8 : Vec Ideal S256 .f32) (r : Fin 2048) (o : Fin 256) :
    aggV x0 x1 x2 x3 x4 x5 x6 x7 x8 (ix2 r o) = agg (fun k j => x5 (ix2 k j)) (fun j => x6 (ix1 j)) (fun j o => x7 (ix2 j o)) (fun o => x8 (ix1 o)) (rowsOf (n := 2048) x0 x1 x2 x3 x4 r) o := by
  unfold aggV agg rowsOf
  rw [addf_apply, addf_apply, addf_apply, addf_apply, addf_apply, addf_apply, broadcast_apply, pair0, pair1, pair2, pair3,
    pair4, pair5, Fin.sum_univ_six]
  refine congrArg (· + _ + _ + _ + _ + _) ?_
  exact (congrArg (· + _) Ideal.ofBits_zero_f32).trans (zero_add _)

/-- The joined heads' product and bias: the [2048, 8] block the two outputs are cut from. -/
def mlV (x0 : Vec Ideal S2048x55 .f32) (x1 x2 x3 x4 : Vec Ideal S2048x20 .bf16) (x5 : Vec Ideal S80x256 .f32)
    (x6 : Vec Ideal S256 .f32) (x7 : Vec Ideal S256x256 .f32) (x8 : Vec Ideal S256 .f32) (x9 : Vec Ideal S256x256 .f32)
    (x10 : Vec Ideal S256 .f32) (x11 : Vec Ideal S256x8 .f32) (x12 : Vec Ideal S8 .f32) : FVec Ideal S2048x8 .f32 :=
  addf (matmul dot_S2048x256_S256x8_S2048x8_1_0_0_1_n_n none
      (truncf .bf16 (reluV (lay256 (truncf .bf16 (aggV x0 x1 x2 x3 x4 x5 x6 x7 x8) bitsLt_bf16_f32)
        (truncf .bf16 x9 bitsLt_bf16_f32) x10)) bitsLt_bf16_f32)
      (truncf .bf16 (shapeCast S256x8 x11 shapeCasts_S256x8_S256x8) bitsLt_bf16_f32) (constant S2048x8 .f32 0x00000000#32))
    (broadcastTo S2048x8 (k0_pay21 x12) broadcasts_S1x8_S2048x8)

theorem mlV_apply (x0 : Vec Ideal S2048x55 .f32) (x1 x2 x3 x4 : Vec Ideal S2048x20 .bf16) (x5 : Vec Ideal S80x256 .f32)
    (x6 : Vec Ideal S256 .f32) (x7 : Vec Ideal S256x256 .f32) (x8 : Vec Ideal S256 .f32) (x9 : Vec Ideal S256x256 .f32)
    (x10 : Vec Ideal S256 .f32) (x11 : Vec Ideal S256x8 .f32) (x12 : Vec Ideal S8 .f32) (r : Fin 2048) (q : Fin 8) :
    mlV x0 x1 x2 x3 x4 x5 x6 x7 x8 x9 x10 x11 x12 (ix2 r q)
      = head (fun k j => x5 (ix2 k j)) (fun j => x6 (ix1 j)) (fun j o => x7 (ix2 j o)) (fun o => x8 (ix1 o)) (fun o j => x9 (ix2 o j)) (fun j => x10 (ix1 j)) (rowsOf (n := 2048) x0 x1 x2 x3 x4 r)
          (fun j => x11 (ix2 j q)) (x12 (ix1 q)) := by
  unfold mlV head rho
  have hb : broadcastTo S2048x8 (k0_pay21 x12) broadcasts_S1x8_S2048x8 (ix2 r q) = x12 (ix1 q) := by
    refine (broadcastTo_1b_ab_apply _ _ r q).trans ?_
    show shapeCast S1x8 (shapeCast S8 x12 shapeCasts_S8_S8) shapeCasts_S8_S1x8 (ix2 0 q) = _
    refine (shapeCast_a_1a_apply _ _ 0 q).trans ?_
    rw [shapeCast_self]
  rw [addf_apply, hb]
  refine (congrArg (· + x12 (ix1 q))
    (Cert.LibMatmulPlain.matmul_zero_apply dot_S2048x256_S256x8_S2048x8_1_0_0_1_n_n rfl rfl rfl rfl rfl rfl none _ _ r q)).trans ?_
  refine congrArg (· + x12 (ix1 q)) (Finset.sum_congr rfl fun j _ => ?_)
  rw [truncf_apply, reluV_apply, lay256_apply, truncf_apply, shapeCast_self]
  refine congrArg (fun s => max (s + x10 (ix1 j)) 0 * x11 (ix2 j q)) (Finset.sum_congr rfl fun o _ => ?_)
  rw [truncf_apply, truncf_apply, aggV_apply]

/-- The first output block at (r, q): the mean head of row r of the input blocks, with the left half of the joined head
    parameters. -/
theorem out13_apply (x0 : Vec Ideal S2048x55 .f32) (x1 x2 x3 x4 : Vec Ideal S2048x20 .bf16) (x5 : Vec Ideal S80x256 .f32)
    (x6 : Vec Ideal S256 .f32) (x7 : Vec Ideal S256x256 .f32) (x8 : Vec Ideal S256 .f32) (x9 : Vec Ideal S256x256 .f32)
    (x10 : Vec Ideal S256 .f32) (x11 : Vec Ideal S256x8 .f32) (x12 : Vec Ideal S8 .f32) (r : Fin 2048) (q : Fin 4) :
    out0_13 x0 x1 x2 x3 x4 x5 x6 x7 x8 x9 x10 x11 x12 (ix2 r q)
      = headAt (n := 2048) x0 x1 x2 x3 x4 x5 x6 x7 x8 x9 x10 (colsL x11) (elsL x12) r q := by
  unfold out0_13
  rw [View.canon_unit_zero hz2]
  simp only [View.ld_unit_zero (S := S2048x55) hz2, View.ld_unit_zero (S := S2048x20) hz2,
    View.ld_unit_zero (S := S80x256) hz2, View.ld_unit_zero (S := S256) hz1, View.ld_unit_zero (S := S256x256) hz2,
    View.ld_unit_zero (S := S256x8) hz2, View.ld_unit_zero (S := S8) hz1]
  show extractStridedSlice S2048x4 ![0, 0] (mlV x0 x1 x2 x3 x4 x5 x6 x7 x8 x9 x10 x11 x12) slices_S2048x8_o0_0_S2048x4 (ix2 r q) = _
  refine (slice2_axis1_eq 0 (mlV x0 x1 x2 x3 x4 x5 x6 x7 x8 x9 x10 x11 x12) slices_S2048x8_o0_0_S2048x4 r q).trans ?_
  rw [mlV_apply]
  unfold headAt colsL elsL
  have hq : (⟨0 + q.val, Nat.lt_of_lt_of_le (Nat.add_lt_add_left q.isLt 0) (slices_S2048x8_o0_0_S2048x4.2 1)⟩ : Fin 8)
      = ⟨q.val, by omega⟩ := Fin.ext (Nat.zero_add _)
  rw [hq]

/-- The second output block at (r, q): the other head, with the right half of the joined parameters, clipped. -/
theorem out14_apply (x0 : Vec Ideal S2048x55 .f32) (x1 x2 x3 x4 : Vec Ideal S2048x20 .bf16) (x5 : Vec Ideal S80x256 .f32)
    (x6 : Vec Ideal S256 .f32) (x7 : Vec Ideal S256x256 .f32) (x8 : Vec Ideal S256 .f32) (x9 : Vec Ideal S256x256 .f32)
    (x10 : Vec Ideal S256 .f32) (x11 : Vec Ideal S256x8 .f32) (x12 : Vec Ideal S8 .f32) (r : Fin 2048) (q : Fin 4) :
    out0_14 x0 x1 x2 x3 x4 x5 x6 x7 x8 x9 x10 x11 x12 (ix2 r q)
      = clip (headAt (n := 2048) x0 x1 x2 x3 x4 x5 x6 x7 x8 x9 x10 (colsR x11) (elsR x12) r q) := by
  unfold out0_14
  rw [View.canon_unit_zero hz2]
  simp only [View.ld_unit_zero (S := S2048x55) hz2, View.ld_unit_zero (S := S2048x20) hz2,
    View.ld_unit_zero (S := S80x256) hz2, View.ld_unit_zero (S := S256) hz1, View.ld_unit_zero (S := S256x256) hz2,
    View.ld_unit_zero (S := S256x8) hz2, View.ld_unit_zero (S := S8) hz1]
  show minimumf (broadcast S2048x4 (Scalar.ofBits .f32 0x40000000#32))
      (maximumf (broadcast S2048x4 (Scalar.ofBits .f32 0xC1A00000#32))
        (extractStridedSlice S2048x4 ![0, 4] (mlV x0 x1 x2 x3 x4 x5 x6 x7 x8 x9 x10 x11 x12) slices_S2048x8_o0_4_S2048x4)) (ix2 r q) = _
  rw [minimumf_apply, maximumf_apply, broadcast_apply, broadcast_apply,
    slice2_axis1_eq 4 (mlV x0 x1 x2 x3 x4 x5 x6 x7 x8 x9 x10 x11 x12) slices_S2048x8_o0_4_S2048x4 r q, mlV_apply]
  unfold clip headAt colsR elsR
  have hq : (⟨4 + q.val, Nat.lt_of_lt_of_le (Nat.add_lt_add_left q.isLt 4) (slices_S2048x8_o0_4_S2048x4.2 1)⟩ : Fin 8)
      = ⟨q.val + 4, by omega⟩ := Fin.ext (Nat.add_comm _ _)
  rw [hq]
  rfl

end Cert.GnnKer

end
-- ==== Proof.KerHost.lean ====
/-
  The kernel's host operations read: the four selected arrays as the program's own gather of a goal array at a constant
  index table, the contents of the windows those operations write when the grid is entered, and the two joined
  head-parameter arrays read half by half.
-/
import proofs.«109254_j11948599017715_2_alg».proof.Proof.Gen.KernelIdeal.Value
import proofs.«109254_j11948599017715_2_alg».proof.Proof.Spec
import Idealize.ShloMosaic.Lib.Pipeline.Value
import Idealize.ShloMosaic.Lib.Tactic

noncomputable section

namespace Cert.GnnKer

open Cert.KernelIdeal Cert.KernelIdeal.Gen Idealize.ShloMosaic Idealize.ShloMosaic.TcCoe Idealize.ShloMosaic.ValueIdx
open Idealize.SL.Sem Cert.GnnSpec

/-- The first selection of a goal array: the program's gather of twenty of its thirty columns, at the first index table. -/
def AGF (ag : FVec Ideal S65536x30 .f32) : FVec Ideal S65536x20 .f32 :=
  Host.gather gather_S65536x30_S20x1_S65536x20_0_1_n_n_1_1_655361 ag
    (broadcastInDim S20x1 ![0] bcast_S20_S20x1_0
      (select (constantI S20 1 0#1)
        (addi (fun i => lit0 (S20.rowMajor i)) (broadcastInDim S20 ![] bcast_S_S20 (constantI S_ 32 30#32)))
        (fun i => lit0 (S20.rowMajor i))))

/-- The same selection, of the other goal array. -/
def GF (g : FVec Ideal S65536x30 .f32) : FVec Ideal S65536x20 .f32 := AGF g

/-- The second selection of a goal array: the gather at the second index table. -/
def AGS (ag : FVec Ideal S65536x30 .f32) : FVec Ideal S65536x20 .f32 :=
  Host.gather gather_S65536x30_S20x1_S65536x20_0_1_n_n_1_1_655361 ag
    (broadcastInDim S20x1 ![0] bcast_S20_S20x1_0
      (select (constantI S20 1 0#1)
        (addi (fun i => lit1 (S20.rowMajor i)) (broadcastInDim S20 ![] bcast_S_S20 (constantI S_ 32 30#32)))
        (fun i => lit1 (S20.rowMajor i))))

/-- The same selection, of the other goal array. -/
def GS (g : FVec Ideal S65536x30 .f32) : FVec Ideal S65536x20 .f32 := AGS g

variable (m : (ℓ : Loc nD τ sig) → Buf (Elt Ideal) ℓ)

/-! ## What the windows written by host operations hold when the grid is entered

At the exact instance a change of float format is the identity, so the four converted selections are the selections. -/

set_option maxHeartbeats 2000000 in
/-- The window of the first selection of the first goal array. -/
theorem V_v5 (c : Dev nD) :
    (V m c main_v5 : S65536x20.Idx → EReal) = AGF (m ((c : Thread nD τ).loc main_arg1)) := by
  have e : (V m c main_v5 : S65536x20.Idx → EReal)
      = truncf .bf16 (AGF (m ((c : Thread nD τ).loc main_arg1))) bitsLt_bf16_f32 := by
    dsimp only [Gen.V, Gen.hostOps0]; after_results_simp; rfl
  exact e

set_option maxHeartbeats 2000000 in
/-- The window of the first selection of the second goal array. -/
theorem V_v11 (c : Dev nD) :
    (V m c main_v11 : S65536x20.Idx → EReal) = GF (m ((c : Thread nD τ).loc main_arg2)) := by
  have e : (V m c main_v11 : S65536x20.Idx → EReal)
      = truncf .bf16 (GF (m ((c : Thread nD τ).loc main_arg2))) bitsLt_bf16_f32 := by
    dsimp only [Gen.V, Gen.hostOps0]; after_results_simp; rfl
  exact e

set_option maxHeartbeats 2000000 in
/-- The window of the second selection of the first goal array. -/
theorem V_v17 (c : Dev nD) :
    (V m c main_v17 : S65536x20.Idx → EReal) = AGS (m ((c : Thread nD τ).loc main_arg1)) := by
  have e : (V m c main_v17 : S65536x20.Idx → EReal)
      = truncf .bf16 (AGS (m ((c : Thread nD τ).loc main_arg1))) bitsLt_bf16_f32 := by
    dsimp only [Gen.V, Gen.hostOps0]; after_results_simp; rfl
  exact e

set_option maxHeartbeats 2000000 in
/-- The window of the second selection of the second goal array. -/
theorem V_v23 (c : Dev nD) :
    (V m c main_v23 : S65536x20.Idx → EReal) = GS (m ((c : Thread nD τ).loc main_arg2)) := by
  have e : (V m c main_v23 : S65536x20.Idx → EReal)
      = truncf .bf16 (GS (m ((c : Thread nD τ).loc main_arg2))) bitsLt_bf16_f32 := by
    dsimp only [Gen.V, Gen.hostOps0]; after_results_simp; rfl
  exact e

set_option maxHeartbeats 2000000 in
/-- The window of the joined head weights: the two heads' 256 by 4 weights side by side. -/
theorem V_v24 (c : Dev nD) :
    (V m c main_v24 : S256x8.Idx → EReal)
      = concatenate S256x8 1 [⟨S256x4, (m ((c : Thread nD τ).loc main_arg9) : S256x4.Idx → EReal)⟩,
          ⟨S256x4, (m ((c : Thread nD τ).loc main_arg11) : S256x4.Idx → EReal)⟩] concatenates_S256x4_S256x4_S256x8_d1 := by
  dsimp only [Gen.V, Gen.hostOps0]; after_results_simp; rfl

set_option maxHeartbeats 2000000 in
/-- The window of the joined head biases: the two heads' four biases end to end. -/
theorem V_v25 (c : Dev nD) :
    (V m c main_v25 : S8.Idx → EReal)
      = concatenate S8 0 [⟨S4, (m ((c : Thread nD τ).loc main_arg10) : S4.Idx → EReal)⟩,
          ⟨S4, (m ((c : Thread nD τ).loc main_arg12) : S4.Idx → EReal)⟩] concatenates_S4_S4_S8_d0 := by
  dsimp only [Gen.V, Gen.hostOps0]; after_results_simp; rfl

/-! ## The joined parameters read half by half -/

/-- The left four columns of the joined weights are the first head's weights. -/
theorem colsL_v24 (c : Dev nD) :
    colsL (V m c main_v24 : S256x8.Idx → EReal) = (m ((c : Thread nD τ).loc main_arg9) : S256x4.Idx → EReal) := by
  funext i
  obtain ⟨j, q, rfl⟩ : ∃ (j : Fin 256) (q : Fin 4), i = ix2 j q := ⟨i 0, i 1, eq_ix2 i⟩
  rw [V_v24]
  exact concatenate_pair_apply_left (t := S256x8) (s₁ := S256x4) (s₂ := S256x4) (1 : Fin 2) _ _
    concatenates_S256x4_S256x4_S256x8_d1 _ rfl (ix2 j q) (fun b => match b with | ⟨0, _⟩ => rfl | ⟨1, _⟩ => rfl)

/-- The right four columns of the joined weights are the second head's weights. -/
theorem colsR_v24 (c : Dev nD) :
    colsR (V m c main_v24 : S256x8.Idx → EReal) = (m ((c : Thread nD τ).loc main_arg11) : S256x4.Idx → EReal) := by
  funext i
  obtain ⟨j, q, rfl⟩ : ∃ (j : Fin 256) (q : Fin 4), i = ix2 j q := ⟨i 0, i 1, eq_ix2 i⟩
  rw [V_v24]
  exact concatenate_pair_apply_right (t := S256x8) (s₁ := S256x4) (s₂ := S256x4) (1 : Fin 2) _ _
    concatenates_S256x4_S256x4_S256x8_d1 _ rfl rfl (ix2 j q)
    (fun b hb => match b, hb with | ⟨0, _⟩, _ => rfl | ⟨1, _⟩, hb => absurd rfl hb) rfl

/-- The first four joined biases are the first head's. -/
theorem elsL_v25 (c : Dev nD) :
    elsL (V m c main_v25 : S8.Idx → EReal) = (m ((c : Thread nD τ).loc main_arg10) : S4.Idx → EReal) := by
  funext i
  obtain ⟨q, rfl⟩ : ∃ q : Fin 4, i = ix1 q := ⟨i 0, eq_ix1 i⟩
  rw [V_v25]
  exact concatenate_pair_apply_left (t := S8) (s₁ := S4) (s₂ := S4) (0 : Fin 1) _ _
    concatenates_S4_S4_S8_d0 _ rfl (ix1 q) (fun b => match b with | ⟨0, _⟩ => rfl)

/-- The last four joined biases are the second head's. -/
theorem elsR_v25 (c : Dev nD) :
    elsR (V m c main_v25 : S8.Idx → EReal) = (m ((c : Thread nD τ).loc main_arg12) : S4.Idx → EReal) := by
  funext i
  obtain ⟨q, rfl⟩ : ∃ q : Fin 4, i = ix1 q := ⟨i 0, eq_ix1 i⟩
  rw [V_v25]
  exact concatenate_pair_apply_right (t := S8) (s₁ := S4) (s₂ := S4) (0 : Fin 1) _ _
    concatenates_S4_S4_S8_d0 _ rfl rfl (ix1 q)
    (fun b hb => match b, hb with | ⟨0, _⟩, hb => absurd rfl hb) rfl

end Cert.GnnKer

end
-- ==== Proof.KerRun.lean ====
/-
  From the kernel's blocks to its two result arrays, and the kernel's run: each grid point handles 2048 consecutive
  rows; a row of an input block is the same row of the argument (or selected) array, the parameter windows hold their
  whole arrays, so what a point writes back is a block of one function of the arguments — the specification's two result
  arrays — and the thirty-two blocks cover them.
-/
import proofs.«109254_j11948599017715_2_alg».proof.Proof.KerPay
import proofs.«109254_j11948599017715_2_alg».proof.Proof.KerHost

noncomputable section

namespace Cert.GnnKer

open Cert.KernelIdeal Cert.KernelIdeal.Gen Idealize.ShloMosaic Idealize.ShloMosaic.TcCoe Idealize.ShloMosaic.ValueIdx
open Idealize.SL.Sem Cert.GnnSpec
open Idealize.ShloMosaic.Pipeline (Dat)

variable (m : (ℓ : Loc nD τ sig) → Buf (Elt Ideal) ℓ) (ρ : Dev nD → PrngReg)

/-! ## The index maps, decided over the grid -/

/-- Point `t` takes block `t` of the row-blocked windows (the observations, the four selections, the two results) and
    block 0 of the parameter windows. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ win0_6.index t (0 : Fin 1) = 0
    ∧ (win0_7.index t (0 : Fin 2) = 0 ∧ win0_7.index t (1 : Fin 2) = 0)
    ∧ win0_8.index t (0 : Fin 1) = 0
    ∧ (win0_9.index t (0 : Fin 2) = 0 ∧ win0_9.index t (1 : Fin 2) = 0)
    ∧ win0_10.index t (0 : Fin 1) = 0
    ∧ (win0_11.index t (0 : Fin 2) = 0 ∧ win0_11.index t (1 : Fin 2) = 0)
    ∧ win0_12.index t (0 : Fin 1) = 0
    ∧ (win0_13.index t (0 : Fin 2) = t.val ∧ win0_13.index t (1 : Fin 2) = 0)
    ∧ (win0_14.index t (0 : Fin 2) = t.val ∧ win0_14.index t (1 : Fin 2) = 0) :=
  (by decide +kernel : ∀ t : Fin grid0.N, _)

theorem t_lt (t : Fin cfg0.N) : t.val < 32 := lt_of_lt_of_eq t.isLt Gen.N_0

/-! ## The input blocks read -/

/-- Row `r` of the observation block at point `t` is row `2048 t + r` of the observations. -/
theorem iblk0_apply (c : Dev nD) (t : Fin cfg0.N) (r : Fin 2048) (k : Fin 55) (hr : 2048 * t.val + r.val < 65536) :
    (iblk m c 0 t : Vec Ideal S2048x55 .f32) (ix2 r k)
      = (m ((c : Thread nD τ).loc main_arg0) : S65536x55.Idx → EReal) (ix2 ⟨2048 * t.val + r.val, hr⟩ k) := by
  obtain ⟨h0, h1⟩ := (idx_facts t).1
  unfold iblk
  rw [View.read_apply]
  refine (congrFun (V_main_arg0 m c) _).trans ?_
  refine congrArg (m ((c : Thread nD τ).loc main_arg0) : S65536x55.Idx → EReal) ?_
  funext a
  apply Fin.ext
  match a with
  | ⟨0, _⟩ => show win0_0.index t (0 : Fin 2) * 2048 + 1 * r.val = 2048 * t.val + r.val; rw [h0]; omega
  | ⟨1, _⟩ => show win0_0.index t (1 : Fin 2) * 55 + 1 * k.val = k.val; rw [h1]; omega

/-- Row `r` of window 1's block at point `t` is row `2048 t + r` of the selected array. -/
theorem iblk1_apply (c : Dev nD) (t : Fin cfg0.N) (r : Fin 2048) (k : Fin 20) (hr : 2048 * t.val + r.val < 65536) :
    (iblk m c 1 t : Vec Ideal S2048x20 .bf16) (ix2 r k)
      = AGF (m ((c : Thread nD τ).loc main_arg1)) (ix2 ⟨2048 * t.val + r.val, hr⟩ k) := by
  obtain ⟨h0, h1⟩ := (idx_facts t).2.1
  unfold iblk
  rw [View.read_apply]
  refine (congrFun (V_v5 m c) _).trans ?_
  refine congrArg (AGF (m ((c : Thread nD τ).loc main_arg1))) ?_
  funext a
  apply Fin.ext
  match a with
  | ⟨0, _⟩ => show win0_1.index t (0 : Fin 2) * 2048 + 1 * r.val = 2048 * t.val + r.val; rw [h0]; omega
  | ⟨1, _⟩ => show win0_1.index t (1 : Fin 2) * 20 + 1 * k.val = k.val; rw [h1]; omega

/-- Row `r` of window 2's block at point `t` is row `2048 t + r` of the selected array. -/
theorem iblk2_apply (c : Dev nD) (t : Fin cfg0.N) (r : Fin 2048) (k : Fin 20) (hr : 2048 * t.val + r.val < 65536) :
    (iblk m c 2 t : Vec Ideal S2048x20 .bf16) (ix2 r k)
      = GF (m ((c : Thread nD τ).loc main_arg2)) (ix2 ⟨2048 * t.val + r.val, hr⟩ k) := by
  obtain ⟨h0, h1⟩ := (idx_facts t).2.2.1
  unfold iblk
  rw [View.read_apply]
  refine (congrFun (V_v11 m c) _).trans ?_
  refine congrArg (GF (m ((c : Thread nD τ).loc main_arg2))) ?_
  funext a
  apply Fin.ext
  match a with
  | ⟨0, _⟩ => show win0_2.index t (0 : Fin 2) * 2048 + 1 * r.val = 2048 * t.val + r.val; rw [h0]; omega
  | ⟨1, _⟩ => show win0_2.index t (1 : Fin 2) * 20 + 1 * k.val = k.val; rw [h1]; omega

/-- Row `r` of window 3's block at point `t` is row `2048 t + r` of the selected array. -/
theorem iblk3_apply (c : Dev nD) (t : Fin cfg0.N) (r : Fin 2048) (k : Fin 20) (hr : 2048 * t.val + r.val < 65536) :
    (iblk m c 3 t : Vec Ideal S2048x20 .bf16) (ix2 r k)
      = AGS (m ((c : Thread nD τ).loc main_arg1)) (ix2 ⟨2048 * t.val + r.val, hr⟩ k) := by
  obtain ⟨h0, h1⟩ := (idx_facts t).2.2.2.1
  unfold iblk
  rw [View.read_apply]
  refine (congrFun (V_v17 m c) _).trans ?_
  refine congrArg (AGS (m ((c : Thread nD τ).loc main_arg1))) ?_
  funext a
  apply Fin.ext
  match a with
  | ⟨0, _⟩ => show win0_3.index t (0 : Fin 2) * 2048 + 1 * r.val = 2048 * t.val + r.val; rw [h0]; omega
  | ⟨1, _⟩ => show win0_3.index t (1 : Fin 2) * 20 + 1 * k.val = k.val; rw [h1]; omega

/-- Row `r` of window 4's block at point `t` is row `2048 t + r` of the selected array. -/
theorem iblk4_apply (c : Dev nD) (t : Fin cfg0.N) (r : Fin 2048) (k : Fin 20) (hr : 2048 * t.val + r.val < 65536) :
    (iblk m c 4 t : Vec Ideal S2048x20 .bf16) (ix2 r k)
      = GS (m ((c : Thread nD τ).loc main_arg2)) (ix2 ⟨2048 * t.val + r.val, hr⟩ k) := by
  obtain ⟨h0, h1⟩ := (idx_facts t).2.2.2.2.1
  unfold iblk
  rw [View.read_apply]
  refine (congrFun (V_v23 m c) _).trans ?_
  refine congrArg (GS (m ((c : Thread nD τ).loc main_arg2))) ?_
  funext a
  apply Fin.ext
  match a with
  | ⟨0, _⟩ => show win0_4.index t (0 : Fin 2) * 2048 + 1 * r.val = 2048 * t.val + r.val; rw [h0]; omega
  | ⟨1, _⟩ => show win0_4.index t (1 : Fin 2) * 20 + 1 * k.val = k.val; rw [h1]; omega

/-- Window 5's block is the whole array at every point. -/
theorem iblk5_eq (c : Dev nD) (t : Fin cfg0.N) :
    (iblk m c 5 t : Vec Ideal S80x256 .f32) = ((m ((c : Thread nD τ).loc main_arg3)) : S80x256.Idx → EReal) := by
  obtain ⟨h0, h1⟩ := (idx_facts t).2.2.2.2.2.1
  funext x
  unfold iblk
  rw [View.read_apply]
  refine (congrFun (V_main_arg3 m c) _).trans ?_
  refine congrArg ((m ((c : Thread nD τ).loc main_arg3)) : S80x256.Idx → EReal) ?_
  funext a
  apply Fin.ext
  match a with
  | ⟨0, _⟩ => show win0_5.index t (0 : Fin 2) * 80 + 1 * (x 0).val = (x 0).val; rw [h0]; omega
  | ⟨1, _⟩ => show win0_5.index t (1 : Fin 2) * 256 + 1 * (x 1).val = (x 1).val; rw [h1]; omega

/-- Window 6's block is the whole array at every point. -/
theorem iblk6_eq (c : Dev nD) (t : Fin cfg0.N) :
    (iblk m c 6 t : Vec Ideal S256 .f32) = ((m ((c : Thread nD τ).loc main_arg4)) : S256.Idx → EReal) := by
  have h0 := (idx_facts t).2.2.2.2.2.2.1
  funext x
  unfold iblk
  rw [View.read_apply]
  refine (congrFun (V_main_arg4 m c) _).trans ?_
  refine congrArg ((m ((c : Thread nD τ).loc main_arg4)) : S256.Idx → EReal) ?_
  funext a
  apply Fin.ext
  match a with
  | ⟨0, _⟩ => show win0_6.index t (0 : Fin 1) * 256 + 1 * (x 0).val = (x 0).val; rw [h0]; omega

/-- Window 7's block is the whole array at every point. -/
theorem iblk7_eq (c : Dev nD) (t : Fin cfg0.N) :
    (iblk m c 7 t : Vec Ideal S256x256 .f32) = ((m ((c : Thread nD τ).loc main_arg5)) : S256x256.Idx → EReal) := by
  obtain ⟨h0, h1⟩ := (idx_facts t).2.2.2.2.2.2.2.1
  funext x
  unfold iblk
  rw [View.read_apply]
  refine (congrFun (V_main_arg5 m c) _).trans ?_
  refine congrArg ((m ((c : Thread nD τ).loc main_arg5)) : S256x256.Idx → EReal) ?_
  funext a
  apply Fin.ext
  match a with
  | ⟨0, _⟩ => show win0_7.index t (0 : Fin 2) * 256 + 1 * (x 0).val = (x 0).val; rw [h0]; omega
  | ⟨1, _⟩ => show win0_7.index t (1 : Fin 2) * 256 + 1 * (x 1).val = (x 1).val; rw [h1]; omega

/-- Window 8's block is the whole array at every point. -/
theorem iblk8_eq (c : Dev nD) (t : Fin cfg0.N) :
    (iblk m c 8 t : Vec Ideal S256 .f32) = ((m ((c : Thread nD τ).loc main_arg6)) : S256.Idx → EReal) := by
  have h0 := (idx_facts t).2.2.2.2.2.2.2.2.1
  funext x
  unfold iblk
  rw [View.read_apply]
  refine (congrFun (V_main_arg6 m c) _).trans ?_
  refine congrArg ((m ((c : Thread nD τ).loc main_arg6)) : S256.Idx → EReal) ?_
  funext a
  apply Fin.ext
  match a with
  | ⟨0, _⟩ => show win0_8.index t (0 : Fin 1) * 256 + 1 * (x 0).val = (x 0).val; rw [h0]; omega

/-- Window 9's block is the whole array at every point. -/
theorem iblk9_eq (c : Dev nD) (t : Fin cfg0.N) :
    (iblk m c 9 t : Vec Ideal S256x256 .f32) = ((m ((c : Thread nD τ).loc main_arg7)) : S256x256.Idx → EReal) := by
  obtain ⟨h0, h1⟩ := (idx_facts t).2.2.2.2.2.2.2.2.2.1
  funext x
  unfold iblk
  rw [View.read_apply]
  refine (congrFun (V_main_arg7 m c) _).trans ?_
  refine congrArg ((m ((c : Thread nD τ).loc main_arg7)) : S256x256.Idx → EReal) ?_
  funext a
  apply Fin.ext
  match a with
  | ⟨0, _⟩ => show win0_9.index t (0 : Fin 2) * 256 + 1 * (x 0).val = (x 0).val; rw [h0]; omega
  | ⟨1, _⟩ => show win0_9.index t (1 : Fin 2) * 256 + 1 * (x 1).val = (x 1).val; rw [h1]; omega

/-- Window 10's block is the whole array at every point. -/
theorem iblk10_eq (c : Dev nD) (t : Fin cfg0.N) :
    (iblk m c 10 t : Vec Ideal S256 .f32) = ((m ((c : Thread nD τ).loc main_arg8)) : S256.Idx → EReal) := by
  have h0 := (idx_facts t).2.2.2.2.2.2.2.2.2.2.1
  funext x
  unfold iblk
  rw [View.read_apply]
  refine (congrFun (V_main_arg8 m c) _).trans ?_
  refine congrArg ((m ((c : Thread nD τ).loc main_arg8)) : S256.Idx → EReal) ?_
  funext a
  apply Fin.ext
  match a with
  | ⟨0, _⟩ => show win0_10.index t (0 : Fin 1) * 256 + 1 * (x 0).val = (x 0).val; rw [h0]; omega

/-- Window 11's block is the whole array at every point. -/
theorem iblk11_eq (c : Dev nD) (t : Fin cfg0.N) :
    (iblk m c 11 t : Vec Ideal S256x8 .f32) = (V m c main_v24 : S256x8.Idx → EReal) := by
  obtain ⟨h0, h1⟩ := (idx_facts t).2.2.2.2.2.2.2.2.2.2.2.1
  funext x
  unfold iblk
  rw [View.read_apply]
  refine congrArg (V m c main_v24 : S256x8.Idx → EReal) ?_
  funext a
  apply Fin.ext
  match a with
  | ⟨0, _⟩ => show win0_11.index t (0 : Fin 2) * 256 + 1 * (x 0).val = (x 0).val; rw [h0]; omega
  | ⟨1, _⟩ => show win0_11.index t (1 : Fin 2) * 8 + 1 * (x 1).val = (x 1).val; rw [h1]; omega

/-- Window 12's block is the whole array at every point. -/
theorem iblk12_eq (c : Dev nD) (t : Fin cfg0.N) :
    (iblk m c 12 t : Vec Ideal S8 .f32) = (V m c main_v25 : S8.Idx → EReal) := by
  have h0 := (idx_facts t).2.2.2.2.2.2.2.2.2.2.2.2.1
  funext x
  unfold iblk
  rw [View.read_apply]
  refine congrArg (V m c main_v25 : S8.Idx → EReal) ?_
  funext a
  apply Fin.ext
  match a with
  | ⟨0, _⟩ => show win0_12.index t (0 : Fin 1) * 8 + 1 * (x 0).val = (x 0).val; rw [h0]; omega

/-! ## One point's two output blocks, over variables -/

/-- The first output block of a point whose row-blocked inputs are rows `2048 tt …` of five arrays: entry (r, q) is the
    first result array's entry (2048 tt + r, q). -/
theorem point13 (x0 : Vec Ideal S2048x55 .f32) (x1 x2 x3 x4 : Vec Ideal S2048x20 .bf16) (x5 : Vec Ideal S80x256 .f32)
    (x6 : Vec Ideal S256 .f32) (x7 : Vec Ideal S256x256 .f32) (x8 : Vec Ideal S256 .f32) (x9 : Vec Ideal S256x256 .f32)
    (x10 : Vec Ideal S256 .f32) (x11 : Vec Ideal S256x8 .f32) (x12 : Vec Ideal S8 .f32)
    (obs : Arr2 65536 55) (agf gf ags gs : Arr2 65536 20) (mw : Arr2 256 4) (mb : Arr1 4) (tt : ℕ) (htt : tt < 32)
    (h0 : ∀ (r : Fin 2048) (k : Fin 55) (hr : 2048 * tt + r.val < 65536), x0 (ix2 r k) = obs (ix2 ⟨2048 * tt + r.val, hr⟩ k))
    (h1 : ∀ (r : Fin 2048) (k : Fin 20) (hr : 2048 * tt + r.val < 65536), x1 (ix2 r k) = agf (ix2 ⟨2048 * tt + r.val, hr⟩ k))
    (h2 : ∀ (r : Fin 2048) (k : Fin 20) (hr : 2048 * tt + r.val < 65536), x2 (ix2 r k) = gf (ix2 ⟨2048 * tt + r.val, hr⟩ k))
    (h3 : ∀ (r : Fin 2048) (k : Fin 20) (hr : 2048 * tt + r.val < 65536), x3 (ix2 r k) = ags (ix2 ⟨2048 * tt + r.val, hr⟩ k))
    (h4 : ∀ (r : Fin 2048) (k : Fin 20) (hr : 2048 * tt + r.val < 65536), x4 (ix2 r k) = gs (ix2 ⟨2048 * tt + r.val, hr⟩ k))
    (hw : colsL x11 = mw) (hb : elsL x12 = mb) (r : Fin 2048) (q : Fin 4) (hr : 2048 * tt + r.val < 65536) :
    out0_13 x0 x1 x2 x3 x4 x5 x6 x7 x8 x9 x10 x11 x12 (ix2 r q)
      = meanArr (n := 65536) obs agf gf ags gs x5 x6 x7 x8 x9 x10 mw mb (ix2 ⟨2048 * tt + r.val, hr⟩ q) := by
  refine (out13_apply x0 x1 x2 x3 x4 x5 x6 x7 x8 x9 x10 x11 x12 r q).trans ?_
  rw [hw, hb, meanArr_ix2]
  exact headAt_congr_row obs agf gf ags gs x0 x1 x2 x3 x4 x5 x6 x7 x8 x9 x10 mw mb ⟨2048 * tt + r.val, hr⟩ r q
    (fun k => h0 r k hr) (fun k => h1 r k hr) (fun k => h2 r k hr) (fun k => h3 r k hr) (fun k => h4 r k hr)

/-- The second output block of such a point: entry (r, q) is the second result array's entry (2048 tt + r, q). -/
theorem point14 (x0 : Vec Ideal S2048x55 .f32) (x1 x2 x3 x4 : Vec Ideal S2048x20 .bf16) (x5 : Vec Ideal S80x256 .f32)
    (x6 : Vec Ideal S256 .f32) (x7 : Vec Ideal S256x256 .f32) (x8 : Vec Ideal S256 .f32) (x9 : Vec Ideal S256x256 .f32)
    (x10 : Vec Ideal S256 .f32) (x11 : Vec Ideal S256x8 .f32) (x12 : Vec Ideal S8 .f32)
    (obs : Arr2 65536 55) (agf gf ags gs : Arr2 65536 20) (lw : Arr2 256 4) (lb : Arr1 4) (tt : ℕ) (htt : tt < 32)
    (h0 : ∀ (r : Fin 2048) (k : Fin 55) (hr : 2048 * tt + r.val < 65536), x0 (ix2 r k) = obs (ix2 ⟨2048 * tt + r.val, hr⟩ k))
    (h1 : ∀ (r : Fin 2048) (k : Fin 20) (hr : 2048 * tt + r.val < 65536), x1 (ix2 r k) = agf (ix2 ⟨2048 * tt + r.val, hr⟩ k))
    (h2 : ∀ (r : Fin 2048) (k : Fin 20) (hr : 2048 * tt + r.val < 65536), x2 (ix2 r k) = gf (ix2 ⟨2048 * tt + r.val, hr⟩ k))
    (h3 : ∀ (r : Fin 2048) (k : Fin 20) (hr : 2048 * tt + r.val < 65536), x3 (ix2 r k) = ags (ix2 ⟨2048 * tt + r.val, hr⟩ k))
    (h4 : ∀ (r : Fin 2048) (k : Fin 20) (hr : 2048 * tt + r.val < 65536), x4 (ix2 r k) = gs (ix2 ⟨2048 * tt + r.val, hr⟩ k))
    (hw : colsR x11 = lw) (hb : elsR x12 = lb) (r : Fin 2048) (q : Fin 4) (hr : 2048 * tt + r.val < 65536) :
    out0_14 x0 x1 x2 x3 x4 x5 x6 x7 x8 x9 x10 x11 x12 (ix2 r q)
      = logstdArr (n := 65536) obs agf gf ags gs x5 x6 x7 x8 x9 x10 lw lb (ix2 ⟨2048 * tt + r.val, hr⟩ q) := by
  refine (out14_apply x0 x1 x2 x3 x4 x5 x6 x7 x8 x9 x10 x11 x12 r q).trans ?_
  rw [hw, hb, logstdArr_ix2]
  exact congrArg clip (headAt_congr_row obs agf gf ags gs x0 x1 x2 x3 x4 x5 x6 x7 x8 x9 x10 lw lb ⟨2048 * tt + r.val, hr⟩ r q
    (fun k => h0 r k hr) (fun k => h1 r k hr) (fun k => h2 r k hr) (fun k => h3 r k hr) (fun k => h4 r k hr))

/-! ## The two result arrays as functions of the arguments -/

/-- The first result array: the mean head over the observations, the four selections and the parameters. -/
def G13 (c : Dev nD) : S65536x4.Idx → EReal :=
  meanArr (n := 65536) (m ((c : Thread nD τ).loc main_arg0)) (AGF (m ((c : Thread nD τ).loc main_arg1))) (GF (m ((c : Thread nD τ).loc main_arg2))) (AGS (m ((c : Thread nD τ).loc main_arg1))) (GS (m ((c : Thread nD τ).loc main_arg2)))
    (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    (m ((c : Thread nD τ).loc main_arg9)) (m ((c : Thread nD τ).loc main_arg10))

/-- The second result array: the clipped head, with the second head's parameters. -/
def G14 (c : Dev nD) : S65536x4.Idx → EReal :=
  logstdArr (n := 65536) (m ((c : Thread nD τ).loc main_arg0)) (AGF (m ((c : Thread nD τ).loc main_arg1))) (GF (m ((c : Thread nD τ).loc main_arg2))) (AGS (m ((c : Thread nD τ).loc main_arg1))) (GS (m ((c : Thread nD τ).loc main_arg2)))
    (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    (m ((c : Thread nD τ).loc main_arg11)) (m ((c : Thread nD τ).loc main_arg12))

/-- What point `t` writes back to the first result array is block `t` of `G13`. -/
theorem flushed_eq13 (c : Dev nD) (t : Fin cfg0.N) :
    (dats m 0 c).flushed 13 t = ((cfg0.win 13).blk t).view.read (Elt Ideal) (G13 m c) := by
  rw [Value.flushed13]
  have ht := t_lt t
  obtain ⟨g0, g1⟩ := (idx_facts t).2.2.2.2.2.2.2.2.2.2.2.2.2.1
  refine funext fun (y : S2048x4.Idx) => ?_
  obtain ⟨r, q, rfl⟩ : ∃ (r : Fin 2048) (q : Fin 4), y = ix2 r q := ⟨y 0, y 1, eq_ix2 y⟩
  have hr : 2048 * t.val + r.val < 65536 := by have := r.isLt; omega
  rw [View.read_apply]
  have eR : ((cfg0.win 13).blk t).view.emb (ix2 r q) = (ix2 ⟨2048 * t.val + r.val, hr⟩ q : S65536x4.Idx) := by
    funext a
    apply Fin.ext
    match a with
    | ⟨0, _⟩ => show win0_13.index t (0 : Fin 2) * 2048 + 1 * r.val = 2048 * t.val + r.val; rw [g0]; omega
    | ⟨1, _⟩ => show win0_13.index t (1 : Fin 2) * 4 + 1 * q.val = q.val; rw [g1]; omega
  refine Eq.trans ?_ (congrArg (G13 m c) eR).symm
  have eL : (cfg0.win 13).xinj (grid0.coords t) (ix2 r q) = (ix2 r q : S2048x4.Idx) :=
    funext fun a => match a with | ⟨0, _⟩ => rfl | ⟨1, _⟩ => rfl
  refine (congrArg (out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) eL).trans ?_
  refine (point13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _ _ _ _ _ _ _ t.val ht
    (fun r k hr => iblk0_apply m c t r k hr) (fun r k hr => iblk1_apply m c t r k hr) (fun r k hr => iblk2_apply m c t r k hr)
    (fun r k hr => iblk3_apply m c t r k hr) (fun r k hr => iblk4_apply m c t r k hr)
    ((congrArg colsL (iblk11_eq m c t)).trans (colsL_v24 m c)) ((congrArg elsL (iblk12_eq m c t)).trans (elsL_v25 m c)) r q hr).trans ?_
  unfold G13
  rw [iblk5_eq m c t, iblk6_eq m c t, iblk7_eq m c t, iblk8_eq m c t, iblk9_eq m c t, iblk10_eq m c t]

/-- What point `t` writes back to the second result array is block `t` of `G14`. -/
theorem flushed_eq14 (c : Dev nD) (t : Fin cfg0.N) :
    (dats m 0 c).flushed 14 t = ((cfg0.win 14).blk t).view.read (Elt Ideal) (G14 m c) := by
  rw [Value.flushed14]
  have ht := t_lt t
  obtain ⟨g0, g1⟩ := (idx_facts t).2.2.2.2.2.2.2.2.2.2.2.2.2.2
  refine funext fun (y : S2048x4.Idx) => ?_
  obtain ⟨r, q, rfl⟩ : ∃ (r : Fin 2048) (q : Fin 4), y = ix2 r q := ⟨y 0, y 1, eq_ix2 y⟩
  have hr : 2048 * t.val + r.val < 65536 := by have := r.isLt; omega
  rw [View.read_apply]
  have eR : ((cfg0.win 14).blk t).view.emb (ix2 r q) = (ix2 ⟨2048 * t.val + r.val, hr⟩ q : S65536x4.Idx) := by
    funext a
    apply Fin.ext
    match a with
    | ⟨0, _⟩ => show win0_14.index t (0 : Fin 2) * 2048 + 1 * r.val = 2048 * t.val + r.val; rw [g0]; omega
    | ⟨1, _⟩ => show win0_14.index t (1 : Fin 2) * 4 + 1 * q.val = q.val; rw [g1]; omega
  refine Eq.trans ?_ (congrArg (G14 m c) eR).symm
  have eL : (cfg0.win 14).xinj (grid0.coords t) (ix2 r q) = (ix2 r q : S2048x4.Idx) :=
    funext fun a => match a with | ⟨0, _⟩ => rfl | ⟨1, _⟩ => rfl
  refine (congrArg (out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) eL).trans ?_
  refine (point14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _ _ _ _ _ _ _ t.val ht
    (fun r k hr => iblk0_apply m c t r k hr) (fun r k hr => iblk1_apply m c t r k hr) (fun r k hr => iblk2_apply m c t r k hr)
    (fun r k hr => iblk3_apply m c t r k hr) (fun r k hr => iblk4_apply m c t r k hr)
    ((congrArg colsR (iblk11_eq m c t)).trans (colsR_v24 m c)) ((congrArg elsR (iblk12_eq m c t)).trans (elsR_v25 m c)) r q hr).trans ?_
  unfold G14
  rw [iblk5_eq m c t, iblk6_eq m c t, iblk7_eq m c t, iblk8_eq m c t, iblk9_eq m c t, iblk10_eq m c t]

/-! ## The blocks cover the result arrays -/

/-- An index of the first result array is in point `t`'s block iff each coordinate is in the block's range on its axis. -/
theorem mem_blk13 (t : Fin cfg0.N) (i : S65536x4.Idx) :
    i ∈ ((cfg0.win 13).blk t).view.set ↔ ∀ a : Fin 2, win0_13.index t a * S2048x4.size a ≤ (i a).val ∧ (i a).val < win0_13.index t a * S2048x4.size a + S2048x4.size a := by
  show i ∈ ((View.whole main_v26_0).slice (win0_13.rect t)).set ↔ _
  rw [View.set_slice_whole, Rect.mem_set_unit]
  exact Iff.rfl

/-- Every row is in some point's block: row `b` in that of point `b / 2048`. -/
theorem cover13 (i : S65536x4.Idx) :
    ∃ t : Fin cfg0.N, (cfg0.win 13).flush t = true ∧ i ∈ ((cfg0.win 13).blk t).view.set := by
  have hi0 : (i 0).val < 65536 := (i 0).isLt
  have hi1 : (i 1).val < 4 := (i 1).isLt
  obtain ⟨t, tv⟩ : ∃ t : Fin cfg0.N, t.val = (i 0).val / 2048 :=
    ⟨⟨(i 0).val / 2048, lt_of_lt_of_eq (by omega : (i 0).val / 2048 < 32) Gen.N_0.symm⟩, rfl⟩
  obtain ⟨g0, g1⟩ := (idx_facts t).2.2.2.2.2.2.2.2.2.2.2.2.2.1
  refine ⟨t, flush0_13 t, ?_⟩
  rw [mem_blk13]
  intro a
  match a with
  | ⟨0, _⟩ =>
    show win0_13.index t (0 : Fin 2) * 2048 ≤ (i 0).val ∧ (i 0).val < win0_13.index t (0 : Fin 2) * 2048 + 2048
    rw [g0, tv]; omega
  | ⟨1, _⟩ =>
    show win0_13.index t (1 : Fin 2) * 4 ≤ (i 1).val ∧ (i 1).val < win0_13.index t (1 : Fin 2) * 4 + 4
    rw [g1]; omega

/-- The first result array after the run is `G13` of the arguments. -/
theorem final13 (c : Dev nD) : (dats m 0 c).arrAt 13 cfg0.N = G13 m c :=
  (dats m 0 c).arrAt_eq_of_cover 13 (G13 m c) (fun t _ => flushed_eq13 m c t) cover13

/-- An index of the second result array is in point `t`'s block iff each coordinate is in the block's range on its axis. -/
theorem mem_blk14 (t : Fin cfg0.N) (i : S65536x4.Idx) :
    i ∈ ((cfg0.win 14).blk t).view.set ↔ ∀ a : Fin 2, win0_14.index t a * S2048x4.size a ≤ (i a).val ∧ (i a).val < win0_14.index t a * S2048x4.size a + S2048x4.size a := by
  show i ∈ ((View.whole main_v26_1).slice (win0_14.rect t)).set ↔ _
  rw [View.set_slice_whole, Rect.mem_set_unit]
  exact Iff.rfl

/-- Every row is in some point's block: row `b` in that of point `b / 2048`. -/
theorem cover14 (i : S65536x4.Idx) :
    ∃ t : Fin cfg0.N, (cfg0.win 14).flush t = true ∧ i ∈ ((cfg0.win 14).blk t).view.set := by
  have hi0 : (i 0).val < 65536 := (i 0).isLt
  have hi1 : (i 1).val < 4 := (i 1).isLt
  obtain ⟨t, tv⟩ : ∃ t : Fin cfg0.N, t.val = (i 0).val / 2048 :=
    ⟨⟨(i 0).val / 2048, lt_of_lt_of_eq (by omega : (i 0).val / 2048 < 32) Gen.N_0.symm⟩, rfl⟩
  obtain ⟨g0, g1⟩ := (idx_facts t).2.2.2.2.2.2.2.2.2.2.2.2.2.2
  refine ⟨t, flush0_14 t, ?_⟩
  rw [mem_blk14]
  intro a
  match a with
  | ⟨0, _⟩ =>
    show win0_14.index t (0 : Fin 2) * 2048 ≤ (i 0).val ∧ (i 0).val < win0_14.index t (0 : Fin 2) * 2048 + 2048
    rw [g0, tv]; omega
  | ⟨1, _⟩ =>
    show win0_14.index t (1 : Fin 2) * 4 ≤ (i 1).val ∧ (i 1).val < win0_14.index t (1 : Fin 2) * 4 + 4
    rw [g1]; omega

/-- The second result array after the run is `G14` of the arguments. -/
theorem final14 (c : Dev nD) : (dats m 0 c).arrAt 14 cfg0.N = G14 m c :=
  (dats m 0 c).arrAt_eq_of_cover 14 (G14 m c) (fun t _ => flushed_eq14 m c t) cover14

/-! ## The run, read -/

/-- The kernel's run: the two result arrays end at the specification's two arrays of the arguments (the four selections
    the program's own gathers), the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v26_0) = G13 m c
      ∧ r.2.mem ((c : Thread nD τ).loc main_v26_1) = G14 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final13 m c), (h c).2.1.trans (final14 m c), (h c).2.2⟩)
    (Cert.KernelIdeal.Value.run_blocks m ρ)

end Cert.GnnKer

end
-- ==== Proof.RefTerm.lean ====
/-
  The reference's two results as terms of its argument arrays and of the four arrays it gathers from the goal arrays:
  the same operations the reference applies, in its order, named stage by stage. The body and the three objects are
  slices of the observation array; the six pair arrays are laid side by side and stacked; two dense layers with a
  rectifier each act on the stack; the stack is summed over its first axis; a third dense layer with a rectifier and the
  two linear heads follow, the second head clipped.
-/
import proofs.«109254_j11948599017715_2_alg».proof.Proof.Gen.ReferenceIdeal
import Idealize.ShloMosaic.PureOps.Ideal

noncomputable section

namespace Cert.GnnRef

open Cert.ReferenceIdeal Cert.ReferenceIdeal.Gen Idealize.ShloMosaic

variable (obs : FVec Ideal S65536x55 .f32) (agf gf ags gs : FVec Ideal S65536x20 .f32)
  (w1 : FVec Ideal S80x256 .f32) (b1 : FVec Ideal S256 .f32) (w2 : FVec Ideal S256x256 .f32) (b2 : FVec Ideal S256 .f32)
  (rw : FVec Ideal S256x256 .f32) (rb : FVec Ideal S256 .f32) (hw : FVec Ideal S256x4 .f32) (hb : FVec Ideal S4 .f32)

/-- The body columns of the observation array. -/
def bodyA : FVec Ideal S65536x10 .f32 := extractStridedSlice S65536x10 ![0, 0] obs slices_S65536x55_S65536x10_0_0
/-- The three objects' columns. -/
def obj0A : FVec Ideal S65536x15 .f32 := extractStridedSlice S65536x15 ![0, 10] obs slices_S65536x55_S65536x15_0_10
def obj1A : FVec Ideal S65536x15 .f32 := extractStridedSlice S65536x15 ![0, 25] obs slices_S65536x55_S65536x15_0_25
def obj2A : FVec Ideal S65536x15 .f32 := extractStridedSlice S65536x15 ![0, 40] obs slices_S65536x55_S65536x15_0_40

/-- One pair array: five column groups side by side. -/
def catA (a : FVec Ideal S65536x20 .f32) (b : FVec Ideal S65536x10 .f32) (c : FVec Ideal S65536x20 .f32)
    (d e : FVec Ideal S65536x15 .f32) : FVec Ideal S65536x80 .f32 :=
  concatenate S65536x80 1 [⟨S65536x20, a⟩, ⟨S65536x10, b⟩, ⟨S65536x20, c⟩, ⟨S65536x15, d⟩, ⟨S65536x15, e⟩]
    concatenates_S65536x20_S65536x10_S65536x20_S65536x15_S65536x15_S65536x80_d1

/-- A pair array given a leading axis of extent one. -/
def upA (x : FVec Ideal S65536x80 .f32) : FVec Ideal S1x65536x80 .f32 :=
  broadcastInDim S1x65536x80 ![1, 2] bcast_S65536x80_S1x65536x80_1_2 x

/-- The six pair arrays stacked. -/
def stackA : FVec Ideal S6x65536x80 .f32 :=
  concatenate S6x65536x80 0
    [⟨S1x65536x80, upA (catA agf (bodyA obs) gf (obj0A obs) (obj1A obs))⟩,
     ⟨S1x65536x80, upA (catA agf (bodyA obs) gf (obj0A obs) (obj2A obs))⟩,
     ⟨S1x65536x80, upA (catA ags (bodyA obs) gs (obj1A obs) (obj0A obs))⟩,
     ⟨S1x65536x80, upA (catA agf (bodyA obs) gf (obj1A obs) (obj2A obs))⟩,
     ⟨S1x65536x80, upA (catA ags (bodyA obs) gs (obj2A obs) (obj0A obs))⟩,
     ⟨S1x65536x80, upA (catA ags (bodyA obs) gs (obj2A obs) (obj1A obs))⟩]
    concatenates_S1x65536x80_S1x65536x80_S1x65536x80_S1x65536x80_S1x65536x80_S1x65536x80_S6x65536x80_d0

/-- A bias of 256 numbers spread over the stack. -/
def bias3 (b : FVec Ideal S256 .f32) : FVec Ideal S6x65536x256 .f32 :=
  broadcastInDim S6x65536x256 ![0, 1, 2] bcast_S1x1x256_S6x65536x256_0_1_2 (broadcastInDim S1x1x256 ![2] bcast_S256_S1x1x256_2 b)
/-- The rectifier on the stack. -/
def relu3 (x : FVec Ideal S6x65536x256 .f32) : FVec Ideal S6x65536x256 .f32 :=
  maximumf x (broadcastInDim S6x65536x256 ![] bcast_S_S6x65536x256 (constant S_ .f32 0x00000000#32))
/-- A bias of 256 numbers spread over the rows. -/
def bias2 (b : FVec Ideal S256 .f32) : FVec Ideal S65536x256 .f32 :=
  broadcastInDim S65536x256 ![0, 1] bcast_S1x256_S65536x256_0_1 (broadcastInDim S1x256 ![1] bcast_S256_S1x256_1 b)
/-- The rectifier on a row array. -/
def relu2 (x : FVec Ideal S65536x256 .f32) : FVec Ideal S65536x256 .f32 :=
  maximumf x (broadcastInDim S65536x256 ![] bcast_S_S65536x256 (constant S_ .f32 0x00000000#32))
/-- A bias of 4 numbers spread over the rows. -/
def bias4 (b : FVec Ideal S4 .f32) : FVec Ideal S65536x4 .f32 :=
  broadcastInDim S65536x4 ![0, 1] bcast_S1x4_S65536x4_0_1 (broadcastInDim S1x4 ![1] bcast_S4_S1x4_1 b)

/-- First dense layer on the stack. -/
def hidA : FVec Ideal S6x65536x256 .f32 :=
  relu3 (addf (Host.dotGeneral dot_S6x65536x80_S80x256_S6x65536x256_2_0_01_1_n_n none (stackA obs agf gf ags gs) w1) (bias3 b1))
/-- Second dense layer on the stack. -/
def phiA : FVec Ideal S6x65536x256 .f32 :=
  relu3 (addf (Host.dotGeneral dot_S6x65536x256_S256x256_S6x65536x256_2_0_01_1_n_n none (hidA obs agf gf ags gs w1 b1) w2) (bias3 b2))
/-- The stack summed over the pairs. -/
def aggA : FVec Ideal S65536x256 .f32 :=
  Host.reduceAdd (phiA obs agf gf ags gs w1 b1 w2 b2) (constant S_ .f32 0x00000000#32) reducesTo_S6x65536x256_S65536x256_d0 h_S_
/-- Third dense layer. -/
def rhoA : FVec Ideal S65536x256 .f32 :=
  relu2 (addf (Host.dotGeneral dot_S65536x256_S256x256_S65536x256_1_0_0_1_n_n none (aggA obs agf gf ags gs w1 b1 w2 b2) rw) (bias2 rb))
/-- A linear head. -/
def headA : FVec Ideal S65536x4 .f32 :=
  addf (Host.dotGeneral dot_S65536x256_S256x4_S65536x4_1_0_0_1_n_n none (rhoA obs agf gf ags gs w1 b1 w2 b2 rw rb) hw) (bias4 hb)

/-- The first result: the mean head. -/
def meanTerm : FVec Ideal S65536x4 .f32 := headA obs agf gf ags gs w1 b1 w2 b2 rw rb hw hb
/-- The second result: the other head clipped, the lower bound first. -/
def logstdTerm : FVec Ideal S65536x4 .f32 :=
  minimumf (broadcastInDim S65536x4 ![] bcast_S_S65536x4 (id (constant S_ .f32 0x40000000#32)))
    (maximumf (broadcastInDim S65536x4 ![] bcast_S_S65536x4 (id (constant S_ .f32 0xC1A00000#32)))
      (headA obs agf gf ags gs w1 b1 w2 b2 rw rb hw hb))

end Cert.GnnRef

end
-- ==== Proof.RefOps.lean ====
/-
  The reference program's @main as a straight line of 86 host operations: its two windows in order, and each of its
  four calls (two rectifiers on the stack, one on the row array, one clip) replaced by the called function's operations
  over that call's own buffers.
-/
import proofs.«109254_j11948599017715_2_alg».proof.Proof.RefTerm
import Idealize.ShloMosaic.Lib.StableHlo.Run

noncomputable section

namespace Cert.GnnRef

open Cert.ReferenceIdeal Cert.ReferenceIdeal.Gen Idealize.ShloMosaic Idealize.ShloMosaic.TcCoe Idealize.SL.Sem Idealize.ShloMosaic.StableHlo

section Program

variable {F : FTy → Type} [FloatOps F]

/-- @main's 86 operations, in order, each call's operations listed where the call stands, over that call's buffers. -/
abbrev ops : List (HloOp τ sig (Elt F)) :=
  [ StableHlo.nullary main_c (fun i => lit0 (S20.rowMajor i)),
    StableHlo.nullary main_c_0 (constantI S20 1 0#1),
    StableHlo.nullary main_c_1 (constantI S20 1 0#1),
    StableHlo.nullary main_c_2 (fun i => lit1 (S20.rowMajor i)),
    StableHlo.nullary main_c_3 (constantI S20 1 0#1),
    StableHlo.nullary main_c_4 (constantI S20 1 0#1),
    StableHlo.unary main_arg0 main_v0 ((extractStridedSlice S65536x10 ![0, 0] · slices_S65536x55_S65536x10_0_0) : (⟨S65536x55, .f32⟩ : BufTy).Contents (Elt F) → (⟨S65536x10, .f32⟩ : BufTy).Contents (Elt F)),
    StableHlo.unary main_arg0 main_v1 ((extractStridedSlice S65536x15 ![0, 10] · slices_S65536x55_S65536x15_0_10) : (⟨S65536x55, .f32⟩ : BufTy).Contents (Elt F) → (⟨S65536x15, .f32⟩ : BufTy).Contents (Elt F)),
    StableHlo.unary main_arg0 main_v2 ((extractStridedSlice S65536x15 ![0, 25] · slices_S65536x55_S65536x15_0_25) : (⟨S65536x55, .f32⟩ : BufTy).Contents (Elt F) → (⟨S65536x15, .f32⟩ : BufTy).Contents (Elt F)),
    StableHlo.unary main_arg0 main_v3 ((extractStridedSlice S65536x15 ![0, 40] · slices_S65536x55_S65536x15_0_40) : (⟨S65536x55, .f32⟩ : BufTy).Contents (Elt F) → (⟨S65536x15, .f32⟩ : BufTy).Contents (Elt F)),
    StableHlo.nullary main_c_5 (constantI S_ 32 30#32),
    StableHlo.unary main_c_5 main_v4 (broadcastInDim S20 ![] bcast_S_S20 : (⟨S_, .i32⟩ : BufTy).Contents (Elt F) → (⟨S20, .i32⟩ : BufTy).Contents (Elt F)),
    StableHlo.binary main_c main_v4 main_v5 (addi : (⟨S20, .i32⟩ : BufTy).Contents (Elt F) → (⟨S20, .i32⟩ : BufTy).Contents (Elt F) → (⟨S20, .i32⟩ : BufTy).Contents (Elt F)),
    StableHlo.ternary main_c_0 main_v5 main_c main_v6 (select : (⟨S20, .i1⟩ : BufTy).Contents (Elt F) → (⟨S20, .i32⟩ : BufTy).Contents (Elt F) → (⟨S20, .i32⟩ : BufTy).Contents (Elt F) → (⟨S20, .i32⟩ : BufTy).Contents (Elt F)),
    StableHlo.unary main_v6 main_v7 (broadcastInDim S20x1 ![0] bcast_S20_S20x1_0 : (⟨S20, .i32⟩ : BufTy).Contents (Elt F) → (⟨S20x1, .i32⟩ : BufTy).Contents (Elt F)),
    StableHlo.binary main_arg1 main_v7 main_v8 ((fun x i => Host.gather gather_S65536x30_S20x1_S65536x20_0_1_n_n_1_1_655361 x i) : (⟨S65536x30, .f32⟩ : BufTy).Contents (Elt F) → (⟨S20x1, .i32⟩ : BufTy).Contents (Elt F) → (⟨S65536x20, .f32⟩ : BufTy).Contents (Elt F)),
    StableHlo.nullary main_c_6 (constantI S_ 32 30#32),
    StableHlo.unary main_c_6 main_v9 (broadcastInDim S20 ![] bcast_S_S20 : (⟨S_, .i32⟩ : BufTy).Contents (Elt F) → (⟨S20, .i32⟩ : BufTy).Contents (Elt F)),
    StableHlo.binary main_c main_v9 main_v10 (addi : (⟨S20, .i32⟩ : BufTy).Contents (Elt F) → (⟨S20, .i32⟩ : BufTy).Contents (Elt F) → (⟨S20, .i32⟩ : BufTy).Contents (Elt F)),
    StableHlo.ternary main_c_1 main_v10 main_c main_v11 (select : (⟨S20, .i1⟩ : BufTy).Contents (Elt F) → (⟨S20, .i32⟩ : BufTy).Contents (Elt F) → (⟨S20, .i32⟩ : BufTy).Contents (Elt F) → (⟨S20, .i32⟩ : BufTy).Contents (Elt F)),
    StableHlo.unary main_v11 main_v12 (broadcastInDim S20x1 ![0] bcast_S20_S20x1_0 : (⟨S20, .i32⟩ : BufTy).Contents (Elt F) → (⟨S20x1, .i32⟩ : BufTy).Contents (Elt F)),
    StableHlo.binary main_arg2 main_v12 main_v13 ((fun x i => Host.gather gather_S65536x30_S20x1_S65536x20_0_1_n_n_1_1_655361 x i) : (⟨S65536x30, .f32⟩ : BufTy).Contents (Elt F) → (⟨S20x1, .i32⟩ : BufTy).Contents (Elt F) → (⟨S65536x20, .f32⟩ : BufTy).Contents (Elt F)),
    StableHlo.nullary main_c_7 (constantI S_ 32 30#32),
    StableHlo.unary main_c_7 main_v14 (broadcastInDim S20 ![] bcast_S_S20 : (⟨S_, .i32⟩ : BufTy).Contents (Elt F) → (⟨S20, .i32⟩ : BufTy).Contents (Elt F)),
    StableHlo.binary main_c_2 main_v14 main_v15 (addi : (⟨S20, .i32⟩ : BufTy).Contents (Elt F) → (⟨S20, .i32⟩ : BufTy).Contents (Elt F) → (⟨S20, .i32⟩ : BufTy).Contents (Elt F)),
    StableHlo.ternary main_c_3 main_v15 main_c_2 main_v16 (select : (⟨S20, .i1⟩ : BufTy).Contents (Elt F) → (⟨S20, .i32⟩ : BufTy).Contents (Elt F) → (⟨S20, .i32⟩ : BufTy).Contents (Elt F) → (⟨S20, .i32⟩ : BufTy).Contents (Elt F)),
    StableHlo.unary main_v16 main_v17 (broadcastInDim S20x1 ![0] bcast_S20_S20x1_0 : (⟨S20, .i32⟩ : BufTy).Contents (Elt F) → (⟨S20x1, .i32⟩ : BufTy).Contents (Elt F)),
    StableHlo.binary main_arg1 main_v17 main_v18 ((fun x i => Host.gather gather_S65536x30_S20x1_S65536x20_0_1_n_n_1_1_655361 x i) : (⟨S65536x30, .f32⟩ : BufTy).Contents (Elt F) → (⟨S20x1, .i32⟩ : BufTy).Contents (Elt F) → (⟨S65536x20, .f32⟩ : BufTy).Contents (Elt F)),
    StableHlo.nullary main_c_8 (constantI S_ 32 30#32),
    StableHlo.unary main_c_8 main_v19 (broadcastInDim S20 ![] bcast_S_S20 : (⟨S_, .i32⟩ : BufTy).Contents (Elt F) → (⟨S20, .i32⟩ : BufTy).Contents (Elt F)),
    StableHlo.binary main_c_2 main_v19 main_v20 (addi : (⟨S20, .i32⟩ : BufTy).Contents (Elt F) → (⟨S20, .i32⟩ : BufTy).Contents (Elt F) → (⟨S20, .i32⟩ : BufTy).Contents (Elt F)),
    StableHlo.ternary main_c_4 main_v20 main_c_2 main_v21 (select : (⟨S20, .i1⟩ : BufTy).Contents (Elt F) → (⟨S20, .i32⟩ : BufTy).Contents (Elt F) → (⟨S20, .i32⟩ : BufTy).Contents (Elt F) → (⟨S20, .i32⟩ : BufTy).Contents (Elt F)),
    StableHlo.unary main_v21 main_v22 (broadcastInDim S20x1 ![0] bcast_S20_S20x1_0 : (⟨S20, .i32⟩ : BufTy).Contents (Elt F) → (⟨S20x1, .i32⟩ : BufTy).Contents (Elt F)),
    StableHlo.binary main_arg2 main_v22 main_v23 ((fun x i => Host.gather gather_S65536x30_S20x1_S65536x20_0_1_n_n_1_1_655361 x i) : (⟨S65536x30, .f32⟩ : BufTy).Contents (Elt F) → (⟨S20x1, .i32⟩ : BufTy).Contents (Elt F) → (⟨S65536x20, .f32⟩ : BufTy).Contents (Elt F)),
    StableHlo.nary ![main_v8, main_v0, main_v13, main_v1, main_v2] main_v24 (fun u => concatenate S65536x80 1 [⟨S65536x20, u 0⟩, ⟨S65536x10, u 1⟩, ⟨S65536x20, u 2⟩, ⟨S65536x15, u 3⟩, ⟨S65536x15, u 4⟩] concatenates_S65536x20_S65536x10_S65536x20_S65536x15_S65536x15_S65536x80_d1),
    StableHlo.nary ![main_v8, main_v0, main_v13, main_v1, main_v3] main_v25 (fun u => concatenate S65536x80 1 [⟨S65536x20, u 0⟩, ⟨S65536x10, u 1⟩, ⟨S65536x20, u 2⟩, ⟨S65536x15, u 3⟩, ⟨S65536x15, u 4⟩] concatenates_S65536x20_S65536x10_S65536x20_S65536x15_S65536x15_S65536x80_d1),
    StableHlo.nary ![main_v18, main_v0, main_v23, main_v2, main_v1] main_v26 (fun u => concatenate S65536x80 1 [⟨S65536x20, u 0⟩, ⟨S65536x10, u 1⟩, ⟨S65536x20, u 2⟩, ⟨S65536x15, u 3⟩, ⟨S65536x15, u 4⟩] concatenates_S65536x20_S65536x10_S65536x20_S65536x15_S65536x15_S65536x80_d1),
    StableHlo.nary ![main_v8, main_v0, main_v13, main_v2, main_v3] main_v27 (fun u => concatenate S65536x80 1 [⟨S65536x20, u 0⟩, ⟨S65536x10, u 1⟩, ⟨S65536x20, u 2⟩, ⟨S65536x15, u 3⟩, ⟨S65536x15, u 4⟩] concatenates_S65536x20_S65536x10_S65536x20_S65536x15_S65536x15_S65536x80_d1),
    StableHlo.nary ![main_v18, main_v0, main_v23, main_v3, main_v1] main_v28 (fun u => concatenate S65536x80 1 [⟨S65536x20, u 0⟩, ⟨S65536x10, u 1⟩, ⟨S65536x20, u 2⟩, ⟨S65536x15, u 3⟩, ⟨S65536x15, u 4⟩] concatenates_S65536x20_S65536x10_S65536x20_S65536x15_S65536x15_S65536x80_d1),
    StableHlo.nary ![main_v18, main_v0, main_v23, main_v3, main_v2] main_v29 (fun u => concatenate S65536x80 1 [⟨S65536x20, u 0⟩, ⟨S65536x10, u 1⟩, ⟨S65536x20, u 2⟩, ⟨S65536x15, u 3⟩, ⟨S65536x15, u 4⟩] concatenates_S65536x20_S65536x10_S65536x20_S65536x15_S65536x15_S65536x80_d1),
    StableHlo.unary main_v24 main_v30 (broadcastInDim S1x65536x80 ![1, 2] bcast_S65536x80_S1x65536x80_1_2 : (⟨S65536x80, .f32⟩ : BufTy).Contents (Elt F) → (⟨S1x65536x80, .f32⟩ : BufTy).Contents (Elt F)),
    StableHlo.unary main_v25 main_v31 (broadcastInDim S1x65536x80 ![1, 2] bcast_S65536x80_S1x65536x80_1_2 : (⟨S65536x80, .f32⟩ : BufTy).Contents (Elt F) → (⟨S1x65536x80, .f32⟩ : BufTy).Contents (Elt F)),
    StableHlo.unary main_v26 main_v32 (broadcastInDim S1x65536x80 ![1, 2] bcast_S65536x80_S1x65536x80_1_2 : (⟨S65536x80, .f32⟩ : BufTy).Contents (Elt F) → (⟨S1x65536x80, .f32⟩ : BufTy).Contents (Elt F)),
    StableHlo.unary main_v27 main_v33 (broadcastInDim S1x65536x80 ![1, 2] bcast_S65536x80_S1x65536x80_1_2 : (⟨S65536x80, .f32⟩ : BufTy).Contents (Elt F) → (⟨S1x65536x80, .f32⟩ : BufTy).Contents (Elt F)),
    StableHlo.unary main_v28 main_v34 (broadcastInDim S1x65536x80 ![1, 2] bcast_S65536x80_S1x65536x80_1_2 : (⟨S65536x80, .f32⟩ : BufTy).Contents (Elt F) → (⟨S1x65536x80, .f32⟩ : BufTy).Contents (Elt F)),
    StableHlo.unary main_v29 main_v35 (broadcastInDim S1x65536x80 ![1, 2] bcast_S65536x80_S1x65536x80_1_2 : (⟨S65536x80, .f32⟩ : BufTy).Contents (Elt F) → (⟨S1x65536x80, .f32⟩ : BufTy).Contents (Elt F)),
    StableHlo.nary ![main_v30, main_v31, main_v32, main_v33, main_v34, main_v35] main_v36 (fun u => concatenate S6x65536x80 0 [⟨S1x65536x80, u 0⟩, ⟨S1x65536x80, u 1⟩, ⟨S1x65536x80, u 2⟩, ⟨S1x65536x80, u 3⟩, ⟨S1x65536x80, u 4⟩, ⟨S1x65536x80, u 5⟩] concatenates_S1x65536x80_S1x65536x80_S1x65536x80_S1x65536x80_S1x65536x80_S1x65536x80_S6x65536x80_d0),
    StableHlo.binary main_v36 main_arg3 main_v37 ((fun l r => Host.dotGeneral dot_S6x65536x80_S80x256_S6x65536x256_2_0_01_1_n_n none l r) : (⟨S6x65536x80, .f32⟩ : BufTy).Contents (Elt F) → (⟨S80x256, .f32⟩ : BufTy).Contents (Elt F) → (⟨S6x65536x256, .f32⟩ : BufTy).Contents (Elt F)),
    StableHlo.unary main_arg4 main_v38 (broadcastInDim S1x1x256 ![2] bcast_S256_S1x1x256_2 : (⟨S256, .f32⟩ : BufTy).Contents (Elt F) → (⟨S1x1x256, .f32⟩ : BufTy).Contents (Elt F)),
    StableHlo.unary main_v38 main_v39 (broadcastInDim S6x65536x256 ![0, 1, 2] bcast_S1x1x256_S6x65536x256_0_1_2 : (⟨S1x1x256, .f32⟩ : BufTy).Contents (Elt F) → (⟨S6x65536x256, .f32⟩ : BufTy).Contents (Elt F)),
    StableHlo.binary main_v37 main_v39 main_v40 (addf : (⟨S6x65536x256, .f32⟩ : BufTy).Contents (Elt F) → (⟨S6x65536x256, .f32⟩ : BufTy).Contents (Elt F) → (⟨S6x65536x256, .f32⟩ : BufTy).Contents (Elt F)),
    TRef.nullary main_call0.cst (constant S_ .f32 0x00000000#32),
    TRef.unary main_call0.cst main_call0.v0 (broadcastInDim S6x65536x256 ![] bcast_S_S6x65536x256),
    TRef.binary (.of main_v40) main_call0.v0 main_call0.v1 maximumf,
    StableHlo.binary main_v41 main_arg5 main_v42 ((fun l r => Host.dotGeneral dot_S6x65536x256_S256x256_S6x65536x256_2_0_01_1_n_n none l r) : (⟨S6x65536x256, .f32⟩ : BufTy).Contents (Elt F) → (⟨S256x256, .f32⟩ : BufTy).Contents (Elt F) → (⟨S6x65536x256, .f32⟩ : BufTy).Contents (Elt F)),
    StableHlo.unary main_arg6 main_v43 (broadcastInDim S1x1x256 ![2] bcast_S256_S1x1x256_2 : (⟨S256, .f32⟩ : BufTy).Contents (Elt F) → (⟨S1x1x256, .f32⟩ : BufTy).Contents (Elt F)),
    StableHlo.unary main_v43 main_v44 (broadcastInDim S6x65536x256 ![0, 1, 2] bcast_S1x1x256_S6x65536x256_0_1_2 : (⟨S1x1x256, .f32⟩ : BufTy).Contents (Elt F) → (⟨S6x65536x256, .f32⟩ : BufTy).Contents (Elt F)),
    StableHlo.binary main_v42 main_v44 main_v45 (addf : (⟨S6x65536x256, .f32⟩ : BufTy).Contents (Elt F) → (⟨S6x65536x256, .f32⟩ : BufTy).Contents (Elt F) → (⟨S6x65536x256, .f32⟩ : BufTy).Contents (Elt F)),
    TRef.nullary main_call1.cst (constant S_ .f32 0x00000000#32),
    TRef.unary main_call1.cst main_call1.v0 (broadcastInDim S6x65536x256 ![] bcast_S_S6x65536x256),
    TRef.binary (.of main_v45) main_call1.v0 main_call1.v1 maximumf,
    StableHlo.nullary main_cst (constant S_ .f32 0x00000000#32),
    StableHlo.binary main_v46 main_cst main_v47 ((fun x v => Host.reduceAdd x v reducesTo_S6x65536x256_S65536x256_d0 h_S_) : (⟨S6x65536x256, .f32⟩ : BufTy).Contents (Elt F) → (⟨S_, .f32⟩ : BufTy).Contents (Elt F) → (⟨S65536x256, .f32⟩ : BufTy).Contents (Elt F)),
    StableHlo.binary main_v47 main_arg7 main_v48 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    StableHlo.unary main_arg8 main_v49 (broadcastInDim S1x256 ![1] bcast_S256_S1x256_1 : (⟨S256, .f32⟩ : BufTy).Contents (Elt F) → (⟨S1x256, .f32⟩ : BufTy).Contents (Elt F)),
    StableHlo.unary main_v49 main_v50 (broadcastInDim S65536x256 ![0, 1] bcast_S1x256_S65536x256_0_1 : (⟨S1x256, .f32⟩ : BufTy).Contents (Elt F) → (⟨S65536x256, .f32⟩ : BufTy).Contents (Elt F)),
    StableHlo.binary main_v48 main_v50 main_v51 (addf : (⟨S65536x256, .f32⟩ : BufTy).Contents (Elt F) → (⟨S65536x256, .f32⟩ : BufTy).Contents (Elt F) → (⟨S65536x256, .f32⟩ : BufTy).Contents (Elt F)),
    TRef.nullary main_call2.cst (constant S_ .f32 0x00000000#32),
    TRef.unary main_call2.cst main_call2.v0 (broadcastInDim S65536x256 ![] bcast_S_S65536x256),
    TRef.binary (.of main_v51) main_call2.v0 main_call2.v1 maximumf,
    StableHlo.binary main_v52 main_arg9 main_v53 ((fun l r => Host.dotGeneral dot_S65536x256_S256x4_S65536x4_1_0_0_1_n_n none l r) : (⟨S65536x256, .f32⟩ : BufTy).Contents (Elt F) → (⟨S256x4, .f32⟩ : BufTy).Contents (Elt F) → (⟨S65536x4, .f32⟩ : BufTy).Contents (Elt F)),
    StableHlo.unary main_arg10 main_v54 (broadcastInDim S1x4 ![1] bcast_S4_S1x4_1 : (⟨S4, .f32⟩ : BufTy).Contents (Elt F) → (⟨S1x4, .f32⟩ : BufTy).Contents (Elt F)),
    StableHlo.unary main_v54 main_v55 (broadcastInDim S65536x4 ![0, 1] bcast_S1x4_S65536x4_0_1 : (⟨S1x4, .f32⟩ : BufTy).Contents (Elt F) → (⟨S65536x4, .f32⟩ : BufTy).Contents (Elt F)),
    StableHlo.binary main_v53 main_v55 main_v56 (addf : (⟨S65536x4, .f32⟩ : BufTy).Contents (Elt F) → (⟨S65536x4, .f32⟩ : BufTy).Contents (Elt F) → (⟨S65536x4, .f32⟩ : BufTy).Contents (Elt F)),
    StableHlo.binary main_v52 main_arg11 main_v57 ((fun l r => Host.dotGeneral dot_S65536x256_S256x4_S65536x4_1_0_0_1_n_n none l r) : (⟨S65536x256, .f32⟩ : BufTy).Contents (Elt F) → (⟨S256x4, .f32⟩ : BufTy).Contents (Elt F) → (⟨S65536x4, .f32⟩ : BufTy).Contents (Elt F)),
    StableHlo.unary main_arg12 main_v58 (broadcastInDim S1x4 ![1] bcast_S4_S1x4_1 : (⟨S4, .f32⟩ : BufTy).Contents (Elt F) → (⟨S1x4, .f32⟩ : BufTy).Contents (Elt F)),
    StableHlo.unary main_v58 main_v59 (broadcastInDim S65536x4 ![0, 1] bcast_S1x4_S65536x4_0_1 : (⟨S1x4, .f32⟩ : BufTy).Contents (Elt F) → (⟨S65536x4, .f32⟩ : BufTy).Contents (Elt F)),
    StableHlo.binary main_v57 main_v59 main_v60 (addf : (⟨S65536x4, .f32⟩ : BufTy).Contents (Elt F) → (⟨S65536x4, .f32⟩ : BufTy).Contents (Elt F) → (⟨S65536x4, .f32⟩ : BufTy).Contents (Elt F)),
    StableHlo.nullary main_cst_9 (constant S_ .f32 0xC1A00000#32),
    StableHlo.nullary main_cst_10 (constant S_ .f32 0x40000000#32),
    TRef.unary (.of main_cst_9) main_call3.v0 id,
    TRef.unary main_call3.v0 main_call3.v1 (broadcastInDim S65536x4 ![] bcast_S_S65536x4),
    TRef.binary main_call3.v1 (.of main_v60) main_call3.v2 maximumf,
    TRef.unary (.of main_cst_10) main_call3.v3 id,
    TRef.unary main_call3.v3 main_call3.v4 (broadcastInDim S65536x4 ![] bcast_S_S65536x4),
    TRef.binary main_call3.v4 main_call3.v2 main_call3.v5 minimumf ]

set_option maxRecDepth 8192 in
set_option maxHeartbeats 4000000 in
/-- @main is that straight line: its two windows and the three called functions unfolded, both sides are one chain of
    steps once sequencing is reassociated. -/
theorem main_eq (c : Dev nD) : main (F := F) c = seq ops := by
  simp only [main, main_part0, main_part1, fn_relu.body, fn_relu_0.body, fn_clip.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., nullary_bufs_sub .., nullary_bufs_sub .., nullary_bufs_sub ..,
    unary_bufs_sub .., unary_bufs_sub .., unary_bufs_sub .., unary_bufs_sub .., nullary_bufs_sub .., unary_bufs_sub ..,
    binary_bufs_sub .., ternary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., ternary_bufs_sub .., unary_bufs_sub .., binary_bufs_sub .., nary_bufs_sub .., nary_bufs_sub ..,
    nary_bufs_sub .., nary_bufs_sub .., nary_bufs_sub .., nary_bufs_sub .., unary_bufs_sub .., unary_bufs_sub ..,
    unary_bufs_sub .., unary_bufs_sub .., unary_bufs_sub .., unary_bufs_sub .., nary_bufs_sub .., binary_bufs_sub ..,
    unary_bufs_sub .., unary_bufs_sub .., binary_bufs_sub .., nullary_bufs_sub .., unary_bufs_sub .., binary_bufs_sub ..,
    binary_bufs_sub .., unary_bufs_sub .., unary_bufs_sub .., binary_bufs_sub .., nullary_bufs_sub .., unary_bufs_sub ..,
    binary_bufs_sub .., nullary_bufs_sub .., binary_bufs_sub .., binary_bufs_sub .., unary_bufs_sub .., unary_bufs_sub ..,
    binary_bufs_sub .., nullary_bufs_sub .., unary_bufs_sub .., binary_bufs_sub .., binary_bufs_sub .., unary_bufs_sub ..,
    unary_bufs_sub .., binary_bufs_sub .., binary_bufs_sub .., unary_bufs_sub .., unary_bufs_sub .., binary_bufs_sub ..,
    nullary_bufs_sub .., nullary_bufs_sub .., unary_bufs_sub .., unary_bufs_sub .., binary_bufs_sub .., unary_bufs_sub ..,
    unary_bufs_sub .., binary_bufs_sub ..⟩

end Program

end Cert.GnnRef

end
-- ==== Proof.RefRun.lean ====
/-
  The reference program's run. Its @main is a straight line of 86 host operations once its four
  calls are unfolded at their call sites. Every weakly fair execution terminates; the first result buffer then holds
  the mean head's composed term of the argument arrays, the second the clipped head's, and the thirteen argument
  buffers are unchanged. The four arrays gathered from the two goal arrays are kept as the reference's own chain of
  operations on a goal array.
-/
import proofs.«109254_j11948599017715_2_alg».proof.Proof.RefOps

noncomputable section

namespace Cert.GnnRef

open Cert.ReferenceIdeal Cert.ReferenceIdeal.Gen Idealize.ShloMosaic Idealize.ShloMosaic.TcCoe Idealize.SL.Sem Idealize.ShloMosaic.StableHlo

/-! ## The gathered arrays

The reference's own operations on a goal array: the table of twenty column numbers, the sum of the table and the
broadcast constant 30, the choice between the two by a mask that is false everywhere, a trailing axis of extent one,
and the gather of the chosen columns. Nothing is evaluated here. -/

/-- The columns of the first table gathered from a goal array. -/
def selF (ag : FVec Ideal S65536x30 .f32) : FVec Ideal S65536x20 .f32 :=
  Host.gather gather_S65536x30_S20x1_S65536x20_0_1_n_n_1_1_655361 ag
    (broadcastInDim S20x1 ![0] bcast_S20_S20x1_0
      (select (constantI S20 1 0#1)
        (addi (fun i => lit0 (S20.rowMajor i)) (broadcastInDim S20 ![] bcast_S_S20 (constantI S_ 32 30#32)))
        (fun i => lit0 (S20.rowMajor i))))

/-- The columns of the second table gathered from a goal array. -/
def selS (ag : FVec Ideal S65536x30 .f32) : FVec Ideal S65536x20 .f32 :=
  Host.gather gather_S65536x30_S20x1_S65536x20_0_1_n_n_1_1_655361 ag
    (broadcastInDim S20x1 ![0] bcast_S20_S20x1_0
      (select (constantI S20 1 0#1)
        (addi (fun i => lit1 (S20.rowMajor i)) (broadcastInDim S20 ![] bcast_S_S20 (constantI S_ 32 30#32)))
        (fun i => lit1 (S20.rowMajor i))))

/-- The first selection of the achieved-goal array. -/
def AGF (ag : FVec Ideal S65536x30 .f32) : FVec Ideal S65536x20 .f32 := selF ag
/-- The first selection of the goal array. -/
def GF (g : FVec Ideal S65536x30 .f32) : FVec Ideal S65536x20 .f32 := selF g
/-- The second selection of the achieved-goal array. -/
def AGS (ag : FVec Ideal S65536x30 .f32) : FVec Ideal S65536x20 .f32 := selS ag
/-- The second selection of the goal array. -/
def GS (g : FVec Ideal S65536x30 .f32) : FVec Ideal S65536x20 .f32 := selS g

/-! ## An operation of five or six operands at its result buffer

The result with each operand's contents at its own reference, so that the operands' contents can be rewritten in turn. -/

section Nary

variable {τ' : Topo} {sig' : RefSig} {Val : EltTy → Type} {x a b c d e y : Ref sig' .tc}

theorem nary5_result'
    (f : ((k : Fin 5) → ((![x, a, b, c, d] : Fin 5 → Ref sig' .tc) k).ty.Contents Val) → y.ty.Contents Val) (hxs hy)
    (W : Valuation τ' sig' Val) :
    (nary (τ := τ') ![x, a, b, c, d] y f hxs hy).result W (no_index (Proc.devRef .tc y))
      = f (Fin.cons (W (Proc.devRef .tc x)) (Fin.cons (W (Proc.devRef .tc a)) (Fin.cons (W (Proc.devRef .tc b))
          (Fin.cons (W (Proc.devRef .tc c)) (Fin.cons (W (Proc.devRef .tc d)) (fun i => i.elim0)))))) := by
  rw [nary_result]; congr 1; funext k; fin_cases k <;> rfl

theorem nary6_result'
    (f : ((k : Fin 6) → ((![x, a, b, c, d, e] : Fin 6 → Ref sig' .tc) k).ty.Contents Val) → y.ty.Contents Val) (hxs hy)
    (W : Valuation τ' sig' Val) :
    (nary (τ := τ') ![x, a, b, c, d, e] y f hxs hy).result W (no_index (Proc.devRef .tc y))
      = f (Fin.cons (W (Proc.devRef .tc x)) (Fin.cons (W (Proc.devRef .tc a)) (Fin.cons (W (Proc.devRef .tc b))
          (Fin.cons (W (Proc.devRef .tc c)) (Fin.cons (W (Proc.devRef .tc d)) (Fin.cons (W (Proc.devRef .tc e)) (fun i => i.elim0))))))) := by
  rw [nary_result]; congr 1; funext k; fin_cases k <;> rfl

end Nary

/-- The fold of the operations read at a buffer, as one pass of rewriting: each operation's result at its own buffer is
    its function's value, at another buffer what was there. -/
macro "fold_results" : tactic =>
  `(tactic| (simp (disch := decide) only [after_cons, after_nil,
      nullary_result', unary_result', binary_result', ternary_result', nary5_result', nary6_result',
      nullary_result_ne', unary_result_ne', binary_result_ne', ternary_result_ne', nary_result_ne']))

/-! ## The two results and the arguments after the line -/

attribute [local irreducible] Host.gather Host.reduceAdd concatenate in
set_option maxRecDepth 16384 in
set_option maxHeartbeats 4000000 in
/-- The first result buffer after the line: the mean head's composed term. -/
theorem mean_eq (V : Valuation τ sig (Elt Ideal)) :
    after (ops (F := Ideal)) V (main_v56 : DevRef τ sig)
      = meanTerm (V (main_arg0 : DevRef τ sig)) (AGF (V (main_arg1 : DevRef τ sig))) (GF (V (main_arg2 : DevRef τ sig))) (AGS (V (main_arg1 : DevRef τ sig))) (GS (V (main_arg2 : DevRef τ sig))) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  fold_results
  rfl

attribute [local irreducible] Host.gather Host.reduceAdd concatenate in
set_option maxRecDepth 16384 in
set_option maxHeartbeats 4000000 in
/-- The second result buffer after the line: the other head's composed term, clipped. -/
theorem logstd_eq (V : Valuation τ sig (Elt Ideal)) :
    after (ops (F := Ideal)) V (main_v61 : DevRef τ sig)
      = logstdTerm (V (main_arg0 : DevRef τ sig)) (AGF (V (main_arg1 : DevRef τ sig))) (GF (V (main_arg2 : DevRef τ sig))) (AGS (V (main_arg1 : DevRef τ sig))) (GS (V (main_arg2 : DevRef τ sig))) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg11 : DevRef τ sig)) (V (main_arg12 : DevRef τ sig)) := by
  fold_results
  rfl

set_option maxRecDepth 16384 in
set_option maxHeartbeats 4000000 in
/-- No operation of the line writes an argument buffer. -/
theorem args_eq (V : Valuation τ sig (Elt Ideal)) :
    after (ops (F := Ideal)) V (main_arg0 : DevRef τ sig) = V (main_arg0 : DevRef τ sig)
    ∧ after (ops (F := Ideal)) V (main_arg1 : DevRef τ sig) = V (main_arg1 : DevRef τ sig)
    ∧ after (ops (F := Ideal)) V (main_arg2 : DevRef τ sig) = V (main_arg2 : DevRef τ sig)
    ∧ after (ops (F := Ideal)) V (main_arg3 : DevRef τ sig) = V (main_arg3 : DevRef τ sig)
    ∧ after (ops (F := Ideal)) V (main_arg4 : DevRef τ sig) = V (main_arg4 : DevRef τ sig)
    ∧ after (ops (F := Ideal)) V (main_arg5 : DevRef τ sig) = V (main_arg5 : DevRef τ sig)
    ∧ after (ops (F := Ideal)) V (main_arg6 : DevRef τ sig) = V (main_arg6 : DevRef τ sig)
    ∧ after (ops (F := Ideal)) V (main_arg7 : DevRef τ sig) = V (main_arg7 : DevRef τ sig)
    ∧ after (ops (F := Ideal)) V (main_arg8 : DevRef τ sig) = V (main_arg8 : DevRef τ sig)
    ∧ after (ops (F := Ideal)) V (main_arg9 : DevRef τ sig) = V (main_arg9 : DevRef τ sig)
    ∧ after (ops (F := Ideal)) V (main_arg10 : DevRef τ sig) = V (main_arg10 : DevRef τ sig)
    ∧ after (ops (F := Ideal)) V (main_arg11 : DevRef τ sig) = V (main_arg11 : DevRef τ sig)
    ∧ after (ops (F := Ideal)) V (main_arg12 : DevRef τ sig) = V (main_arg12 : DevRef τ sig) := by
  refine ⟨?_, ?_, ?_, ?_, ?_, ?_, ?_, ?_, ?_, ?_, ?_, ?_, ?_⟩ <;> fold_results

/-- On the device, from any memory with zero counters: every weakly fair execution of @main terminates with the first
    result at the mean head's term of the arguments' launch contents, the second at the clipped head's, and the
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v56) = meanTerm (m ((c.tc : Thread nD τ).loc main_arg0)) (AGF (m ((c.tc : Thread nD τ).loc main_arg1))) (GF (m ((c.tc : Thread nD τ).loc main_arg2))) (AGS (m ((c.tc : Thread nD τ).loc main_arg1))) (GS (m ((c.tc : Thread nD τ).loc main_arg2))) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v61) = logstdTerm (m ((c.tc : Thread nD τ).loc main_arg0)) (AGF (m ((c.tc : Thread nD τ).loc main_arg1))) (GF (m ((c.tc : Thread nD τ).loc main_arg2))) (AGS (m ((c.tc : Thread nD τ).loc main_arg1))) (GS (m ((c.tc : Thread nD τ).loc main_arg2))) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c =>
      have A := args_eq (launchContents m c)
      ⟨(h c main_v56).trans (mean_eq (launchContents m c)), (h c main_v61).trans (logstd_eq (launchContents m c)),
       (h c main_arg0).trans A.1,
       (h c main_arg1).trans A.2.1,
       (h c main_arg2).trans A.2.2.1,
       (h c main_arg3).trans A.2.2.2.1,
       (h c main_arg4).trans A.2.2.2.2.1,
       (h c main_arg5).trans A.2.2.2.2.2.1,
       (h c main_arg6).trans A.2.2.2.2.2.2.1,
       (h c main_arg7).trans A.2.2.2.2.2.2.2.1,
       (h c main_arg8).trans A.2.2.2.2.2.2.2.2.1,
       (h c main_arg9).trans A.2.2.2.2.2.2.2.2.2.1,
       (h c main_arg10).trans A.2.2.2.2.2.2.2.2.2.2.1,
       (h c main_arg11).trans A.2.2.2.2.2.2.2.2.2.2.2.1,
       (h c main_arg12).trans A.2.2.2.2.2.2.2.2.2.2.2.2⟩)
    (run_seq scopedRefs_eq scopedSems_eq defs main (fun _ => ops) main_eq (fun _ => ops_sub) m ρ)

end Cert.GnnRef

end
-- ==== Proof.LibStackDot.lean ====
/-
  Products read entry by entry, at the ideal values.

  A stack of G matrices, each m by k, times one k by n matrix — a product that contracts the stack's last axis with
  the matrix's first and keeps the stack's two leading axes — is, at entry (g, a, b), the sum over the contracted
  coordinate c of the stack's entry (g, a, c) times the matrix's entry (c, b). A plain m by k times k by n product
  whose dimension numbers are given as any record equal to the plain one reads the same way.
-/
import Idealize.ShloMosaic.PureOps.Ideal.Laws
import Idealize.ShloMosaic.Lib.ValueIdx
import Idealize.ShloMosaic.Lib.StackMember

noncomputable section

open scoped BigOperators

namespace Cert.LibStackDot

open Idealize.ShloMosaic Idealize.ShloMosaic.ValueIdx

/-- A stack of matrices times one matrix, read at an index. `w` is the record's well-formedness. -/
theorem dotGeneral_stackMat_apply {G m k n : Nat} {φ₁ φ₂ : FTy}
    (w : DotDims.WF ⟨3, ![G, m, k]⟩ ⟨2, ![k, n]⟩ ⟨3, ![G, m, n]⟩ [2] [0] [0, 1] [1] [] [])
    (prec : Option ContractPrecision) (A : FVec Ideal ⟨3, ![G, m, k]⟩ φ₁) (B : FVec Ideal ⟨2, ![k, n]⟩ φ₂)
    (g : Fin G) (a : Fin m) (b : Fin n) :
    Host.dotGeneral (⟨[2], [0], [0, 1], [1], [], [], w⟩ : DotDims _ _ _) prec A B (ix3 g a b)
      = ∑ c : Fin k, A (ix3 g a c) * B (ix2 c b) := by
  show FloatOps.dotGeneral _ prec _ A B (ix3 g a b) = _
  rw [Ideal.dotGeneral_apply,
    ← Equiv.sum_comp (contrEquiv1 (⟨[2], [0], [0, 1], [1], [], [], w⟩ : DotDims _ _ _) k rfl rfl).symm]
  refine Finset.sum_congr rfl fun c _ => ?_
  have c3 := contrEquiv1_symm_val
    (⟨[2], [0], [0, 1], [1], [], [], w⟩ : DotDims ⟨3, ![G, m, k]⟩ ⟨2, ![k, n]⟩ ⟨3, ![G, m, n]⟩) k rfl rfl c
  have l3 : (⟨[2], [0], [0, 1], [1], [], [], w⟩ : DotDims ⟨3, ![G, m, k]⟩ ⟨2, ![k, n]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [0], [0, 1], [1], [], [], w⟩ : DotDims ⟨3, ![G, m, k]⟩ ⟨2, ![k, n]⟩ ⟨3, ![G, m, n]⟩).rhsIdx (ix3 g a b)
      ((contrEquiv1 _ k rfl rfl).symm c) = ix2 c b := by
    funext ax; apply Fin.ext
    match ax with
    | ⟨0, _⟩ => simp [DotDims.rhsIdx]; exact c3
    | ⟨1, _⟩ => simp [DotDims.rhsIdx]; rfl
  rw [l3, r3]

/-- A plain product whose dimension numbers are any record equal to the plain one, read at an index. -/
theorem dotGeneral_eqPlain_apply {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    Host.dotGeneral d prec A B (ix2 a b) = ∑ c : Fin k, A (ix2 a c) * B (ix2 c b) := by
  subst hd
  exact StackMember.dotGeneral_plain_apply prec A B a b

end Cert.LibStackDot

end
-- ==== Proof.RefReadLayers.lean ====
/-
  The reference's dense layers, its sum over the six pairs and its heads, read entry by entry.

  Every stage is read at explicit coordinates: the rectifier is a maximum with zero, a bias spread over rows reads the
  bias entry of the last coordinate, a product is the sum over the contracted coordinate, the reduction over the stack's
  first axis is the sum of the six members. The stages are then matched, one after another, with the row functions
  hid, phi, agg, rho and head of the specification, taken at the six rows the stack holds for batch row b.
-/
import proofs.«109254_j11948599017715_2_alg».proof.Proof.RefTerm
import proofs.«109254_j11948599017715_2_alg».proof.Proof.Spec
import proofs.«109254_j11948599017715_2_alg».proof.Proof.LibStackDot
import Idealize.ShloMosaic.Lib.IdealHost
import Idealize.ShloMosaic.Lib.Pipeline.Value

noncomputable section

open scoped BigOperators

namespace Cert.GnnRef

open Cert.ReferenceIdeal Cert.ReferenceIdeal.Gen Idealize.ShloMosaic Idealize.ShloMosaic.ValueIdx Cert.GnnSpec Cert.LibStackDot

/-! ## The spread zero, the rectifiers and the spread biases -/

theorem relu3_apply (x : FVec Ideal S6x65536x256 .f32) (i : S6x65536x256.Idx) : relu3 x i = max (x i) 0 := by
  unfold relu3
  refine (maximumf_apply _ _ i).trans ?_
  rw [broadcastInDim_scalar_apply, constant_apply, Ideal.ofBits_zero_f32]

theorem relu2_apply (x : FVec Ideal S65536x256 .f32) (i : S65536x256.Idx) : relu2 x i = max (x i) 0 := by
  unfold relu2
  refine (maximumf_apply _ _ i).trans ?_
  rw [broadcastInDim_scalar_apply, constant_apply, Ideal.ofBits_zero_f32]

theorem bias3_apply (v : FVec Ideal S256 .f32) (p : Fin 6) (r : Fin 65536) (j : Fin 256) :
    bias3 v (ix3 p r j) = v (ix1 j) := by
  unfold bias3
  refine (broadcastInDim_apply _ _ _ (ix3 p r j) (ix3 (0 : Fin 1) (0 : Fin 1) j) (fun a => ?_)).trans ?_
  · match a with
    | ⟨0, _⟩ => rfl
    | ⟨1, _⟩ => rfl
    | ⟨2, _⟩ => rfl
  · exact broadcastInDim_apply _ _ _ _ (ix1 j) (fun a => by match a with | ⟨0, _⟩ => rfl)

theorem bias2_apply (v : FVec Ideal S256 .f32) (r : Fin 65536) (j : Fin 256) : bias2 v (ix2 r j) = v (ix1 j) := by
  unfold bias2
  refine (broadcastInDim_apply _ _ _ (ix2 r j) (ix2 (0 : Fin 1) j) (fun a => ?_)).trans ?_
  · match a with
    | ⟨0, _⟩ => rfl
    | ⟨1, _⟩ => rfl
  · exact broadcastInDim_apply _ _ _ _ (ix1 j) (fun a => by match a with | ⟨0, _⟩ => rfl)

theorem bias4_apply (v : FVec Ideal S4 .f32) (r : Fin 65536) (q : Fin 4) : bias4 v (ix2 r q) = v (ix1 q) := by
  unfold bias4
  refine (broadcastInDim_apply _ _ _ (ix2 r q) (ix2 (0 : Fin 1) q) (fun a => ?_)).trans ?_
  · match a with
    | ⟨0, _⟩ => rfl
    | ⟨1, _⟩ => rfl
  · exact broadcastInDim_apply _ _ _ _ (ix1 q) (fun a => by match a with | ⟨0, _⟩ => rfl)

/-! ## The four products -/

theorem dot80_apply (x : FVec Ideal S6x65536x80 .f32) (w : FVec Ideal S80x256 .f32) (p : Fin 6) (b : Fin 65536)
    (j : Fin 256) :
    Host.dotGeneral dot_S6x65536x80_S80x256_S6x65536x256_2_0_01_1_n_n none x w (ix3 p b j)
      = ∑ k : Fin 80, x (ix3 p b k) * w (ix2 k j) :=
  dotGeneral_stackMat_apply _ none x w p b j

theorem dot256s_apply (x : FVec Ideal S6x65536x256 .f32) (w : FVec Ideal S256x256 .f32) (p : Fin 6) (b : Fin 65536)
    (j : Fin 256) :
    Host.dotGeneral dot_S6x65536x256_S256x256_S6x65536x256_2_0_01_1_n_n none x w (ix3 p b j)
      = ∑ k : Fin 256, x (ix3 p b k) * w (ix2 k j) :=
  dotGeneral_stackMat_apply _ none x w p b j

theorem dot256_apply (x : FVec Ideal S65536x256 .f32) (w : FVec Ideal S256x256 .f32) (b : Fin 65536) (j : Fin 256) :
    Host.dotGeneral dot_S65536x256_S256x256_S65536x256_1_0_0_1_n_n none x w (ix2 b j)
      = ∑ k : Fin 256, x (ix2 b k) * w (ix2 k j) :=
  dotGeneral_eqPlain_apply _ rfl none x w b j

theorem dot4_apply (x : FVec Ideal S65536x256 .f32) (w : FVec Ideal S256x4 .f32) (b : Fin 65536) (q : Fin 4) :
    Host.dotGeneral dot_S65536x256_S256x4_S65536x4_1_0_0_1_n_n none x w (ix2 b q)
      = ∑ k : Fin 256, x (ix2 b k) * w (ix2 k q) :=
  dotGeneral_eqPlain_apply _ rfl none x w b q

/-! ## The reduction over the stack's first axis -/

theorem sum6_apply (x : FVec Ideal S6x65536x256 .f32) (b : Fin 65536) (o : Fin 256) :
    Host.reduceAdd x (constant (F := Ideal) S_ .f32 0x00000000#32) reducesTo_S6x65536x256_S65536x256_d0 h_S_ (ix2 b o)
      = ∑ p : Fin 6, x (ix3 p b o) := by
  have h : Shape.Reduces S6x65536x256 [0] S65536x256 := by decide
  refine (hostReduceAdd_apply _ _ _ _ _).trans ?_
  refine (Ideal.hostReduceAdd_single reducesTo_S6x65536x256_S65536x256_d0 h _ _ (ix2 b o)).trans ?_
  rw [constant_apply, Ideal.ofBits_zero_f32, zero_add]
  show ∑ p : Fin 6, x (h.lift (ix2 b o) p) = _
  refine Finset.sum_congr rfl fun p _ => ?_
  refine congrArg x (funext fun ax => Fin.ext ?_)
  match ax with
  | ⟨0, _⟩ => rfl
  | ⟨1, _⟩ => rfl
  | ⟨2, _⟩ => rfl

/-! ## The stages against the specification's row functions -/

variable (obs : FVec Ideal S65536x55 .f32) (agf gf ags gs : FVec Ideal S65536x20 .f32)
  (w1 : FVec Ideal S80x256 .f32) (b1 : FVec Ideal S256 .f32) (w2 : FVec Ideal S256x256 .f32) (b2 : FVec Ideal S256 .f32)
  (rw : FVec Ideal S256x256 .f32) (rb : FVec Ideal S256 .f32) (hw : FVec Ideal S256x4 .f32) (hb : FVec Ideal S4 .f32)

/-- The six rows of 80 numbers the stack holds for batch row `b`. -/
def stackRows (b : Fin 65536) : Fin 6 → Fin 80 → EReal := fun p k => stackA obs agf gf ags gs (ix3 p b k)

theorem hidA_apply (p : Fin 6) (b : Fin 65536) (j : Fin 256) :
    hidA obs agf gf ags gs w1 b1 (ix3 p b j)
      = hid (fun k j => w1 (ix2 k j)) (fun j => b1 (ix1 j)) (stackRows obs agf gf ags gs b p) j := by
  unfold hidA hid stackRows
  rw [relu3_apply, addf_apply, bias3_apply, dot80_apply]

theorem phiA_apply (p : Fin 6) (b : Fin 65536) (o : Fin 256) :
    phiA obs agf gf ags gs w1 b1 w2 b2 (ix3 p b o)
      = phi (fun k j => w1 (ix2 k j)) (fun j => b1 (ix1 j)) (fun j o => w2 (ix2 j o)) (fun o => b2 (ix1 o))
          (stackRows obs agf gf ags gs b p) o := by
  unfold phiA phi
  rw [relu3_apply, addf_apply, bias3_apply, dot256s_apply]
  refine congrArg (fun t => max (t + b2 (ix1 o)) 0) (Finset.sum_congr rfl fun j _ => ?_)
  rw [hidA_apply]

theorem aggA_apply (b : Fin 65536) (o : Fin 256) :
    aggA obs agf gf ags gs w1 b1 w2 b2 (ix2 b o)
      = agg (fun k j => w1 (ix2 k j)) (fun j => b1 (ix1 j)) (fun j o => w2 (ix2 j o)) (fun o => b2 (ix1 o))
          (stackRows obs agf gf ags gs b) o := by
  unfold aggA agg
  rw [sum6_apply]
  refine Finset.sum_congr rfl fun p _ => ?_
  rw [phiA_apply]

theorem rhoA_apply (b : Fin 65536) (j : Fin 256) :
    rhoA obs agf gf ags gs w1 b1 w2 b2 rw rb (ix2 b j)
      = rho (fun k j => w1 (ix2 k j)) (fun j => b1 (ix1 j)) (fun j o => w2 (ix2 j o)) (fun o => b2 (ix1 o))
          (fun o j => rw (ix2 o j)) (fun j => rb (ix1 j)) (stackRows obs agf gf ags gs b) j := by
  unfold rhoA rho
  rw [relu2_apply, addf_apply, bias2_apply, dot256_apply]
  refine congrArg (fun t => max (t + rb (ix1 j)) 0) (Finset.sum_congr rfl fun o _ => ?_)
  rw [aggA_apply]

theorem headA_apply (b : Fin 65536) (q : Fin 4) :
    headA obs agf gf ags gs w1 b1 w2 b2 rw rb hw hb (ix2 b q)
      = head (fun k j => w1 (ix2 k j)) (fun j => b1 (ix1 j)) (fun j o => w2 (ix2 j o)) (fun o => b2 (ix1 o))
          (fun o j => rw (ix2 o j)) (fun j => rb (ix1 j)) (stackRows obs agf gf ags gs b) (fun j => hw (ix2 j q))
          (hb (ix1 q)) := by
  unfold headA head
  rw [addf_apply, bias4_apply, dot4_apply]
  refine congrArg (fun t => t + hb (ix1 q)) (Finset.sum_congr rfl fun j _ => ?_)
  rw [rhoA_apply]

end Cert.GnnRef

end
-- ==== Proof.RefReadStack.lean ====
/-
  The reference's stack of six pair arrays, read entry by entry.

  The body and the three objects are column ranges of the observation array, so along batch row b they are the
  specification's body and objects of that row. A pair array lays five column groups side by side, so along row b it is
  the specification's cat5 of the five groups' rows. Giving it a leading axis of extent one changes no entry, and the
  stack's member p is the p-th pair array. Together: the stack at (p, b, k) is entry k of the p-th pair vector of row b.
-/
import proofs.«109254_j11948599017715_2_alg».proof.Proof.RefTerm
import proofs.«109254_j11948599017715_2_alg».proof.Proof.Spec
import proofs.«109254_j11948599017715_2_alg».proof.Proof.LibCat5
import Idealize.ShloMosaic.Lib.ValueLayout
import Idealize.ShloMosaic.Lib.Pipeline.Value

noncomputable section

open scoped BigOperators

namespace Cert.GnnRef

open Cert.ReferenceIdeal Cert.ReferenceIdeal.Gen Idealize.ShloMosaic Idealize.ShloMosaic.ValueIdx Cert.GnnSpec

variable (obs : FVec Ideal S65536x55 .f32) (agf gf ags gs : FVec Ideal S65536x20 .f32)

/-! ## The column ranges of the observation array along one row -/

theorem bodyA_apply (b : Fin 65536) (j : Fin 10) : bodyA obs (ix2 b j) = body (fun k => obs (ix2 b k)) j :=
  slice2_axis1_eq 0 obs slices_S65536x55_S65536x10_0_0 b j

theorem obj0A_apply (b : Fin 65536) (j : Fin 15) :
    obj0A obs (ix2 b j) = obj 10 (by omega) (fun k => obs (ix2 b k)) j :=
  slice2_axis1_eq 10 obs slices_S65536x55_S65536x15_0_10 b j

theorem obj1A_apply (b : Fin 65536) (j : Fin 15) :
    obj1A obs (ix2 b j) = obj 25 (by omega) (fun k => obs (ix2 b k)) j :=
  slice2_axis1_eq 25 obs slices_S65536x55_S65536x15_0_25 b j

theorem obj2A_apply (b : Fin 65536) (j : Fin 15) :
    obj2A obs (ix2 b j) = obj 40 (by omega) (fun k => obs (ix2 b k)) j :=
  slice2_axis1_eq 40 obs slices_S65536x55_S65536x15_0_40 b j

/-! ## One pair array -/

theorem catA_apply (a : FVec Ideal S65536x20 .f32) (b : FVec Ideal S65536x10 .f32) (c : FVec Ideal S65536x20 .f32)
    (d e : FVec Ideal S65536x15 .f32) (r : Fin 65536) (k : Fin 80) :
    catA a b c d e (ix2 r k)
      = cat5 (fun j => a (ix2 r j)) (fun j => b (ix2 r j)) (fun j => c (ix2 r j)) (fun j => d (ix2 r j))
          (fun j => e (ix2 r j)) k :=
  Cert.LibCat5.concat5_apply a b c d e _ r k

theorem upA_apply (x : FVec Ideal S65536x80 .f32) (r : Fin 65536) (k : Fin 80) :
    upA x (ix3 (0 : Fin 1) r k) = x (ix2 r k) := by
  unfold upA
  exact broadcastInDim_apply _ _ _ _ (ix2 r k) (fun a => by
    match a with
    | ⟨0, _⟩ => rfl
    | ⟨1, _⟩ => rfl)

/-- A pair array with its leading unit axis, along row `b`: the five groups' rows side by side, the body and the two
    objects being whatever the row's entries are known to be (`hD`, `hE`). -/
theorem pairA_apply (a c : FVec Ideal S65536x20 .f32) (d e : FVec Ideal S65536x15 .f32) (D E : Fin 15 → EReal)
    (b : Fin 65536) (k : Fin 80) (hD : ∀ j, d (ix2 b j) = D j) (hE : ∀ j, e (ix2 b j) = E j) :
    upA (catA a (bodyA obs) c d e) (ix3 (0 : Fin 1) b k)
      = cat5 (fun j => a (ix2 b j)) (body (fun k => obs (ix2 b k))) (fun j => c (ix2 b j)) D E k := by
  refine (upA_apply _ b k).trans ((catA_apply _ _ _ _ _ b k).trans ?_)
  rw [show (fun j => bodyA obs (ix2 b j)) = body (fun k => obs (ix2 b k)) from funext (bodyA_apply obs b),
    show (fun j => d (ix2 b j)) = D from funext hD, show (fun j => e (ix2 b j)) = E from funext hE]

/-! ## The stack -/

/-- Six arrays with a leading unit axis joined along that axis: member `p` is the `p`-th array. -/
theorem stack6_apply (x0 x1 x2 x3 x4 x5 : FVec Ideal S1x65536x80 .f32)
    (h : Shape.Concatenates [S1x65536x80, S1x65536x80, S1x65536x80, S1x65536x80, S1x65536x80, S1x65536x80] S6x65536x80 0)
    (b : Fin 65536) (k : Fin 80) (p : Fin 6) :
    concatenate S6x65536x80 0
        [⟨S1x65536x80, x0⟩, ⟨S1x65536x80, x1⟩, ⟨S1x65536x80, x2⟩, ⟨S1x65536x80, x3⟩, ⟨S1x65536x80, x4⟩, ⟨S1x65536x80, x5⟩]
        h (ix3 p b k)
      = (match p with
          | ⟨0, _⟩ => x0 | ⟨1, _⟩ => x1 | ⟨2, _⟩ => x2 | ⟨3, _⟩ => x3 | ⟨4, _⟩ => x4 | ⟨5, _⟩ => x5)
          (ix3 (0 : Fin 1) b k) := by
  have hi : ∀ (p : Fin 6) (a : Fin S1x65536x80.rank),
      a.cast (rfl : S1x65536x80.rank = S6x65536x80.rank) ≠ (0 : Fin S6x65536x80.rank) →
        ((ix3 (0 : Fin 1) b k) a).val = ((ix3 p b k) (a.cast rfl)).val := by
    intro p a ha
    match a with
    | ⟨0, _⟩ => exact absurd rfl ha
    | ⟨1, _⟩ => rfl
    | ⟨2, _⟩ => rfl
  match p with
  | ⟨0, _⟩ =>
    exact concatenate_apply_piece (t := S6x65536x80) 0
      [⟨S1x65536x80, x0⟩, ⟨S1x65536x80, x1⟩, ⟨S1x65536x80, x2⟩, ⟨S1x65536x80, x3⟩, ⟨S1x65536x80, x4⟩, ⟨S1x65536x80, x5⟩]
      h _ 0 (by show 0 < 6; omega) S1x65536x80 x0 rfl rfl 0 rfl
      (ix3 (0 : Fin 1) b k) (hi _) rfl
  | ⟨1, _⟩ =>
    exact concatenate_apply_piece (t := S6x65536x80) 0
      [⟨S1x65536x80, x0⟩, ⟨S1x65536x80, x1⟩, ⟨S1x65536x80, x2⟩, ⟨S1x65536x80, x3⟩, ⟨S1x65536x80, x4⟩, ⟨S1x65536x80, x5⟩]
      h _ 1 (by show 1 < 6; omega) S1x65536x80 x1 rfl rfl 1 rfl
      (ix3 (0 : Fin 1) b k) (hi _) rfl
  | ⟨2, _⟩ =>
    exact concatenate_apply_piece (t := S6x65536x80) 0
      [⟨S1x65536x80, x0⟩, ⟨S1x65536x80, x1⟩, ⟨S1x65536x80, x2⟩, ⟨S1x65536x80, x3⟩, ⟨S1x65536x80, x4⟩, ⟨S1x65536x80, x5⟩]
      h _ 2 (by show 2 < 6; omega) S1x65536x80 x2 rfl rfl 2 rfl
      (ix3 (0 : Fin 1) b k) (hi _) rfl
  | ⟨3, _⟩ =>
    exact concatenate_apply_piece (t := S6x65536x80) 0
      [⟨S1x65536x80, x0⟩, ⟨S1x65536x80, x1⟩, ⟨S1x65536x80, x2⟩, ⟨S1x65536x80, x3⟩, ⟨S1x65536x80, x4⟩, ⟨S1x65536x80, x5⟩]
      h _ 3 (by show 3 < 6; omega) S1x65536x80 x3 rfl rfl 3 rfl
      (ix3 (0 : Fin 1) b k) (hi _) rfl
  | ⟨4, _⟩ =>
    exact concatenate_apply_piece (t := S6x65536x80) 0
      [⟨S1x65536x80, x0⟩, ⟨S1x65536x80, x1⟩, ⟨S1x65536x80, x2⟩, ⟨S1x65536x80, x3⟩, ⟨S1x65536x80, x4⟩, ⟨S1x65536x80, x5⟩]
      h _ 4 (by show 4 < 6; omega) S1x65536x80 x4 rfl rfl 4 rfl
      (ix3 (0 : Fin 1) b k) (hi _) rfl
  | ⟨5, _⟩ =>
    exact concatenate_apply_piece (t := S6x65536x80) 0
      [⟨S1x65536x80, x0⟩, ⟨S1x65536x80, x1⟩, ⟨S1x65536x80, x2⟩, ⟨S1x65536x80, x3⟩, ⟨S1x65536x80, x4⟩, ⟨S1x65536x80, x5⟩]
      h _ 5 (by show 5 < 6; omega) S1x65536x80 x5 rfl rfl 5 rfl
      (ix3 (0 : Fin 1) b k) (hi _) rfl

/-- The stack at (p, b, k) is entry `k` of the `p`-th pair vector of row `b`. -/
theorem stackA_apply (p : Fin 6) (b : Fin 65536) (k : Fin 80) :
    stackA obs agf gf ags gs (ix3 p b k) = rowsOf obs agf gf ags gs b p k := by
  unfold stackA rowsOf
  match p with
  | ⟨0, hp⟩ =>
    exact (stack6_apply _ _ _ _ _ _ _ b k ⟨0, hp⟩).trans
      (pairA_apply obs agf gf (obj0A obs) (obj1A obs) _ _ b k (obj0A_apply obs b) (obj1A_apply obs b))
  | ⟨1, hp⟩ =>
    exact (stack6_apply _ _ _ _ _ _ _ b k ⟨1, hp⟩).trans
      (pairA_apply obs agf gf (obj0A obs) (obj2A obs) _ _ b k (obj0A_apply obs b) (obj2A_apply obs b))
  | ⟨2, hp⟩ =>
    exact (stack6_apply _ _ _ _ _ _ _ b k ⟨2, hp⟩).trans
      (pairA_apply obs ags gs (obj1A obs) (obj0A obs) _ _ b k (obj1A_apply obs b) (obj0A_apply obs b))
  | ⟨3, hp⟩ =>
    exact (stack6_apply _ _ _ _ _ _ _ b k ⟨3, hp⟩).trans
      (pairA_apply obs agf gf (obj1A obs) (obj2A obs) _ _ b k (obj1A_apply obs b) (obj2A_apply obs b))
  | ⟨4, hp⟩ =>
    exact (stack6_apply _ _ _ _ _ _ _ b k ⟨4, hp⟩).trans
      (pairA_apply obs ags gs (obj2A obs) (obj0A obs) _ _ b k (obj2A_apply obs b) (obj0A_apply obs b))
  | ⟨5, hp⟩ =>
    exact (stack6_apply _ _ _ _ _ _ _ b k ⟨5, hp⟩).trans
      (pairA_apply obs ags gs (obj2A obs) (obj1A obs) _ _ b k (obj2A_apply obs b) (obj1A_apply obs b))

end Cert.GnnRef

end
-- ==== Proof.RefRead.lean ====
/-
  The reference's two results are the specification's two arrays.

  The dense layers, the sum over the pairs and the heads, read entry by entry, are the specification's row functions at
  the six rows the stack holds for a batch row; those six rows are the specification's pair vectors of that row. The
  second result is clipped between the two bounds, the lower bound first, as the specification's clip is; the bounds stay
  as the bit patterns both sides name.
-/
import proofs.«109254_j11948599017715_2_alg».proof.Proof.RefTerm
import proofs.«109254_j11948599017715_2_alg».proof.Proof.Spec
import proofs.«109254_j11948599017715_2_alg».proof.Proof.RefReadLayers
import proofs.«109254_j11948599017715_2_alg».proof.Proof.RefReadStack
import Idealize.ShloMosaic.Lib.IdealHost

noncomputable section

open scoped BigOperators

namespace Cert.GnnRef

open Cert.ReferenceIdeal Cert.ReferenceIdeal.Gen Idealize.ShloMosaic Idealize.ShloMosaic.ValueIdx Cert.GnnSpec

variable (obs : FVec Ideal S65536x55 .f32) (agf gf ags gs : FVec Ideal S65536x20 .f32)
  (w1 : FVec Ideal S80x256 .f32) (b1 : FVec Ideal S256 .f32) (w2 : FVec Ideal S256x256 .f32) (b2 : FVec Ideal S256 .f32)
  (rw : FVec Ideal S256x256 .f32) (rb : FVec Ideal S256 .f32) (hw : FVec Ideal S256x4 .f32) (hb : FVec Ideal S4 .f32)

/-- The six rows the stack holds for batch row `b` are the specification's six pair vectors of that row. -/
theorem stackRows_eq (b : Fin 65536) : stackRows obs agf gf ags gs b = rowsOf obs agf gf ags gs b :=
  funext fun p => funext fun k => stackA_apply obs agf gf ags gs p b k

/-- A head of the reference at row `b`, column `q`, is the specification's. -/
theorem headA_eq (b : Fin 65536) (q : Fin 4) :
    headA obs agf gf ags gs w1 b1 w2 b2 rw rb hw hb (ix2 b q)
      = headAt (n := 65536) obs agf gf ags gs w1 b1 w2 b2 rw rb hw hb b q := by
  rw [headA_apply, stackRows_eq]
  rfl

/-- The spread upper bound of the clip reads the bound's bit pattern at every index. -/
theorem upper_apply (i : S65536x4.Idx) :
    broadcastInDim S65536x4 ![] bcast_S_S65536x4 (id (constant (F := Ideal) S_ .f32 0x40000000#32)) i
      = Ideal.ofBits .f32 0x40000000#32 :=
  broadcastInDim_scalar_apply _ _ i

/-- The spread lower bound likewise. -/
theorem lower_apply (i : S65536x4.Idx) :
    broadcastInDim S65536x4 ![] bcast_S_S65536x4 (id (constant (F := Ideal) S_ .f32 0xC1A00000#32)) i
      = Ideal.ofBits .f32 0xC1A00000#32 :=
  broadcastInDim_scalar_apply _ _ i

theorem meanTerm_eq :
    meanTerm obs agf gf ags gs w1 b1 w2 b2 rw rb hw hb
      = Cert.GnnSpec.meanArr (n := 65536) obs agf gf ags gs w1 b1 w2 b2 rw rb hw hb := by
  funext i
  obtain ⟨b, q, rfl⟩ : ∃ (b : Fin 65536) (q : Fin 4), i = ix2 b q := ⟨i 0, i 1, eq_ix2 i⟩
  rw [meanArr_ix2]
  unfold meanTerm
  exact headA_eq obs agf gf ags gs w1 b1 w2 b2 rw rb hw hb b q

theorem logstdTerm_eq :
    logstdTerm obs agf gf ags gs w1 b1 w2 b2 rw rb hw hb
      = Cert.GnnSpec.logstdArr (n := 65536) obs agf gf ags gs w1 b1 w2 b2 rw rb hw hb := by
  funext i
  obtain ⟨b, q, rfl⟩ : ∃ (b : Fin 65536) (q : Fin 4), i = ix2 b q := ⟨i 0, i 1, eq_ix2 i⟩
  rw [logstdArr_ix2]
  unfold logstdTerm clip
  refine (minimumf_apply _ _ _).trans ?_
  rw [upper_apply, maximumf_apply, lower_apply, headA_eq]

end Cert.GnnRef

end
-- ==== Proof.lean ====
/-
  The certificate of the pairwise message-passing kernel against its plain reference, on the extended reals.

  Both programs compute, for every batch row, the same function of the row (Proof/Spec.lean): six pair vectors laid out
  from the observation and four selections of the goal arrays, two dense layers with rectifiers on each, the sum of the
  six results, a third dense layer with a rectifier, and two linear heads, the second clipped into [-20, 2].
  The kernel handles 2048 rows per grid point, rounds its matrix operands to a shorter float format (the identity on the
  extended reals), adds the six results to a zero block one after the other, and computes both heads in one product with
  the two heads' parameters joined; the reference stacks the six pair arrays, applies the layers to the stack, sums it over
  its first axis, and computes the heads one by one. Sums of extended reals do not depend on grouping or order, a product
  with joined parameters is column by column the separate products, and every operation acts row by row, so the two
  results agree entry by entry; no finiteness of the inputs is used.

  The kernel's run and its frame come from the generated frame modules; the kernel's two result arrays are read off the
  run block by block (Proof/KerRun.lean over Proof/KerPay.lean); the reference's run is Proof/RefRun.lean and its two result
  terms are read entry by entry in Proof/RefRead.lean.
-/
import proofs.«109254_j11948599017715_2_alg».proof.Defs
import proofs.«109254_j11948599017715_2_alg».proof.Proof.Gen.Kernel
import proofs.«109254_j11948599017715_2_alg».proof.Proof.Gen.Kernel.Skeleton
import proofs.«109254_j11948599017715_2_alg».proof.Proof.Gen.Kernel.Launch
import proofs.«109254_j11948599017715_2_alg».proof.Proof.Gen.Kernel.Points
import proofs.«109254_j11948599017715_2_alg».proof.Proof.Gen.Kernel.Frame
import proofs.«109254_j11948599017715_2_alg».proof.Proof.Gen.KernelIdeal
import proofs.«109254_j11948599017715_2_alg».proof.Proof.Gen.KernelIdeal.Skeleton
import proofs.«109254_j11948599017715_2_alg».proof.Proof.Gen.KernelIdeal.Launch
import proofs.«109254_j11948599017715_2_alg».proof.Proof.Gen.KernelIdeal.Points
import proofs.«109254_j11948599017715_2_alg».proof.Proof.Gen.KernelIdeal.Frame
import proofs.«109254_j11948599017715_2_alg».proof.Proof.Gen.KernelIdeal.Value
import proofs.«109254_j11948599017715_2_alg».proof.Proof.Gen.ReferenceIdeal
import proofs.«109254_j11948599017715_2_alg».proof.Proof.Gen.Pre_finite_inputs
import proofs.«109254_j11948599017715_2_alg».proof.Proof.KerRun
import proofs.«109254_j11948599017715_2_alg».proof.Proof.RefRun
import proofs.«109254_j11948599017715_2_alg».proof.Proof.RefRead
import Idealize.ShloMosaic.Adequacy
import Idealize.ShloMosaic.Init

noncomputable section

namespace Cert.Proof

open Idealize.ShloMosaic Idealize.SL.Sem

/-- The two programs select the same columns of a goal array: their selection operations are the same terms. -/
theorem agf_eq (x : FVec Ideal Cert.ReferenceIdeal.S65536x30 .f32) : Cert.GnnRef.AGF x = Cert.GnnKer.AGF x := rfl
theorem gf_eq (x : FVec Ideal Cert.ReferenceIdeal.S65536x30 .f32) : Cert.GnnRef.GF x = Cert.GnnKer.GF x := rfl
theorem ags_eq (x : FVec Ideal Cert.ReferenceIdeal.S65536x30 .f32) : Cert.GnnRef.AGS x = Cert.GnnKer.AGS x := rfl
theorem gs_eq (x : FVec Ideal Cert.ReferenceIdeal.S65536x30 .f32) : Cert.GnnRef.GS x = Cert.GnnKer.GS x := rfl

theorem frame_k : Cert.frame_Kernel := fun m ρ _ => Cert.Kernel.Gen.frame m ρ
theorem frame_ki : Cert.frame_KernelIdeal := fun m ρ _ => Cert.KernelIdeal.Gen.frame m ρ
/-- The reference's frame is its run with the results dropped. -/
theorem frame_ri : Cert.frame_ReferenceIdeal := fun m ρ _ =>
  (θ_run Cert.ReferenceIdeal.defs _ _).mono (fun _ h c => (h c).2.2) (Cert.GnnRef.run m ρ)

/-- Both runs end with the two result arrays at the specification's arrays of the (agreeing) arguments. -/
theorem algebraic : Cert.algebraic_KernelIdeal_ReferenceIdeal := by
  intro m ρ m' ρ' _ hagree
  refine ⟨fun c => Cert.GnnKer.G13 m c, fun c => Cert.GnnKer.G14 m c, Cert.GnnKer.run m ρ, ?_⟩
  refine (θ_run Cert.ReferenceIdeal.defs _ _).mono (fun _ h c => ⟨(h c).1.trans ?_, (h c).2.1.trans ?_, (h c).2.2⟩)
    (Cert.GnnRef.run m' ρ')
  · obtain ⟨h0, h1, h2, h3, h4, h5, h6, h7, h8, h9, h10, h11, h12⟩ := hagree c
    rw [Cert.GnnRef.meanTerm_eq, h0, h1, h2, h3, h4, h5, h6, h7, h8, h9, h10, agf_eq, gf_eq, ags_eq, gs_eq]
    rfl
  · obtain ⟨h0, h1, h2, h3, h4, h5, h6, h7, h8, h9, h10, h11, h12⟩ := hagree c
    rw [Cert.GnnRef.logstdTerm_eq, h0, h1, h2, h3, h4, h5, h6, h7, h8, h11, h12, agf_eq, gf_eq, ags_eq, gs_eq]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
